-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3000000 : Shape := ⟨1, ![3000000]⟩
abbrev S500000 : Shape := ⟨1, ![500000]⟩
abbrev S_ : Shape := ⟨0, ![]⟩

class Facts : Prop where
  bcast_S_S3000000 : S_.BroadcastsInDim S3000000 (![] : Fin 0 → Fin S3000000.rank)
  reducesTo_S3000000_S_d0 : S3000000.ReducesTo [0] S_
  h_S_ : 0 < S_.numel
  bcast_S_S500000 : S_.BroadcastsInDim S500000 (![] : Fin 0 → Fin S500000.rank)
  reducesTo_S500000_S_d0 : S500000.ReducesTo [0] S_

variable [Facts]

def fn_part1 {F : FTy → Type} [FloatOps F] (main_arg4 : FVec F S500000 .f32) (main_v13 : IVec S_ 1) (main_v16 : IVec S3000000 1) : IVec S_ 1 :=
  let main_c_5 : IVec S_ 1 := constantI S_ 1 1#1
  let main_v17 : IVec S_ 1 := (fun x v => Host.reduce IntOp.andi x v reducesTo_S3000000_S_d0 h_S_) main_v16 main_c_5
  let main_v18 : IVec S_ 1 := andi main_v13 main_v17
  let main_v19 : FVec F S500000 .f32 := Host.absf main_arg4
  let main_cst_6 : FVec F S_ .f32 := constant S_ .f32 0x7F800000#32
  let main_v20 : FVec F S500000 .f32 := broadcastInDim S500000 ![] bcast_S_S500000 main_cst_6
  let main_v21 : IVec S500000 1 := cmpf .olt main_v19 main_v20
  let main_c_7 : IVec S_ 1 := constantI S_ 1 1#1
  let main_v22 : IVec S_ 1 := (fun x v => Host.reduce IntOp.andi x v reducesTo_S500000_S_d0 h_S_) main_v21 main_c_7
  let main_v23 : IVec S_ 1 := andi main_v18 main_v22
  main_v23

def fn {F : FTy → Type} [FloatOps F] (main_arg0 : FVec F S3000000 .f32) (main_arg1 : FVec F S3000000 .f32) (main_arg2 : FVec F S500000 .f32) (main_arg3 : FVec F S3000000 .f32) (main_arg4 : FVec F S500000 .f32) : IVec S_ 1 :=
  let main_v0 : FVec F S3000000 .f32 := Host.absf main_arg0
  let main_cst : FVec F S_ .f32 := constant S_ .f32 0x7F800000#32
  let main_v1 : FVec F S3000000 .f32 := broadcastInDim S3000000 ![] bcast_S_S3000000 main_cst
  let main_v2 : IVec S3000000 1 := cmpf .olt main_v0 main_v1
  let main_c : IVec S_ 1 := constantI S_ 1 1#1
  let main_v3 : IVec S_ 1 := (fun x v => Host.reduce IntOp.andi x v reducesTo_S3000000_S_d0 h_S_) main_v2 main_c
  let main_v4 : FVec F S3000000 .f32 := Host.absf main_arg1
  let main_cst_0 : FVec F S_ .f32 := constant S_ .f32 0x7F800000#32
  let main_v5 : FVec F S3000000 .f32 := broadcastInDim S3000000 ![] bcast_S_S3000000 main_cst_0
  let main_v6 : IVec S3000000 1 := cmpf .olt main_v4 main_v5
  let main_c_1 : IVec S_ 1 := constantI S_ 1 1#1
  let main_v7 : IVec S_ 1 := (fun x v => Host.reduce IntOp.andi x v reducesTo_S3000000_S_d0 h_S_) main_v6 main_c_1
  let main_v8 : IVec S_ 1 := andi main_v3 main_v7
  let main_v9 : FVec F S500000 .f32 := Host.absf main_arg2
  let main_cst_2 : FVec F S_ .f32 := constant S_ .f32 0x7F800000#32
  let main_v10 : FVec F S500000 .f32 := broadcastInDim S500000 ![] bcast_S_S500000 main_cst_2
  let main_v11 : IVec S500000 1 := cmpf .olt main_v9 main_v10
  let main_c_3 : IVec S_ 1 := constantI S_ 1 1#1
  let main_v12 : IVec S_ 1 := (fun x v => Host.reduce IntOp.andi x v reducesTo_S500000_S_d0 h_S_) main_v11 main_c_3
  let main_v13 : IVec S_ 1 := andi main_v8 main_v12
  let main_v14 : FVec F S3000000 .f32 := Host.absf main_arg3
  let main_cst_4 : FVec F S_ .f32 := constant S_ .f32 0x7F800000#32
  let main_v15 : FVec F S3000000 .f32 := broadcastInDim S3000000 ![] bcast_S_S3000000 main_cst_4
  let main_v16 : IVec S3000000 1 := cmpf .olt main_v14 main_v15
  fn_part1 (F := F) main_arg4 main_v13 main_v16
-- ==== Kernel.lean ====
abbrev S3000000 : Shape := ⟨1, ![3000000]⟩
abbrev S500000 : Shape := ⟨1, ![500000]⟩
abbrev S_ : Shape := ⟨0, ![]⟩
abbrev S3000320 : Shape := ⟨1, ![3000320]⟩
abbrev S23440x128 : Shape := ⟨2, ![23440, 128]⟩
abbrev S1x1 : Shape := ⟨2, ![1, 1]⟩
abbrev S2344x128 : Shape := ⟨2, ![2344, 128]⟩
abbrev S1x2344x128 : Shape := ⟨3, ![1, 2344, 128]⟩
abbrev S1 : Shape := ⟨1, ![1]⟩
abbrev S1x1x1 : Shape := ⟨3, ![1, 1, 1]⟩
abbrev S500736 : Shape := ⟨1, ![500736]⟩
abbrev S3912x128 : Shape := ⟨2, ![3912, 128]⟩
abbrev S1304x128 : Shape := ⟨2, ![1304, 128]⟩
abbrev S1x1304x128 : Shape := ⟨3, ![1, 1304, 128]⟩
abbrev S500000x6 : Shape := ⟨2, ![500000, 6]⟩
abbrev S50000x6 : Shape := ⟨2, ![50000, 6]⟩
abbrev S50000 : Shape := ⟨1, ![50000]⟩
abbrev S50000x1 : Shape := ⟨2, ![50000, 1]⟩
abbrev S1x50000x6 : Shape := ⟨3, ![1, 50000, 6]⟩

abbrev nBuf : Space → Nat
  | .hbm => 38
  | .vmem => 16
  | .smem => 0
  | _ => 0

abbrev bufTy : (tb : Table) → Fin (tcTables nBuf tb) → BufTy
  | .hbm, ⟨0, _⟩ => ⟨S3000000, .f32⟩
  | .hbm, ⟨1, _⟩ => ⟨S3000000, .f32⟩
  | .hbm, ⟨2, _⟩ => ⟨S500000, .f32⟩
  | .hbm, ⟨3, _⟩ => ⟨S3000000, .f32⟩
  | .hbm, ⟨4, _⟩ => ⟨S500000, .f32⟩
  | .hbm, ⟨5, _⟩ => ⟨S_, .i32⟩
  | .hbm, ⟨6, _⟩ => ⟨S_, .f32⟩
  | .hbm, ⟨7, _⟩ => ⟨S3000320, .f32⟩
  | .hbm, ⟨8, _⟩ => ⟨S_, .i32⟩
  | .hbm, ⟨9, _⟩ => ⟨S_, .f32⟩
  | .hbm, ⟨10, _⟩ => ⟨S3000320, .f32⟩
  | .hbm, ⟨11, _⟩ => ⟨S23440x128, .f32⟩
  | .hbm, ⟨12, _⟩ => ⟨S23440x128, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .i32⟩
  | .hbm, ⟨18, _⟩ => ⟨S_, .f32⟩
  | .hbm, ⟨19, _⟩ => ⟨S500736, .f32⟩
  | .hbm, ⟨20, _⟩ => ⟨S_, .i32⟩
  | .hbm, ⟨21, _⟩ => ⟨S_, .f32⟩
  | .hbm, ⟨22, _⟩ => ⟨S500736, .f32⟩
  | .hbm, ⟨23, _⟩ => ⟨S3912x128, .f32⟩
  | .hbm, ⟨24, _⟩ => ⟨S3912x128, .f32⟩
  | .hbm, ⟨25, _⟩ => ⟨S1x1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S500000x6, .f32⟩
  | .hbm, ⟨31, _⟩ => ⟨S1x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S2344x128, .f32⟩
  | .local _ .vmem, ⟨1, _⟩ => ⟨S2344x128, .f32⟩
  | .local _ .vmem, ⟨2, _⟩ => ⟨S2344x128, .f32⟩
  | .local _ .vmem, ⟨3, _⟩ => ⟨S2344x128, .f32⟩
  | .local _ .vmem, ⟨4, _⟩ => ⟨S1x1, .f32⟩
  | .local _ .vmem, ⟨5, _⟩ => ⟨S1x1, .f32⟩
  | .local _ .vmem, ⟨6, _⟩ => ⟨S1304x128, .f32⟩
  | .local _ .vmem, ⟨7, _⟩ => ⟨S1304x128, .f32⟩
  | .local _ .vmem, ⟨8, _⟩ => ⟨S1304x128, .f32⟩
  | .local _ .vmem, ⟨9, _⟩ => ⟨S1304x128, .f32⟩
  | .local _ .vmem, ⟨10, _⟩ => ⟨S1x1, .f32⟩
  | .local _ .vmem, ⟨11, _⟩ => ⟨S1x1, .f32⟩
  | .local _ .vmem, ⟨12, _⟩ => ⟨S50000x6, .f32⟩
  | .local _ .vmem, ⟨13, _⟩ => ⟨S50000x6, .f32⟩
  | .local _ .vmem, ⟨14, _⟩ => ⟨S1x1, .f32⟩
  | .local _ .vmem, ⟨15, _⟩ => ⟨S1x1, .f32⟩
  | _, _ => ⟨S3000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_c_1 : Ref sig .tc := ⟨.hbm, 17, rfl⟩
abbrev main_call2_v0 : Ref sig .tc := ⟨.hbm, 18, rfl⟩
abbrev main_v7 : Ref sig .tc := ⟨.hbm, 19, rfl⟩
abbrev main_c_2 : Ref sig .tc := ⟨.hbm, 20, rfl⟩
abbrev main_call3_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v19 : BitVec 1 := Scalar.cmpi .eq arg0 c9_i32
  let v20 : BitVec 32 := Scalar.extui v19
  let c0_i32_8 : BitVec 32 := 0#32
  let v21 : BitVec 1 := Scalar.cmpi .ne v20 c0_i32_8
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2344x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2344x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![3], ![false]⟩

def k1_cond2 (i : grid1.Coords) : BitVec 1 :=
  let arg0 : BitVec 32 := BitVec.ofNat 32 (i 0).val
  let c2_i32 : BitVec 32 := 2#32
  let v19 : BitVec 1 := Scalar.cmpi .eq arg0 c2_i32
  let v20 : BitVec 32 := Scalar.extui v19
  let c0_i32_8 : BitVec 32 := 0#32
  let v21 : BitVec 1 := Scalar.cmpi .ne v20 c0_i32_8
  v21

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1304x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1304x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v22 : BitVec 1 := Scalar.cmpi .eq arg0 c9_i32
  let v23 : BitVec 32 := Scalar.extui v22
  let c0_i32_8 : BitVec 32 := 0#32
  let v24 : BitVec 1 := Scalar.cmpi .ne v23 c0_i32_8
  v24

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S50000x6 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

class Facts₀ : Prop where
  pads_S3000000_S3000320_03200 : S3000000.Pads (![0] : Fin 1 → Nat) ![320] ![0] S3000320
  h_S_ : 0 < S_.numel
  shapeCasts_S3000320_S23440x128 : S3000320.ShapeCasts S23440x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2344x128_S2344x128_0_0 : ∀ a, (![0, 0] : Fin 2 → Nat) a + S2344x128.size a ≤ S2344x128.size a
  h_S2344x128 : 0 < S2344x128.numel
  shapeCasts_S2344x128_S2344x128 : S2344x128.ShapeCasts S2344x128
  shapeCasts_S2344x128_S1x2344x128 : S2344x128.ShapeCasts S1x2344x128
  reduces_S1x2344x128_S1 : S1x2344x128.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  pads_S500000_S500736_07360 : S500000.Pads (![0] : Fin 1 → Nat) ![736] ![0] S500736
  shapeCasts_S500736_S3912x128 : S500736.ShapeCasts S3912x128
  inb_S1304x128_S1304x128_0_0 : ∀ a, (![0, 0] : Fin 2 → Nat) a + S1304x128.size a ≤ S1304x128.size a
  h_S1304x128 : 0 < S1304x128.numel
  shapeCasts_S1304x128_S1304x128 : S1304x128.ShapeCasts S1304x128
  shapeCasts_S1304x128_S1x1304x128 : S1304x128.ShapeCasts S1x1304x128
  reduces_S1x1304x128_S1 : S1x1304x128.Reduces [1, 2] S1
  shapeCasts_S3000000_S500000x6 : S3000000.ShapeCasts S500000x6
  inb_S50000x6_S50000x6_0_0 : ∀ a, (![0, 0] : Fin 2 → Nat) a + S50000x6.size a ≤ S50000x6.size a
  h_S50000x6 : 0 < S50000x6.numel
  shapeCasts_S50000x6_S50000x6 : S50000x6.ShapeCasts S50000x6
  reduces_S50000x6_S50000 : S50000x6.Reduces [1] S50000
  shapeCasts_S50000_S50000x1 : S50000.ShapeCasts S50000x1
  broadcasts_S50000x1_S50000x6 : S50000x1.Broadcasts S50000x6
  shapeCasts_S50000x6_S1x50000x6 : S50000x6.ShapeCasts S1x50000x6
  reduces_S1x50000x6_S1 : S1x50000x6.Reduces [1, 2] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2344x128.size a ≤ S23440x128.size a
  hwx0_0 : ∀ i : grid0.Coords, EltTy.bits .f32 = 32 ∨ (Rect.block (s := S23440x128) S2344x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2344x128.size a ≤ S23440x128.size a
  hwx0_1 : ∀ i : grid0.Coords, EltTy.bits .f32 = 32 ∨ (Rect.block (s := S23440x128) S2344x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1304x128.size a ≤ S3912x128.size a
  hwx1_0 : ∀ i : grid1.Coords, EltTy.bits .f32 = 32 ∨ (Rect.block (s := S3912x128) S1304x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1304x128.size a ≤ S3912x128.size a
  hwx1_1 : ∀ i : grid1.Coords, EltTy.bits .f32 = 32 ∨ (Rect.block (s := S3912x128) S1304x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S50000x6.size a ≤ S500000x6.size a
  hwx2_0 : ∀ i : grid2.Coords, EltTy.bits .f32 = 32 ∨ (Rect.block (s := S500000x6) S50000x6.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)

variable [Facts₀]

abbrev win0_0 : Pipeline.Window sig grid0 :=
  Pipeline.Window.ofSpec (Memref.whole main_v2) S2344x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2344x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v9) S1304x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1304x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v15) S50000x6.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S1x1.size cc2_transform_1 reads2_1 true true 1 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev idle2 : Fin 2 → grid2.Coords → Bool := fun | 0 => fun _ => false | 1 => fun i => !(k2_cond2 i == 1#1) | ⟨_ + 2, h⟩ => absurd h (Nat.not_lt.2 (Nat.le_add_left _ _))

class Facts : Prop extends Facts₀ where

variable [Facts]
-- ==== ReferenceIdeal.lean ====
abbrev S3000000 : Shape := ⟨1, ![3000000]⟩
abbrev S500000 : Shape := ⟨1, ![500000]⟩
abbrev S_ : Shape := ⟨0, ![]⟩
abbrev S500000x6 : Shape := ⟨2, ![500000, 6]⟩
abbrev S500000x1 : Shape := ⟨2, ![500000, 1]⟩

abbrev nBuf : Space → Nat
  | .hbm => 35
  | .vmem => 0
  | .smem => 0
  | _ => 0

abbrev bufTy : (tb : Table) → Fin (tcTables nBuf tb) → BufTy
  | .hbm, ⟨0, _⟩ => ⟨S3000000, .f32⟩
  | .hbm, ⟨1, _⟩ => ⟨S3000000, .f32⟩
  | .hbm, ⟨2, _⟩ => ⟨S500000, .f32⟩
  | .hbm, ⟨3, _⟩ => ⟨S3000000, .f32⟩
  | .hbm, ⟨4, _⟩ => ⟨S500000, .f32⟩
  | .hbm, ⟨5, _⟩ => ⟨S3000000, .f32⟩
  | .hbm, ⟨6, _⟩ => ⟨S3000000, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S500000, .f32⟩
  | .hbm, ⟨12, _⟩ => ⟨S500000, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S500000x6, .f32⟩
  | .hbm, ⟨19, _⟩ => ⟨S_, .f32⟩
  | .hbm, ⟨20, _⟩ => ⟨S500000, .f32⟩
  | .hbm, ⟨21, _⟩ => ⟨S500000x1, .f32⟩
  | .hbm, ⟨22, _⟩ => ⟨S_, .f32⟩
  | .hbm, ⟨23, _⟩ => ⟨S500000x1, .f32⟩
  | .hbm, ⟨24, _⟩ => ⟨S500000x1, .f32⟩
  | .hbm, ⟨25, _⟩ => ⟨S500000x6, .f32⟩
  | .hbm, ⟨26, _⟩ => ⟨S500000x6, .f32⟩
  | .hbm, ⟨27, _⟩ => ⟨S500000x6, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S3000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_cst_7 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  reducesTo_S3000000_S_d0 : S3000000.ReducesTo [0] S_
  h_S_ : 0 < S_.numel
  reducesTo_S500000_S_d0 : S500000.ReducesTo [0] S_
  shapeCasts_S3000000_S500000x6 : S3000000.ShapeCasts S500000x6
  reducesTo_S500000x6_S500000_d1 : S500000x6.ReducesTo [1] S500000
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S500000x1_S500000x6_0_1 : S500000x1.BroadcastsInDim S500000x6 (![0, 1] : Fin 2 → Fin S500000x6.rank)
  reducesTo_S500000x6_S_d0_1 : S500000x6.ReducesTo [0, 1] S_

variable [Facts₀]

class Facts : Prop extends Facts₀ where

variable [Facts]
-- ==== Proof.BitsR0Runs.lean ====
/-
  Region 0: what the runs of its kernel body share — each window's block at a grid point, the two
  conditions of the body's branches decided over the grid (the first point; the last point), where the
  output window is idle, the staging and scratch memrefs — and the body's run in each of its three
  cases: the first point (the scratch reset, then the point's sum added), a middle point (the sum
  added to what the point before left), the last point (added, then the scratch copied to the output).
  The pieces each buffer ends with are found by running the body.
-/
import proofs.«145632_j87290915324054_1_alg».proof.Proof.Gen.Kernel.Launch
import proofs.«145632_j87290915324054_1_alg».proof.Proof.Gen.Kernel.Skeleton
import proofs.«145632_j87290915324054_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two branch conditions, over the grid -/

/-- The first branch (reset the scratch) is taken -/
abbrev cond0_0 (i : grid0.Coords) : Prop := (Scalar.cmpi .ne (Scalar.extui (Scalar.cmpi .eq (BitVec.ofNat 32 (i 0).val) 0#32)) 0#32) = 1#1
/-- at the first point only. -/
theorem hcond0_0 : ∀ t : Fin cfg0.N, cond0_0 (grid0.coords t) ↔ t.val = 0 :=
  (by decide +kernel : ∀ t : Fin grid0.N, cond0_0 (grid0.coords t) ↔ t.val = 0)
/-- The second branch (copy the scratch to the output) is taken -/
abbrev cond0_1 (i : grid0.Coords) : Prop := k0_cond2 i = 1#1
/-- at the last point only. -/
theorem hcond0_1 : ∀ t : Fin cfg0.N, cond0_1 (grid0.coords t) ↔ t.val = 9 :=
  (by decide +kernel : ∀ t : Fin grid0.N, cond0_1 (grid0.coords t) ↔ t.val = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the output window is idle (the body stores nothing into it) -/
theorem idleAt0_2 : ∀ t : Fin cfg0.N, ¬cond0_1 (grid0.coords t) → cfg0.idle 2 (grid0.coords t) = true := by decide +kernel
/-- and is not written back; -/
theorem noFlush0_2 : ∀ t : Fin cfg0.N, ¬cond0_1 (grid0.coords t) → (cfg0.win 2).flush t = false := by decide +kernel
/-- at the last point it is live. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0 : View sig .tc .vmem S1x1 .f32 := (Memref.whole cc0_stg2_0 : Memref sig .tc .vmem S1x1 .f32).view
abbrev ms0_0 (t : Fin cfg0.N) : Memref sig .tc .vmem S2344x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2344x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The scratch word the kernel carries between points. -/
abbrev scM0 : Memref sig .tc .vmem S1x1 .f32 := Memref.whole cc0_scratch0
abbrev VS0 : View sig .tc .vmem S1x1 .f32 := scM0.view

/-- The scoped buffers that are neither a staging buffer of this region nor its scratch, each whole at some contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_scratch0), ((c : Thread nD τ).loc cc2_scratch0) ↦{fullShare} f))

/-- The class invariant hands out the scratch at some contents, the other scoped buffers and the generator register, -/
theorem PhiA0_to (c : Dev nD) :
    (Pipeline.ΦA spec0 c : sProp 𝕄) ⊢ iprop(iprop((∃ d, owns (c : Thread nD τ) scM0 fullShare d) ∗ rest0 (F := F) c) ∗ (∃ r, prngReg c r)) := by
  unfold Pipeline.ΦA rest0; rw [scopedRest0_eq]; simp only [scM0, owns_whole]
  iintro ⟨⟨HS, R0, R1, R2, R3, R4, R5, R6, R7, R8, R9⟩, Hg⟩
  isplitr [Hg]
  swap; · iexact Hg
  isplitl [HS]; · iexact HS
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact R9

/-- and takes them back. -/
theorem PhiA0_from (c : Dev nD) :
    iprop(iprop((∃ d, owns (c : Thread nD τ) scM0 fullShare d) ∗ rest0 (F := F) c) ∗ (∃ r, prngReg c r)) ⊢ (Pipeline.ΦA spec0 c : sProp 𝕄) := by
  unfold Pipeline.ΦA rest0; rw [scopedRest0_eq]; simp only [scM0, owns_whole]
  iintro ⟨⟨HS, R0, R1, R2, R3, R4, R5, R6, R7, R8, R9⟩, Hg⟩
  isplitr [Hg]
  swap; · iexact Hg
  isplitl [HS]; · iexact HS
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact R9

/-! ## The body's run, case by case -/

set_option maxHeartbeats 1000000 in
/-- THE FIRST POINT (the reset taken, the copy-out not): on whole memrefs — the inputs' at their contents, the idle
    output's at contents handed back untouched, the scratch at anything — the body runs to the continuation holding
    the inputs' and the output's as they were and the scratch with the pieces `LS` written. -/
noncomputable def kernelRun0_A (c : Dev nD) (i : grid0.Coords) (arg1 : Memref sig .tc .vmem S2344x128 .f32) (harg1 : arg1.IsWhole) (arg2 : Memref sig .tc .vmem S2344x128 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S2344x128 .f32) (x1 : Vec F S2344x128 .f32) :
    { LS : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xo ∗ (∃ d, owns (c : Thread nD τ) arg4 fullShare d)
            ∗ (iprop(owns (c : Thread nD τ) arg1 fullShare x0 ∗ owns (c : Thread nD τ) arg2 fullShare x1 ∗ owns (c : Thread nD τ) arg3 fullShare xo ∗ (∃ f, arg4.view.loc (c : Thread nD τ) ↦[arg4.view.set]{fullShare} arg4.view.writes (Elt F) f LS)) -∗ K ⟨⟩))
          ⊢ wp frame (wpE (defs₀ (F := F)) Variants.none c none) E (cc0__sum_abs_diff_kernel i arg1 harg1 arg2 harg2 arg3 harg3 arg4 harg4) K } := by
  refine ⟨?_, fun xo E K => ?run⟩
  case run =>
    simp only [cc0__sum_abs_diff_kernel_eq_skeleton]; unfold cc0__sum_abs_diff_kernel_skel
    unfold owns
    iintro ⟨⟨%f0, %hf0, H0⟩, ⟨%f1, %hf1, H1⟩, ⟨%fo, %hfo, HO⟩, ⟨%ds, %fs, -, HS⟩, Hk⟩
    obtain rfl := harg1.eq_unread hf0; obtain rfl := harg2.eq_unread hf1; obtain rfl := harg3.eq_unread hfo
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HO]
    · iexists _; isplitr; · ipureintro; exact harg3.read_unread _
      iexact HO
    iexists _; iexact HS

set_option maxHeartbeats 1000000 in
/-- A MIDDLE POINT (neither branch taken): the scratch at what the point before left (`xs`); the body runs to the
    continuation holding the inputs' and the idle output's memrefs as they were and the scratch with `LS` written. -/
noncomputable def kernelRun0_B (c : Dev nD) (i : grid0.Coords) (arg1 : Memref sig .tc .vmem S2344x128 .f32) (harg1 : arg1.IsWhole) (arg2 : Memref sig .tc .vmem S2344x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S2344x128 .f32) (x1 : Vec F S2344x128 .f32) (xs : Vec F S1x1 .f32) :
    { LS : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xo ∗ owns (c : Thread nD τ) arg4 fullShare xs
            ∗ (iprop(owns (c : Thread nD τ) arg1 fullShare x0 ∗ owns (c : Thread nD τ) arg2 fullShare x1 ∗ owns (c : Thread nD τ) arg3 fullShare xo ∗ (∃ f, arg4.view.loc (c : Thread nD τ) ↦[arg4.view.set]{fullShare} arg4.view.writes (Elt F) f LS)) -∗ K ⟨⟩))
          ⊢ wp frame (wpE (defs₀ (F := F)) Variants.none c none) E (cc0__sum_abs_diff_kernel i arg1 harg1 arg2 harg2 arg3 harg3 arg4 harg4) K } := by
  refine ⟨?_, fun xo E K => ?run⟩
  case run =>
    simp only [cc0__sum_abs_diff_kernel_eq_skeleton]; unfold cc0__sum_abs_diff_kernel_skel
    unfold owns
    iintro ⟨⟨%f0, %hf0, H0⟩, ⟨%f1, %hf1, H1⟩, ⟨%fo, %hfo, HO⟩, ⟨%fs, %hfs, HS⟩, Hk⟩
    obtain rfl := harg1.eq_unread hf0; obtain rfl := harg2.eq_unread hf1; obtain rfl := harg3.eq_unread hfo; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HO]
    · iexists _; isplitr; · ipureintro; exact harg3.read_unread _
      iexact HO
    iexists _; iexact HS

set_option maxHeartbeats 1000000 in
/-- THE LAST POINT (the reset not taken, the copy-out taken): the scratch at what the point before left, the output's
    memref at anything; the body runs to the continuation holding the inputs' as they were, the output's with the
    pieces `LO` written and the scratch with `LS` written. -/
noncomputable def kernelRun0_C (c : Dev nD) (i : grid0.Coords) (arg1 : Memref sig .tc .vmem S2344x128 .f32) (harg1 : arg1.IsWhole) (arg2 : Memref sig .tc .vmem S2344x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S2344x128 .f32) (x1 : Vec F S2344x128 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LS)) -∗ K ⟨⟩))
          ⊢ wp frame (wpE (defs₀ (F := F)) Variants.none c none) E (cc0__sum_abs_diff_kernel i arg1 harg1 arg2 harg2 arg3 harg3 arg4 harg4) K } := by
  refine ⟨?_, ?_, fun E K => ?run⟩
  case run =>
    simp only [cc0__sum_abs_diff_kernel_eq_skeleton]; unfold cc0__sum_abs_diff_kernel_skel
    unfold owns
    iintro ⟨⟨%f0, %hf0, H0⟩, ⟨%f1, %hf1, H1⟩, ⟨%do_, %fo, -, HO⟩, ⟨%fs, %hfs, HS⟩, Hk⟩
    obtain rfl := harg1.eq_unread hf0; obtain rfl := harg2.eq_unread hf1; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HO]; · iexists _; iexact HO
    iexists _; iexact HS

end Cert.Kernel.Fr

end
-- ==== Proof.BitsR0Dat.lean ====
/-
  Region 0: what its output word and its scratch word hold after each grid point (a recursion on the
  point: the first point's run; a later point's run over what the point before left in the scratch),
  the region's invariant (before the first point the class's; afterwards the scratch at that point's
  contents, the other scoped buffers at anything, the generator register at some state), the proof data,
  the body obligation at every point by cases on the point, and the invariant's two ends.
-/
import proofs.«145632_j87290915324054_1_alg».proof.Proof.Gen.Kernel.Launch
import proofs.«145632_j87290915324054_1_alg».proof.Proof.Gen.Kernel.Skeleton
import proofs.«145632_j87290915324054_1_alg».proof.Proof.Gen.Kernel.Points
import proofs.«145632_j87290915324054_1_alg».proof.Proof.BitsR0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

theorem scover0_A (c : Dev nD) (i : grid0.Coords) (arg1 : Memref sig .tc .vmem S2344x128 .f32) (harg1 : arg1.IsWhole) (arg2 : Memref sig .tc .vmem S2344x128 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S2344x128 .f32) (x1 : Vec F S2344x128 .f32) (y : S1x1.Idx) :
    ∃ pc ∈ (kernelRun0_A c i arg1 harg1 arg2 harg2 arg3 harg3 arg4 harg4 hc0 hc1 x0 x1).1, y ∈ pc.1.set :=
  View.cover_of_tiledL (kernelRun0_A c i arg1 harg1 arg2 harg2 arg3 harg3 arg4 harg4 hc0 hc1 x0 x1).1 S1x1.size (by sl_kernel_rfl) y

/-- What the first point leaves in the scratch: its pieces read back. -/
def sout0_A (c : Dev nD) (i : grid0.Coords) (arg1 : Memref sig .tc .vmem S2344x128 .f32) (harg1 : arg1.IsWhole) (arg2 : Memref sig .tc .vmem S2344x128 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S2344x128 .f32) (x1 : Vec F S2344x128 .f32) : Vec F S1x1 .f32 :=
  VS0.read (Elt F) (VS0.writes (Elt F) VS0.junk (kernelRun0_A c i arg1 harg1 arg2 harg2 arg3 harg3 arg4 harg4 hc0 hc1 x0 x1).1)

theorem scover0_B (c : Dev nD) (i : grid0.Coords) (arg1 : Memref sig .tc .vmem S2344x128 .f32) (harg1 : arg1.IsWhole) (arg2 : Memref sig .tc .vmem S2344x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S2344x128 .f32) (x1 : Vec F S2344x128 .f32) (xs : Vec F S1x1 .f32) (y : S1x1.Idx) :
    ∃ pc ∈ (kernelRun0_B c i arg1 harg1 arg2 harg2 arg3 harg3 arg4 harg4 hc0 hc1 x0 x1 xs).1, y ∈ pc.1.set :=
  View.cover_of_tiledL (kernelRun0_B c i arg1 harg1 arg2 harg2 arg3 harg3 arg4 harg4 hc0 hc1 x0 x1 xs).1 S1x1.size (by sl_kernel_rfl) y

/-- What a middle point leaves in the scratch. -/
def sout0_B (c : Dev nD) (i : grid0.Coords) (arg1 : Memref sig .tc .vmem S2344x128 .f32) (harg1 : arg1.IsWhole) (arg2 : Memref sig .tc .vmem S2344x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S2344x128 .f32) (x1 : Vec F S2344x128 .f32) (xs : Vec F S1x1 .f32) : Vec F S1x1 .f32 :=
  VS0.read (Elt F) (VS0.writes (Elt F) VS0.junk (kernelRun0_B c i arg1 harg1 arg2 harg2 arg3 harg3 arg4 harg4 hc0 hc1 x0 x1 xs).1)

theorem cover0_C (c : Dev nD) (i : grid0.Coords) (arg1 : Memref sig .tc .vmem S2344x128 .f32) (harg1 : arg1.IsWhole) (arg2 : Memref sig .tc .vmem S2344x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S2344x128 .f32) (x1 : Vec F S2344x128 .f32) (xs : Vec F S1x1 .f32) (y : S1x1.Idx) :
    ∃ pc ∈ (kernelRun0_C c i arg1 harg1 arg2 harg2 arg3 harg3 arg4 harg4 hc0 hc1 x0 x1 xs).1, y ∈ pc.1.set :=
  View.cover_of_tiledL (kernelRun0_C c i arg1 harg1 arg2 harg2 arg3 harg3 arg4 harg4 hc0 hc1 x0 x1 xs).1 S1x1.size (by sl_kernel_rfl) y

/-- What the last point leaves in the output's staging buffer. -/
def out0_C (c : Dev nD) (i : grid0.Coords) (arg1 : Memref sig .tc .vmem S2344x128 .f32) (harg1 : arg1.IsWhole) (arg2 : Memref sig .tc .vmem S2344x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S2344x128 .f32) (x1 : Vec F S2344x128 .f32) (xs : Vec F S1x1 .f32) : Vec F S1x1 .f32 :=
  VO0.read (Elt F) (VO0.writes (Elt F) VO0.junk (kernelRun0_C c i arg1 harg1 arg2 harg2 arg3 harg3 arg4 harg4 hc0 hc1 x0 x1 xs).1)

theorem scover0_C (c : Dev nD) (i : grid0.Coords) (arg1 : Memref sig .tc .vmem S2344x128 .f32) (harg1 : arg1.IsWhole) (arg2 : Memref sig .tc .vmem S2344x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S2344x128 .f32) (x1 : Vec F S2344x128 .f32) (xs : Vec F S1x1 .f32) (y : S1x1.Idx) :
    ∃ pc ∈ (kernelRun0_C c i arg1 harg1 arg2 harg2 arg3 harg3 arg4 harg4 hc0 hc1 x0 x1 xs).2.1, y ∈ pc.1.set :=
  View.cover_of_tiledL (kernelRun0_C c i arg1 harg1 arg2 harg2 arg3 harg3 arg4 harg4 hc0 hc1 x0 x1 xs).2.1 S1x1.size (by sl_kernel_rfl) y

/-- What the last point leaves in the scratch. -/
def sout0_C (c : Dev nD) (i : grid0.Coords) (arg1 : Memref sig .tc .vmem S2344x128 .f32) (harg1 : arg1.IsWhole) (arg2 : Memref sig .tc .vmem S2344x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S2344x128 .f32) (x1 : Vec F S2344x128 .f32) (xs : Vec F S1x1 .f32) : Vec F S1x1 .f32 :=
  VS0.read (Elt F) (VS0.writes (Elt F) VS0.junk (kernelRun0_C c i arg1 harg1 arg2 harg2 arg3 harg3 arg4 harg4 hc0 hc1 x0 x1 xs).2.1)

/-- Contents nothing consults: the output's buffer at a point where the window is idle. -/
def ojunk0 : Vec F S1x1 .f32 := VO0.read (Elt F) (VO0.writes (Elt F) VO0.junk [])

section
variable (V : (c : Dev nD) → (b : Ref sig .tc) → Buf (Elt F) ((c : Thread nD τ).loc b))

/-! ## Point by point -/

/-- What the output's staging buffer and the scratch hold after the body at position `n` (a pair): the first point's
    run on the point's blocks; at a later point the middle or the last run over what position `n - 1` left in the scratch. -/
def outsAt0 (c : Dev nD) : (n : ℕ) → n < cfg0.N → Vec F S1x1 .f32 × Vec F S1x1 .f32
  | 0, hn => (ojunk0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr rfl) (fun h => by have := (hcond0_1 ⟨0, hn⟩).mp h; (try dsimp only at this); omega) (iblk0 V c 0 ⟨0, hn⟩) (iblk0 V c 1 ⟨0, hn⟩))
  | n + 1, hn =>
    if h1 : n + 1 = 9 then
      (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => by have := (hcond0_0 ⟨n + 1, hn⟩).mp h; (try dsimp only at this); omega) ((hcond0_1 ⟨n + 1, hn⟩).mpr h1) (iblk0 V c 0 ⟨n + 1, hn⟩) (iblk0 V c 1 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => by have := (hcond0_0 ⟨n + 1, hn⟩).mp h; (try dsimp only at this); omega) ((hcond0_1 ⟨n + 1, hn⟩).mpr h1) (iblk0 V c 0 ⟨n + 1, hn⟩) (iblk0 V c 1 ⟨n + 1, hn⟩) (outsAt0 c n (Nat.lt_of_succ_lt hn)).2)
    else
      (ojunk0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => by have := (hcond0_0 ⟨n + 1, hn⟩).mp h; (try dsimp only at this); omega) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val = 0) (h1 : t.val ≠ 9) :
    outsAt0 V c t.val t.isLt = (ojunk0, sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact absurd h0 (Nat.succ_ne_zero n)

theorem outsAt0_B (c : Dev nD) (t : Fin cfg0.N) (h0 : t.val ≠ 0) (h1 : t.val ≠ 9) :
    outsAt0 V c t.val t.isLt = (ojunk0, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

theorem outsAt0_C (c : Dev nD) (t : Fin cfg0.N) (h0 : t.val ≠ 0) (h1 : t.val = 9) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant -/

/-- Before position `n`: at the first point the class's invariant (every scoped buffer at anything, the generator
    register at some state); afterwards the scratch at what the point before left, the rest as before. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 (F := F) c) ∗ (∃ r, prngReg c r)) := by
  cases n with
  | zero => exact absurd rfl hz
  | succ n => rfl

/-! ## The proof data -/

/-- The proof data of pipeline 0 on core `c` at the region-entry contents `V`: after the body at point `t` each input's
    buffer at its block and the output's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the point is the first, a middle or the last one
    (its position decides the two branches); the invariant hands the body the scratch — at anything at the first
    point, at what the point before left afterwards — and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val = 0
  · have h1 : t.val ≠ 9 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A; (try dsimp only)
    rw [PhiS0_castSucc V c t, PhiS0_zero V c _ _ h0]
    iintro ⟨HΦ, Ho, ⟨%d0, H0⟩, ⟨%d1, H1⟩, ⟨%do_, HO⟩⟩
    ihave HΦ' := (PhiA0_to (F := F) c) $$ HΦ
    icases HΦ' with ⟨⟨HS, Hrest⟩, Hg⟩
    iapply ((kernelRun0_A c (grid0.coords t) _ _ _ _ _ _ _ _ ((hcond0_0 t).mpr h0) (fun h => h1 ((hcond0_1 t).mp h)) (iblk0 V c 0 t) (iblk0 V c 1 t)).2 _ Set.univ _)
    isplitl [H0]; · iexact H0
    isplitl [H1]; · iexact H1
    isplitl [HO]; · iexact HO
    isplitl [HS]; · iexact HS
    iintro ⟨H0, H1, HO, ⟨%es, HS⟩⟩
    isplitl [HS Hrest Hg]
    · isplitl [HS Hrest]
      · isplitl [HS]
        · unfold owns; iexists _; isplitr
          swap; · iexact HS
          ipureintro; exact View.read_writes_of_cover _ _ _ _ _ (scover0_A c _ _ _ _ _ _ _ _ _ _ _ _ _)
        iexact Hrest
      iexact Hg
    isplitl [Ho]; · iexact Ho
    isplitl [H0]; · iexact H0
    isplitl [H1]; · iexact H1
    iexists _; iexact HO
  · by_cases h1 : t.val = 9
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      rw [PhiS0_castSucc V c t, PhiS0_pos V c _ _ h0]
      iintro ⟨⟨⟨HS, Hrest⟩, Hg⟩, Ho, ⟨%d0, H0⟩, ⟨%d1, H1⟩, ⟨%do_, HO⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [HO]; · iexists _; iexact HO
      isplitl [HS]; · iexact HS
      iintro ⟨H0, H1, ⟨%eo, HO⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover0_C c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact HO
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS0_castSucc V c t, PhiS0_pos V c _ _ h0]
      iintro ⟨⟨⟨HS, Hrest⟩, Hg⟩, Ho, ⟨%d0, H0⟩, ⟨%d1, H1⟩, ⟨%do_, HO⟩⟩
      iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [HO]; · iexact HO
      isplitl [HS]; · iexact HS
      iintro ⟨H0, H1, HO, ⟨%es, HS⟩⟩
      isplitl [HS Hrest Hg]
      · isplitl [HS Hrest]
        · isplitl [HS]
          · unfold owns; iexists _; isplitr
            swap; · iexact HS
            ipureintro; exact View.read_writes_of_cover _ _ _ _ _ (scover0_B c _ _ _ _ _ _ _ _ _ _ _ _ _ _)
          iexact Hrest
        iexact Hg
      isplitl [Ho]; · iexact Ho
      isplitl [H0]; · iexact H0
      isplitl [H1]; · iexact H1
      iexists _; iexact HO

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant's two ends -/

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch's named contents are forgotten. -/
theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 10 := N_0; omega)]
  iintro ⟨⟨HS, Hrest⟩, Hg⟩
  iapply (PhiA0_from (F := F) c)
  isplitl [HS Hrest]
  · isplitl [HS]
    · iexists _; iexact HS
    iexact Hrest
  iexact Hg

end

end Cert.Kernel.Fr

end
-- ==== Proof.BitsR1Runs.lean ====
/-
  Region 1: what the runs of its kernel body share — each window's block at a grid point, the two
  conditions of the body's branches decided over the grid (the first point; the last point), where the
  output window is idle, the staging and scratch memrefs — and the body's run in each of its three
  cases: the first point (the scratch reset, then the point's sum added), a middle point (the sum
  added to what the point before left), the last point (added, then the scratch copied to the output).
  The pieces each buffer ends with are found by running the body.
-/
import proofs.«145632_j87290915324054_1_alg».proof.Proof.Gen.Kernel.Launch
import proofs.«145632_j87290915324054_1_alg».proof.Proof.Gen.Kernel.Skeleton
import proofs.«145632_j87290915324054_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two branch conditions, over the grid -/

/-- The first branch (reset the scratch) is taken -/
abbrev cond1_0 (i : grid1.Coords) : Prop := (Scalar.cmpi .ne (Scalar.extui (Scalar.cmpi .eq (BitVec.ofNat 32 (i 0).val) 0#32)) 0#32) = 1#1
/-- at the first point only. -/
theorem hcond1_0 : ∀ t : Fin cfg1.N, cond1_0 (grid1.coords t) ↔ t.val = 0 :=
  (by decide +kernel : ∀ t : Fin grid1.N, cond1_0 (grid1.coords t) ↔ t.val = 0)
/-- The second branch (copy the scratch to the output) is taken -/
abbrev cond1_1 (i : grid1.Coords) : Prop := k1_cond2 i = 1#1
/-- at the last point only. -/
theorem hcond1_1 : ∀ t : Fin cfg1.N, cond1_1 (grid1.coords t) ↔ t.val = 2 :=
  (by decide +kernel : ∀ t : Fin grid1.N, cond1_1 (grid1.coords t) ↔ t.val = 2)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last point the output window is idle (the body stores nothing into it) -/
theorem idleAt1_2 : ∀ t : Fin cfg1.N, ¬cond1_1 (grid1.coords t) → cfg1.idle 2 (grid1.coords t) = true := by decide +kernel
/-- and is not written back; -/
theorem noFlush1_2 : ∀ t : Fin cfg1.N, ¬cond1_1 (grid1.coords t) → (cfg1.win 2).flush t = false := by decide +kernel
/-- at the last point it is live. -/
theorem liveAt1_2 : ∀ t : Fin cfg1.N, cond1_1 (grid1.coords t) → cfg1.idle 2 (grid1.coords t) = false := by decide +kernel

/-! ## The memrefs the body is called with -/

/-- One staging buffer of the output window, through which its contents are stated. -/
abbrev VO1 : View sig .tc .vmem S1x1 .f32 := (Memref.whole cc1_stg2_0 : Memref sig .tc .vmem S1x1 .f32).view
abbrev ms1_0 (t : Fin cfg1.N) : Memref sig .tc .vmem S1304x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1304x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
/-- The scratch word the kernel carries between points. -/
abbrev scM1 : Memref sig .tc .vmem S1x1 .f32 := Memref.whole cc1_scratch0
abbrev VS1 : View sig .tc .vmem S1x1 .f32 := scM1.view

/-- The scoped buffers that are neither a staging buffer of this region nor its scratch, each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_scratch0), ((c : Thread nD τ).loc cc2_scratch0) ↦{fullShare} f))

/-- The class invariant hands out the scratch at some contents, the other scoped buffers and the generator register, -/
theorem PhiA1_to (c : Dev nD) :
    (Pipeline.ΦA spec1 c : sProp 𝕄) ⊢ iprop(iprop((∃ d, owns (c : Thread nD τ) scM1 fullShare d) ∗ rest1 (F := F) c) ∗ (∃ r, prngReg c r)) := by
  unfold Pipeline.ΦA rest1; rw [scopedRest1_eq]; simp only [scM1, owns_whole]
  iintro ⟨⟨R0, R1, R2, R3, R4, R5, HS, R6, R7, R8, R9⟩, Hg⟩
  isplitr [Hg]
  swap; · iexact Hg
  isplitl [HS]; · iexact HS
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact R9

/-- and takes them back. -/
theorem PhiA1_from (c : Dev nD) :
    iprop(iprop((∃ d, owns (c : Thread nD τ) scM1 fullShare d) ∗ rest1 (F := F) c) ∗ (∃ r, prngReg c r)) ⊢ (Pipeline.ΦA spec1 c : sProp 𝕄) := by
  unfold Pipeline.ΦA rest1; rw [scopedRest1_eq]; simp only [scM1, owns_whole]
  iintro ⟨⟨HS, R0, R1, R2, R3, R4, R5, R6, R7, R8, R9⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [HS]; · iexact HS
  isplitl [R6]; · iexact R6
  isplitl [R7]; · iexact R7
  isplitl [R8]; · iexact R8
  iexact R9

/-! ## The body's run, case by case -/

set_option maxHeartbeats 1000000 in
/-- THE FIRST POINT (the reset taken, the copy-out not): on whole memrefs — the inputs' at their contents, the idle
    output's at contents handed back untouched, the scratch at anything — the body runs to the continuation holding
    the inputs' and the output's as they were and the scratch with the pieces `LS` written. -/
noncomputable def kernelRun1_A (c : Dev nD) (i : grid1.Coords) (arg1 : Memref sig .tc .vmem S1304x128 .f32) (harg1 : arg1.IsWhole) (arg2 : Memref sig .tc .vmem S1304x128 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S1304x128 .f32) (x1 : Vec F S1304x128 .f32) :
    { LS : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xo ∗ (∃ d, owns (c : Thread nD τ) arg4 fullShare d)
            ∗ (iprop(owns (c : Thread nD τ) arg1 fullShare x0 ∗ owns (c : Thread nD τ) arg2 fullShare x1 ∗ owns (c : Thread nD τ) arg3 fullShare xo ∗ (∃ f, arg4.view.loc (c : Thread nD τ) ↦[arg4.view.set]{fullShare} arg4.view.writes (Elt F) f LS)) -∗ K ⟨⟩))
          ⊢ wp frame (wpE (defs₀ (F := F)) Variants.none c none) E (cc1__sum_abs_diff_kernel i arg1 harg1 arg2 harg2 arg3 harg3 arg4 harg4) K } := by
  refine ⟨?_, fun xo E K => ?run⟩
  case run =>
    simp only [cc1__sum_abs_diff_kernel_eq_skeleton]; unfold cc1__sum_abs_diff_kernel_skel
    unfold owns
    iintro ⟨⟨%f0, %hf0, H0⟩, ⟨%f1, %hf1, H1⟩, ⟨%fo, %hfo, HO⟩, ⟨%ds, %fs, -, HS⟩, Hk⟩
    obtain rfl := harg1.eq_unread hf0; obtain rfl := harg2.eq_unread hf1; obtain rfl := harg3.eq_unread hfo
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HO]
    · iexists _; isplitr; · ipureintro; exact harg3.read_unread _
      iexact HO
    iexists _; iexact HS

set_option maxHeartbeats 1000000 in
/-- A MIDDLE POINT (neither branch taken): the scratch at what the point before left (`xs`); the body runs to the
    continuation holding the inputs' and the idle output's memrefs as they were and the scratch with `LS` written. -/
noncomputable def kernelRun1_B (c : Dev nD) (i : grid1.Coords) (arg1 : Memref sig .tc .vmem S1304x128 .f32) (harg1 : arg1.IsWhole) (arg2 : Memref sig .tc .vmem S1304x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S1304x128 .f32) (x1 : Vec F S1304x128 .f32) (xs : Vec F S1x1 .f32) :
    { LS : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xo ∗ owns (c : Thread nD τ) arg4 fullShare xs
            ∗ (iprop(owns (c : Thread nD τ) arg1 fullShare x0 ∗ owns (c : Thread nD τ) arg2 fullShare x1 ∗ owns (c : Thread nD τ) arg3 fullShare xo ∗ (∃ f, arg4.view.loc (c : Thread nD τ) ↦[arg4.view.set]{fullShare} arg4.view.writes (Elt F) f LS)) -∗ K ⟨⟩))
          ⊢ wp frame (wpE (defs₀ (F := F)) Variants.none c none) E (cc1__sum_abs_diff_kernel i arg1 harg1 arg2 harg2 arg3 harg3 arg4 harg4) K } := by
  refine ⟨?_, fun xo E K => ?run⟩
  case run =>
    simp only [cc1__sum_abs_diff_kernel_eq_skeleton]; unfold cc1__sum_abs_diff_kernel_skel
    unfold owns
    iintro ⟨⟨%f0, %hf0, H0⟩, ⟨%f1, %hf1, H1⟩, ⟨%fo, %hfo, HO⟩, ⟨%fs, %hfs, HS⟩, Hk⟩
    obtain rfl := harg1.eq_unread hf0; obtain rfl := harg2.eq_unread hf1; obtain rfl := harg3.eq_unread hfo; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HO]
    · iexists _; isplitr; · ipureintro; exact harg3.read_unread _
      iexact HO
    iexists _; iexact HS

set_option maxHeartbeats 1000000 in
/-- THE LAST POINT (the reset not taken, the copy-out taken): the scratch at what the point before left, the output's
    memref at anything; the body runs to the continuation holding the inputs' as they were, the output's with the
    pieces `LO` written and the scratch with `LS` written. -/
noncomputable def kernelRun1_C (c : Dev nD) (i : grid1.Coords) (arg1 : Memref sig .tc .vmem S1304x128 .f32) (harg1 : arg1.IsWhole) (arg2 : Memref sig .tc .vmem S1304x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S1304x128 .f32) (x1 : Vec F S1304x128 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LS)) -∗ K ⟨⟩))
          ⊢ wp frame (wpE (defs₀ (F := F)) Variants.none c none) E (cc1__sum_abs_diff_kernel i arg1 harg1 arg2 harg2 arg3 harg3 arg4 harg4) K } := by
  refine ⟨?_, ?_, fun E K => ?run⟩
  case run =>
    simp only [cc1__sum_abs_diff_kernel_eq_skeleton]; unfold cc1__sum_abs_diff_kernel_skel
    unfold owns
    iintro ⟨⟨%f0, %hf0, H0⟩, ⟨%f1, %hf1, H1⟩, ⟨%do_, %fo, -, HO⟩, ⟨%fs, %hfs, HS⟩, Hk⟩
    obtain rfl := harg1.eq_unread hf0; obtain rfl := harg2.eq_unread hf1; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HO]; · iexists _; iexact HO
    iexists _; iexact HS

end Cert.Kernel.Fr

end
-- ==== Proof.BitsR1Dat.lean ====
/-
  Region 1: what its output word and its scratch word hold after each grid point (a recursion on the
  point: the first point's run; a later point's run over what the point before left in the scratch),
  the region's invariant (before the first point the class's; afterwards the scratch at that point's
  contents, the other scoped buffers at anything, the generator register at some state), the proof data,
  the body obligation at every point by cases on the point, and the invariant's two ends.
-/
import proofs.«145632_j87290915324054_1_alg».proof.Proof.Gen.Kernel.Launch
import proofs.«145632_j87290915324054_1_alg».proof.Proof.Gen.Kernel.Skeleton
import proofs.«145632_j87290915324054_1_alg».proof.Proof.Gen.Kernel.Points
import proofs.«145632_j87290915324054_1_alg».proof.Proof.BitsR1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

theorem scover1_A (c : Dev nD) (i : grid1.Coords) (arg1 : Memref sig .tc .vmem S1304x128 .f32) (harg1 : arg1.IsWhole) (arg2 : Memref sig .tc .vmem S1304x128 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S1304x128 .f32) (x1 : Vec F S1304x128 .f32) (y : S1x1.Idx) :
    ∃ pc ∈ (kernelRun1_A c i arg1 harg1 arg2 harg2 arg3 harg3 arg4 harg4 hc0 hc1 x0 x1).1, y ∈ pc.1.set :=
  View.cover_of_tiledL (kernelRun1_A c i arg1 harg1 arg2 harg2 arg3 harg3 arg4 harg4 hc0 hc1 x0 x1).1 S1x1.size (by sl_kernel_rfl) y

/-- What the first point leaves in the scratch: its pieces read back. -/
def sout1_A (c : Dev nD) (i : grid1.Coords) (arg1 : Memref sig .tc .vmem S1304x128 .f32) (harg1 : arg1.IsWhole) (arg2 : Memref sig .tc .vmem S1304x128 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S1304x128 .f32) (x1 : Vec F S1304x128 .f32) : Vec F S1x1 .f32 :=
  VS1.read (Elt F) (VS1.writes (Elt F) VS1.junk (kernelRun1_A c i arg1 harg1 arg2 harg2 arg3 harg3 arg4 harg4 hc0 hc1 x0 x1).1)

theorem scover1_B (c : Dev nD) (i : grid1.Coords) (arg1 : Memref sig .tc .vmem S1304x128 .f32) (harg1 : arg1.IsWhole) (arg2 : Memref sig .tc .vmem S1304x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S1304x128 .f32) (x1 : Vec F S1304x128 .f32) (xs : Vec F S1x1 .f32) (y : S1x1.Idx) :
    ∃ pc ∈ (kernelRun1_B c i arg1 harg1 arg2 harg2 arg3 harg3 arg4 harg4 hc0 hc1 x0 x1 xs).1, y ∈ pc.1.set :=
  View.cover_of_tiledL (kernelRun1_B c i arg1 harg1 arg2 harg2 arg3 harg3 arg4 harg4 hc0 hc1 x0 x1 xs).1 S1x1.size (by sl_kernel_rfl) y

/-- What a middle point leaves in the scratch. -/
def sout1_B (c : Dev nD) (i : grid1.Coords) (arg1 : Memref sig .tc .vmem S1304x128 .f32) (harg1 : arg1.IsWhole) (arg2 : Memref sig .tc .vmem S1304x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S1304x128 .f32) (x1 : Vec F S1304x128 .f32) (xs : Vec F S1x1 .f32) : Vec F S1x1 .f32 :=
  VS1.read (Elt F) (VS1.writes (Elt F) VS1.junk (kernelRun1_B c i arg1 harg1 arg2 harg2 arg3 harg3 arg4 harg4 hc0 hc1 x0 x1 xs).1)

theorem cover1_C (c : Dev nD) (i : grid1.Coords) (arg1 : Memref sig .tc .vmem S1304x128 .f32) (harg1 : arg1.IsWhole) (arg2 : Memref sig .tc .vmem S1304x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S1304x128 .f32) (x1 : Vec F S1304x128 .f32) (xs : Vec F S1x1 .f32) (y : S1x1.Idx) :
    ∃ pc ∈ (kernelRun1_C c i arg1 harg1 arg2 harg2 arg3 harg3 arg4 harg4 hc0 hc1 x0 x1 xs).1, y ∈ pc.1.set :=
  View.cover_of_tiledL (kernelRun1_C c i arg1 harg1 arg2 harg2 arg3 harg3 arg4 harg4 hc0 hc1 x0 x1 xs).1 S1x1.size (by sl_kernel_rfl) y

/-- What the last point leaves in the output's staging buffer. -/
def out1_C (c : Dev nD) (i : grid1.Coords) (arg1 : Memref sig .tc .vmem S1304x128 .f32) (harg1 : arg1.IsWhole) (arg2 : Memref sig .tc .vmem S1304x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S1304x128 .f32) (x1 : Vec F S1304x128 .f32) (xs : Vec F S1x1 .f32) : Vec F S1x1 .f32 :=
  VO1.read (Elt F) (VO1.writes (Elt F) VO1.junk (kernelRun1_C c i arg1 harg1 arg2 harg2 arg3 harg3 arg4 harg4 hc0 hc1 x0 x1 xs).1)

theorem scover1_C (c : Dev nD) (i : grid1.Coords) (arg1 : Memref sig .tc .vmem S1304x128 .f32) (harg1 : arg1.IsWhole) (arg2 : Memref sig .tc .vmem S1304x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S1304x128 .f32) (x1 : Vec F S1304x128 .f32) (xs : Vec F S1x1 .f32) (y : S1x1.Idx) :
    ∃ pc ∈ (kernelRun1_C c i arg1 harg1 arg2 harg2 arg3 harg3 arg4 harg4 hc0 hc1 x0 x1 xs).2.1, y ∈ pc.1.set :=
  View.cover_of_tiledL (kernelRun1_C c i arg1 harg1 arg2 harg2 arg3 harg3 arg4 harg4 hc0 hc1 x0 x1 xs).2.1 S1x1.size (by sl_kernel_rfl) y

/-- What the last point leaves in the scratch. -/
def sout1_C (c : Dev nD) (i : grid1.Coords) (arg1 : Memref sig .tc .vmem S1304x128 .f32) (harg1 : arg1.IsWhole) (arg2 : Memref sig .tc .vmem S1304x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S1304x128 .f32) (x1 : Vec F S1304x128 .f32) (xs : Vec F S1x1 .f32) : Vec F S1x1 .f32 :=
  VS1.read (Elt F) (VS1.writes (Elt F) VS1.junk (kernelRun1_C c i arg1 harg1 arg2 harg2 arg3 harg3 arg4 harg4 hc0 hc1 x0 x1 xs).2.1)

/-- Contents nothing consults: the output's buffer at a point where the window is idle. -/
def ojunk1 : Vec F S1x1 .f32 := VO1.read (Elt F) (VO1.writes (Elt F) VO1.junk [])

section
variable (V : (c : Dev nD) → (b : Ref sig .tc) → Buf (Elt F) ((c : Thread nD τ).loc b))

/-! ## Point by point -/

/-- What the output's staging buffer and the scratch hold after the body at position `n` (a pair): the first point's
    run on the point's blocks; at a later point the middle or the last run over what position `n - 1` left in the scratch. -/
def outsAt1 (c : Dev nD) : (n : ℕ) → n < cfg1.N → Vec F S1x1 .f32 × Vec F S1x1 .f32
  | 0, hn => (ojunk1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr rfl) (fun h => by have := (hcond1_1 ⟨0, hn⟩).mp h; (try dsimp only at this); omega) (iblk1 V c 0 ⟨0, hn⟩) (iblk1 V c 1 ⟨0, hn⟩))
  | n + 1, hn =>
    if h1 : n + 1 = 2 then
      (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => by have := (hcond1_0 ⟨n + 1, hn⟩).mp h; (try dsimp only at this); omega) ((hcond1_1 ⟨n + 1, hn⟩).mpr h1) (iblk1 V c 0 ⟨n + 1, hn⟩) (iblk1 V c 1 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => by have := (hcond1_0 ⟨n + 1, hn⟩).mp h; (try dsimp only at this); omega) ((hcond1_1 ⟨n + 1, hn⟩).mpr h1) (iblk1 V c 0 ⟨n + 1, hn⟩) (iblk1 V c 1 ⟨n + 1, hn⟩) (outsAt1 c n (Nat.lt_of_succ_lt hn)).2)
    else
      (ojunk1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => by have := (hcond1_0 ⟨n + 1, hn⟩).mp h; (try dsimp only at this); omega) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val = 0) (h1 : t.val ≠ 2) :
    outsAt1 V c t.val t.isLt = (ojunk1, sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact absurd h0 (Nat.succ_ne_zero n)

theorem outsAt1_B (c : Dev nD) (t : Fin cfg1.N) (h0 : t.val ≠ 0) (h1 : t.val ≠ 2) :
    outsAt1 V c t.val t.isLt = (ojunk1, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

theorem outsAt1_C (c : Dev nD) (t : Fin cfg1.N) (h0 : t.val ≠ 0) (h1 : t.val = 2) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant -/

/-- Before position `n`: at the first point the class's invariant (every scoped buffer at anything, the generator
    register at some state); afterwards the scratch at what the point before left, the rest as before. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 (F := F) c) ∗ (∃ r, prngReg c r)) := by
  cases n with
  | zero => exact absurd rfl hz
  | succ n => rfl

/-! ## The proof data -/

/-- The proof data of pipeline 1 on core `c` at the region-entry contents `V`: after the body at point `t` each input's
    buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the point is the first, a middle or the last one
    (its position decides the two branches); the invariant hands the body the scratch — at anything at the first
    point, at what the point before left afterwards — and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 3 := lt_of_lt_of_eq t.isLt (show cfg1.N = 3 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val = 0
  · have h1 : t.val ≠ 2 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    rw [PhiS1_castSucc V c t, PhiS1_zero V c _ _ h0]
    iintro ⟨HΦ, Ho, ⟨%d0, H0⟩, ⟨%d1, H1⟩, ⟨%do_, HO⟩⟩
    ihave HΦ' := (PhiA1_to (F := F) c) $$ HΦ
    icases HΦ' with ⟨⟨HS, Hrest⟩, Hg⟩
    iapply ((kernelRun1_A c (grid1.coords t) _ _ _ _ _ _ _ _ ((hcond1_0 t).mpr h0) (fun h => h1 ((hcond1_1 t).mp h)) (iblk1 V c 0 t) (iblk1 V c 1 t)).2 _ Set.univ _)
    isplitl [H0]; · iexact H0
    isplitl [H1]; · iexact H1
    isplitl [HO]; · iexact HO
    isplitl [HS]; · iexact HS
    iintro ⟨H0, H1, HO, ⟨%es, HS⟩⟩
    isplitl [HS Hrest Hg]
    · isplitl [HS Hrest]
      · isplitl [HS]
        · unfold owns; iexists _; isplitr
          swap; · iexact HS
          ipureintro; exact View.read_writes_of_cover _ _ _ _ _ (scover1_A c _ _ _ _ _ _ _ _ _ _ _ _ _)
        iexact Hrest
      iexact Hg
    isplitl [Ho]; · iexact Ho
    isplitl [H0]; · iexact H0
    isplitl [H1]; · iexact H1
    iexists _; iexact HO
  · by_cases h1 : t.val = 2
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS1_castSucc V c t, PhiS1_pos V c _ _ h0]
      iintro ⟨⟨⟨HS, Hrest⟩, Hg⟩, Ho, ⟨%d0, H0⟩, ⟨%d1, H1⟩, ⟨%do_, HO⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [HO]; · iexists _; iexact HO
      isplitl [HS]; · iexact HS
      iintro ⟨H0, H1, ⟨%eo, HO⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover1_C c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact HO
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ h0]
      iintro ⟨⟨⟨HS, Hrest⟩, Hg⟩, Ho, ⟨%d0, H0⟩, ⟨%d1, H1⟩, ⟨%do_, HO⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [HO]; · iexact HO
      isplitl [HS]; · iexact HS
      iintro ⟨H0, H1, HO, ⟨%es, HS⟩⟩
      isplitl [HS Hrest Hg]
      · isplitl [HS Hrest]
        · isplitl [HS]
          · unfold owns; iexists _; isplitr
            swap; · iexact HS
            ipureintro; exact View.read_writes_of_cover _ _ _ _ _ (scover1_B c _ _ _ _ _ _ _ _ _ _ _ _ _ _)
          iexact Hrest
        iexact Hg
      isplitl [Ho]; · iexact Ho
      isplitl [H0]; · iexact H0
      isplitl [H1]; · iexact H1
      iexists _; iexact HO

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's named contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 3 := N_1; omega)]
  iintro ⟨⟨HS, Hrest⟩, Hg⟩
  iapply (PhiA1_from (F := F) c)
  isplitl [HS Hrest]
  · isplitl [HS]
    · iexists _; iexact HS
    iexact Hrest
  iexact Hg

end

end Cert.Kernel.Fr

end
-- ==== Proof.BitsR2Runs.lean ====
/-
  Region 2: what the runs of its kernel body share — each window's block at a grid point, the two
  conditions of the body's branches decided over the grid (the first point; the last point), where the
  output window is idle, the staging and scratch memrefs — and the body's run in each of its three
  cases: the first point (the scratch reset, then the point's sum added), a middle point (the sum
  added to what the point before left), the last point (added, then the scratch copied to the output).
  The pieces each buffer ends with are found by running the body.
-/
import proofs.«145632_j87290915324054_1_alg».proof.Proof.Gen.Kernel.Launch
import proofs.«145632_j87290915324054_1_alg».proof.Proof.Gen.Kernel.Skeleton
import proofs.«145632_j87290915324054_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

end

/-! ## The body's two branch conditions, over the grid -/

/-- The first branch (reset the scratch) is taken -/
abbrev cond2_0 (i : grid2.Coords) : Prop := (Scalar.cmpi .ne (Scalar.extui (Scalar.cmpi .eq (BitVec.ofNat 32 (i 0).val) 0#32)) 0#32) = 1#1
/-- at the first point only. -/
theorem hcond2_0 : ∀ t : Fin cfg2.N, cond2_0 (grid2.coords t) ↔ t.val = 0 :=
  (by decide +kernel : ∀ t : Fin grid2.N, cond2_0 (grid2.coords t) ↔ t.val = 0)
/-- The second branch (copy the scratch to the output) is taken -/
abbrev cond2_1 (i : grid2.Coords) : Prop := k2_cond2 i = 1#1
/-- at the last point only. -/
theorem hcond2_1 : ∀ t : Fin cfg2.N, cond2_1 (grid2.coords t) ↔ t.val = 9 :=
  (by decide +kernel : ∀ t : Fin grid2.N, cond2_1 (grid2.coords t) ↔ t.val = 9)

/-! ## Where the windows are idle -/

theorem liveAt2_0 : ∀ t : Fin cfg2.N, cfg2.idle 0 (grid2.coords t) = false := by decide +kernel
/-- Away from the last point the output window is idle (the body stores nothing into it) -/
theorem idleAt2_1 : ∀ t : Fin cfg2.N, ¬cond2_1 (grid2.coords t) → cfg2.idle 1 (grid2.coords t) = true := by decide +kernel
/-- and is not written back; -/
theorem noFlush2_1 : ∀ t : Fin cfg2.N, ¬cond2_1 (grid2.coords t) → (cfg2.win 1).flush t = false := by decide +kernel
/-- at the last point it is live. -/
theorem liveAt2_1 : ∀ t : Fin cfg2.N, cond2_1 (grid2.coords t) → cfg2.idle 1 (grid2.coords t) = false := by decide +kernel

/-! ## The memrefs the body is called with -/

/-- One staging buffer of the output window, through which its contents are stated. -/
abbrev VO2 : View sig .tc .vmem S1x1 .f32 := (Memref.whole cc2_stg1_0 : Memref sig .tc .vmem S1x1 .f32).view
abbrev ms2_0 (t : Fin cfg2.N) : Memref sig .tc .vmem S50000x6 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1 .f32 := win2_1.stage (cfg2.slots t 1)
abbrev hs2_1 (t : Fin cfg2.N) : (ms2_1 t).IsWhole := hstage2_1 ((cfg2.slots t 1).cast nbuf2_1)
/-- The scratch word the kernel carries between points. -/
abbrev scM2 : Memref sig .tc .vmem S1x1 .f32 := Memref.whole cc2_scratch0
abbrev VS2 : View sig .tc .vmem S1x1 .f32 := scM2.view

/-- The scoped buffers that are neither a staging buffer of this region nor its scratch, each whole at some contents. -/
def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_scratch0), ((c : Thread nD τ).loc cc1_scratch0) ↦{fullShare} f))

/-- The class invariant hands out the scratch at some contents, the other scoped buffers and the generator register, -/
theorem PhiA2_to (c : Dev nD) :
    (Pipeline.ΦA spec2 c : sProp 𝕄) ⊢ iprop(iprop((∃ d, owns (c : Thread nD τ) scM2 fullShare d) ∗ rest2 (F := F) c) ∗ (∃ r, prngReg c r)) := by
  unfold Pipeline.ΦA rest2; rw [scopedRest2_eq]; simp only [scM2, owns_whole]
  iintro ⟨⟨R0, R1, R2, R3, R4, R5, R6, R7, R8, R9, R10, R11, HS⟩, Hg⟩
  isplitr [Hg]
  swap; · iexact Hg
  isplitl [HS]; · iexact HS
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexact R11

/-- and takes them back. -/
theorem PhiA2_from (c : Dev nD) :
    iprop(iprop((∃ d, owns (c : Thread nD τ) scM2 fullShare d) ∗ rest2 (F := F) c) ∗ (∃ r, prngReg c r)) ⊢ (Pipeline.ΦA spec2 c : sProp 𝕄) := by
  unfold Pipeline.ΦA rest2; rw [scopedRest2_eq]; simp only [scM2, owns_whole]
  iintro ⟨⟨HS, R0, R1, R2, R3, R4, R5, R6, R7, R8, R9, R10, R11⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  iexact HS

/-! ## The body's run, case by case -/

set_option maxHeartbeats 1000000 in
/-- THE FIRST POINT (the reset taken, the copy-out not): on whole memrefs — the inputs' at their contents, the idle
    output's at contents handed back untouched, the scratch at anything — the body runs to the continuation holding
    the inputs' and the output's as they were and the scratch with the pieces `LS` written. -/
noncomputable def kernelRun2_A (c : Dev nD) (i : grid2.Coords) (arg1 : Memref sig .tc .vmem S50000x6 .f32) (harg1 : arg1.IsWhole) (arg2 : Memref sig .tc .vmem S1x1 .f32) (harg2 : arg2.IsWhole) (arg3 : Memref sig .tc .vmem S1x1 .f32) (harg3 : arg3.IsWhole) (hc0 : cond2_0 i) (hc1 : ¬cond2_1 i)
    (x0 : Vec F S50000x6 .f32) :
    { LS : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare xo ∗ (∃ d, owns (c : Thread nD τ) arg3 fullShare d)
            ∗ (iprop(owns (c : Thread nD τ) arg1 fullShare x0 ∗ owns (c : Thread nD τ) arg2 fullShare xo ∗ (∃ f, arg3.view.loc (c : Thread nD τ) ↦[arg3.view.set]{fullShare} arg3.view.writes (Elt F) f LS)) -∗ K ⟨⟩))
          ⊢ wp frame (wpE (defs₀ (F := F)) Variants.none c none) E (cc2__smooth_kernel i arg1 harg1 arg2 harg2 arg3 harg3) K } := by
  refine ⟨?_, fun xo E K => ?run⟩
  case run =>
    simp only [cc2__smooth_kernel_eq_skeleton]; unfold cc2__smooth_kernel_skel
    unfold owns
    iintro ⟨⟨%f0, %hf0, H0⟩, ⟨%fo, %hfo, HO⟩, ⟨%ds, %fs, -, HS⟩, Hk⟩
    obtain rfl := harg1.eq_unread hf0; obtain rfl := harg2.eq_unread hfo
    sl_exec (disch := first | exact hc0 | exact hc1)
    sl_step
    iapply Hk
    isplitl [H0]
    · iexists _; isplitr; · ipureintro; exact harg1.read_unread _
      iexact H0
    isplitl [HO]
    · iexists _; isplitr; · ipureintro; exact harg2.read_unread _
      iexact HO
    iexists _; iexact HS

set_option maxHeartbeats 1000000 in
/-- A MIDDLE POINT (neither branch taken): the scratch at what the point before left (`xs`); the body runs to the
    continuation holding the inputs' and the idle output's memrefs as they were and the scratch with `LS` written. -/
noncomputable def kernelRun2_B (c : Dev nD) (i : grid2.Coords) (arg1 : Memref sig .tc .vmem S50000x6 .f32) (harg1 : arg1.IsWhole) (arg2 : Memref sig .tc .vmem S1x1 .f32) (harg2 : arg2.IsWhole) (arg3 : Memref sig .tc .vmem S1x1 .f32) (harg3 : arg3.IsWhole) (hc0 : ¬cond2_0 i) (hc1 : ¬cond2_1 i)
    (x0 : Vec F S50000x6 .f32) (xs : Vec F S1x1 .f32) :
    { LS : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare xo ∗ owns (c : Thread nD τ) arg3 fullShare xs
            ∗ (iprop(owns (c : Thread nD τ) arg1 fullShare x0 ∗ owns (c : Thread nD τ) arg2 fullShare xo ∗ (∃ f, arg3.view.loc (c : Thread nD τ) ↦[arg3.view.set]{fullShare} arg3.view.writes (Elt F) f LS)) -∗ K ⟨⟩))
          ⊢ wp frame (wpE (defs₀ (F := F)) Variants.none c none) E (cc2__smooth_kernel i arg1 harg1 arg2 harg2 arg3 harg3) K } := by
  refine ⟨?_, fun xo E K => ?run⟩
  case run =>
    simp only [cc2__smooth_kernel_eq_skeleton]; unfold cc2__smooth_kernel_skel
    unfold owns
    iintro ⟨⟨%f0, %hf0, H0⟩, ⟨%fo, %hfo, HO⟩, ⟨%fs, %hfs, HS⟩, Hk⟩
    obtain rfl := harg1.eq_unread hf0; obtain rfl := harg2.eq_unread hfo; obtain rfl := harg3.eq_unread hfs
    sl_exec (disch := first | exact hc0 | exact hc1)
    sl_step
    iapply Hk
    isplitl [H0]
    · iexists _; isplitr; · ipureintro; exact harg1.read_unread _
      iexact H0
    isplitl [HO]
    · iexists _; isplitr; · ipureintro; exact harg2.read_unread _
      iexact HO
    iexists _; iexact HS

set_option maxHeartbeats 1000000 in
/-- THE LAST POINT (the reset not taken, the copy-out taken): the scratch at what the point before left, the output's
    memref at anything; the body runs to the continuation holding the inputs' as they were, the output's with the
    pieces `LO` written and the scratch with `LS` written. -/
noncomputable def kernelRun2_C (c : Dev nD) (i : grid2.Coords) (arg1 : Memref sig .tc .vmem S50000x6 .f32) (harg1 : arg1.IsWhole) (arg2 : Memref sig .tc .vmem S1x1 .f32) (harg2 : arg2.IsWhole) (arg3 : Memref sig .tc .vmem S1x1 .f32) (harg3 : arg3.IsWhole) (hc0 : ¬cond2_0 i) (hc1 : cond2_1 i)
    (x0 : Vec F S50000x6 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs
            ∗ (iprop(owns (c : Thread nD τ) arg1 fullShare x0 ∗ (∃ f, arg2.view.loc (c : Thread nD τ) ↦[arg2.view.set]{fullShare} arg2.view.writes (Elt F) f LO) ∗ (∃ f, arg3.view.loc (c : Thread nD τ) ↦[arg3.view.set]{fullShare} arg3.view.writes (Elt F) f LS)) -∗ K ⟨⟩))
          ⊢ wp frame (wpE (defs₀ (F := F)) Variants.none c none) E (cc2__smooth_kernel i arg1 harg1 arg2 harg2 arg3 harg3) K } := by
  refine ⟨?_, ?_, fun E K => ?run⟩
  case run =>
    simp only [cc2__smooth_kernel_eq_skeleton]; unfold cc2__smooth_kernel_skel
    unfold owns
    iintro ⟨⟨%f0, %hf0, H0⟩, ⟨%do_, %fo, -, HO⟩, ⟨%fs, %hfs, HS⟩, Hk⟩
    obtain rfl := harg1.eq_unread hf0; obtain rfl := harg3.eq_unread hfs
    sl_exec (disch := first | exact hc0 | exact hc1)
    sl_step
    iapply Hk
    isplitl [H0]
    · iexists _; isplitr; · ipureintro; exact harg1.read_unread _
      iexact H0
    isplitl [HO]; · iexists _; iexact HO
    iexists _; iexact HS

end Cert.Kernel.Fr

end
-- ==== Proof.BitsR2Dat.lean ====
/-
  Region 2: what its output word and its scratch word hold after each grid point (a recursion on the
  point: the first point's run; a later point's run over what the point before left in the scratch),
  the region's invariant (before the first point the class's; afterwards the scratch at that point's
  contents, the other scoped buffers at anything, the generator register at some state), the proof data,
  the body obligation at every point by cases on the point, and the invariant's two ends.
-/
import proofs.«145632_j87290915324054_1_alg».proof.Proof.Gen.Kernel.Launch
import proofs.«145632_j87290915324054_1_alg».proof.Proof.Gen.Kernel.Skeleton
import proofs.«145632_j87290915324054_1_alg».proof.Proof.Gen.Kernel.Points
import proofs.«145632_j87290915324054_1_alg».proof.Proof.BitsR2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

theorem scover2_A (c : Dev nD) (i : grid2.Coords) (arg1 : Memref sig .tc .vmem S50000x6 .f32) (harg1 : arg1.IsWhole) (arg2 : Memref sig .tc .vmem S1x1 .f32) (harg2 : arg2.IsWhole) (arg3 : Memref sig .tc .vmem S1x1 .f32) (harg3 : arg3.IsWhole) (hc0 : cond2_0 i) (hc1 : ¬cond2_1 i)
    (x0 : Vec F S50000x6 .f32) (y : S1x1.Idx) :
    ∃ pc ∈ (kernelRun2_A c i arg1 harg1 arg2 harg2 arg3 harg3 hc0 hc1 x0).1, y ∈ pc.1.set :=
  View.cover_of_tiledL (kernelRun2_A c i arg1 harg1 arg2 harg2 arg3 harg3 hc0 hc1 x0).1 S1x1.size (by sl_kernel_rfl) y

/-- What the first point leaves in the scratch: its pieces read back. -/
def sout2_A (c : Dev nD) (i : grid2.Coords) (arg1 : Memref sig .tc .vmem S50000x6 .f32) (harg1 : arg1.IsWhole) (arg2 : Memref sig .tc .vmem S1x1 .f32) (harg2 : arg2.IsWhole) (arg3 : Memref sig .tc .vmem S1x1 .f32) (harg3 : arg3.IsWhole) (hc0 : cond2_0 i) (hc1 : ¬cond2_1 i)
    (x0 : Vec F S50000x6 .f32) : Vec F S1x1 .f32 :=
  VS2.read (Elt F) (VS2.writes (Elt F) VS2.junk (kernelRun2_A c i arg1 harg1 arg2 harg2 arg3 harg3 hc0 hc1 x0).1)

theorem scover2_B (c : Dev nD) (i : grid2.Coords) (arg1 : Memref sig .tc .vmem S50000x6 .f32) (harg1 : arg1.IsWhole) (arg2 : Memref sig .tc .vmem S1x1 .f32) (harg2 : arg2.IsWhole) (arg3 : Memref sig .tc .vmem S1x1 .f32) (harg3 : arg3.IsWhole) (hc0 : ¬cond2_0 i) (hc1 : ¬cond2_1 i)
    (x0 : Vec F S50000x6 .f32) (xs : Vec F S1x1 .f32) (y : S1x1.Idx) :
    ∃ pc ∈ (kernelRun2_B c i arg1 harg1 arg2 harg2 arg3 harg3 hc0 hc1 x0 xs).1, y ∈ pc.1.set :=
  View.cover_of_tiledL (kernelRun2_B c i arg1 harg1 arg2 harg2 arg3 harg3 hc0 hc1 x0 xs).1 S1x1.size (by sl_kernel_rfl) y

/-- What a middle point leaves in the scratch. -/
def sout2_B (c : Dev nD) (i : grid2.Coords) (arg1 : Memref sig .tc .vmem S50000x6 .f32) (harg1 : arg1.IsWhole) (arg2 : Memref sig .tc .vmem S1x1 .f32) (harg2 : arg2.IsWhole) (arg3 : Memref sig .tc .vmem S1x1 .f32) (harg3 : arg3.IsWhole) (hc0 : ¬cond2_0 i) (hc1 : ¬cond2_1 i)
    (x0 : Vec F S50000x6 .f32) (xs : Vec F S1x1 .f32) : Vec F S1x1 .f32 :=
  VS2.read (Elt F) (VS2.writes (Elt F) VS2.junk (kernelRun2_B c i arg1 harg1 arg2 harg2 arg3 harg3 hc0 hc1 x0 xs).1)

theorem cover2_C (c : Dev nD) (i : grid2.Coords) (arg1 : Memref sig .tc .vmem S50000x6 .f32) (harg1 : arg1.IsWhole) (arg2 : Memref sig .tc .vmem S1x1 .f32) (harg2 : arg2.IsWhole) (arg3 : Memref sig .tc .vmem S1x1 .f32) (harg3 : arg3.IsWhole) (hc0 : ¬cond2_0 i) (hc1 : cond2_1 i)
    (x0 : Vec F S50000x6 .f32) (xs : Vec F S1x1 .f32) (y : S1x1.Idx) :
    ∃ pc ∈ (kernelRun2_C c i arg1 harg1 arg2 harg2 arg3 harg3 hc0 hc1 x0 xs).1, y ∈ pc.1.set :=
  View.cover_of_tiledL (kernelRun2_C c i arg1 harg1 arg2 harg2 arg3 harg3 hc0 hc1 x0 xs).1 S1x1.size (by sl_kernel_rfl) y

/-- What the last point leaves in the output's staging buffer. -/
def out2_C (c : Dev nD) (i : grid2.Coords) (arg1 : Memref sig .tc .vmem S50000x6 .f32) (harg1 : arg1.IsWhole) (arg2 : Memref sig .tc .vmem S1x1 .f32) (harg2 : arg2.IsWhole) (arg3 : Memref sig .tc .vmem S1x1 .f32) (harg3 : arg3.IsWhole) (hc0 : ¬cond2_0 i) (hc1 : cond2_1 i)
    (x0 : Vec F S50000x6 .f32) (xs : Vec F S1x1 .f32) : Vec F S1x1 .f32 :=
  VO2.read (Elt F) (VO2.writes (Elt F) VO2.junk (kernelRun2_C c i arg1 harg1 arg2 harg2 arg3 harg3 hc0 hc1 x0 xs).1)

theorem scover2_C (c : Dev nD) (i : grid2.Coords) (arg1 : Memref sig .tc .vmem S50000x6 .f32) (harg1 : arg1.IsWhole) (arg2 : Memref sig .tc .vmem S1x1 .f32) (harg2 : arg2.IsWhole) (arg3 : Memref sig .tc .vmem S1x1 .f32) (harg3 : arg3.IsWhole) (hc0 : ¬cond2_0 i) (hc1 : cond2_1 i)
    (x0 : Vec F S50000x6 .f32) (xs : Vec F S1x1 .f32) (y : S1x1.Idx) :
    ∃ pc ∈ (kernelRun2_C c i arg1 harg1 arg2 harg2 arg3 harg3 hc0 hc1 x0 xs).2.1, y ∈ pc.1.set :=
  View.cover_of_tiledL (kernelRun2_C c i arg1 harg1 arg2 harg2 arg3 harg3 hc0 hc1 x0 xs).2.1 S1x1.size (by sl_kernel_rfl) y

/-- What the last point leaves in the scratch. -/
def sout2_C (c : Dev nD) (i : grid2.Coords) (arg1 : Memref sig .tc .vmem S50000x6 .f32) (harg1 : arg1.IsWhole) (arg2 : Memref sig .tc .vmem S1x1 .f32) (harg2 : arg2.IsWhole) (arg3 : Memref sig .tc .vmem S1x1 .f32) (harg3 : arg3.IsWhole) (hc0 : ¬cond2_0 i) (hc1 : cond2_1 i)
    (x0 : Vec F S50000x6 .f32) (xs : Vec F S1x1 .f32) : Vec F S1x1 .f32 :=
  VS2.read (Elt F) (VS2.writes (Elt F) VS2.junk (kernelRun2_C c i arg1 harg1 arg2 harg2 arg3 harg3 hc0 hc1 x0 xs).2.1)

/-- Contents nothing consults: the output's buffer at a point where the window is idle. -/
def ojunk2 : Vec F S1x1 .f32 := VO2.read (Elt F) (VO2.writes (Elt F) VO2.junk [])

section
variable (V : (c : Dev nD) → (b : Ref sig .tc) → Buf (Elt F) ((c : Thread nD τ).loc b))

/-! ## Point by point -/

/-- What the output's staging buffer and the scratch hold after the body at position `n` (a pair): the first point's
    run on the point's blocks; at a later point the middle or the last run over what position `n - 1` left in the scratch. -/
def outsAt2 (c : Dev nD) : (n : ℕ) → n < cfg2.N → Vec F S1x1 .f32 × Vec F S1x1 .f32
  | 0, hn => (ojunk2, sout2_A c (grid2.coords ⟨0, hn⟩) (ms2_0 ⟨0, hn⟩) (hs2_0 ⟨0, hn⟩) (ms2_1 ⟨0, hn⟩) (hs2_1 ⟨0, hn⟩) scM2 (Memref.isWhole_whole _) ((hcond2_0 ⟨0, hn⟩).mpr rfl) (fun h => by have := (hcond2_1 ⟨0, hn⟩).mp h; (try dsimp only at this); omega) (iblk2 V c 0 ⟨0, hn⟩))
  | n + 1, hn =>
    if h1 : n + 1 = 9 then
      (out2_C c (grid2.coords ⟨n + 1, hn⟩) (ms2_0 ⟨n + 1, hn⟩) (hs2_0 ⟨n + 1, hn⟩) (ms2_1 ⟨n + 1, hn⟩) (hs2_1 ⟨n + 1, hn⟩) scM2 (Memref.isWhole_whole _) (fun h => by have := (hcond2_0 ⟨n + 1, hn⟩).mp h; (try dsimp only at this); omega) ((hcond2_1 ⟨n + 1, hn⟩).mpr h1) (iblk2 V c 0 ⟨n + 1, hn⟩) (outsAt2 c n (Nat.lt_of_succ_lt hn)).2,
       sout2_C c (grid2.coords ⟨n + 1, hn⟩) (ms2_0 ⟨n + 1, hn⟩) (hs2_0 ⟨n + 1, hn⟩) (ms2_1 ⟨n + 1, hn⟩) (hs2_1 ⟨n + 1, hn⟩) scM2 (Memref.isWhole_whole _) (fun h => by have := (hcond2_0 ⟨n + 1, hn⟩).mp h; (try dsimp only at this); omega) ((hcond2_1 ⟨n + 1, hn⟩).mpr h1) (iblk2 V c 0 ⟨n + 1, hn⟩) (outsAt2 c n (Nat.lt_of_succ_lt hn)).2)
    else
      (ojunk2, sout2_B c (grid2.coords ⟨n + 1, hn⟩) (ms2_0 ⟨n + 1, hn⟩) (hs2_0 ⟨n + 1, hn⟩) (ms2_1 ⟨n + 1, hn⟩) (hs2_1 ⟨n + 1, hn⟩) scM2 (Memref.isWhole_whole _) (fun h => by have := (hcond2_0 ⟨n + 1, hn⟩).mp h; (try dsimp only at this); omega) (fun h => h1 ((hcond2_1 ⟨n + 1, hn⟩).mp h)) (iblk2 V c 0 ⟨n + 1, hn⟩) (outsAt2 c n (Nat.lt_of_succ_lt hn)).2)

theorem outsAt2_A (c : Dev nD) (t : Fin cfg2.N) (h0 : t.val = 0) (h1 : t.val ≠ 9) :
    outsAt2 V c t.val t.isLt = (ojunk2, sout2_A c (grid2.coords t) (ms2_0 t) (hs2_0 t) (ms2_1 t) (hs2_1 t) scM2 (Memref.isWhole_whole _) ((hcond2_0 t).mpr h0) (fun h => h1 ((hcond2_1 t).mp h)) (iblk2 V c 0 t)) := by
  obtain ⟨n, hn⟩ := t
  cases n with
  | zero => exact rfl
  | succ n => exact absurd h0 (Nat.succ_ne_zero n)

theorem outsAt2_B (c : Dev nD) (t : Fin cfg2.N) (h0 : t.val ≠ 0) (h1 : t.val ≠ 9) :
    outsAt2 V c t.val t.isLt = (ojunk2, sout2_B c (grid2.coords t) (ms2_0 t) (hs2_0 t) (ms2_1 t) (hs2_1 t) scM2 (Memref.isWhole_whole _) (fun h => h0 ((hcond2_0 t).mp h)) (fun h => h1 ((hcond2_1 t).mp h)) (iblk2 V c 0 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

theorem outsAt2_C (c : Dev nD) (t : Fin cfg2.N) (h0 : t.val ≠ 0) (h1 : t.val = 9) :
    outsAt2 V c t.val t.isLt = (out2_C c (grid2.coords t) (ms2_0 t) (hs2_0 t) (ms2_1 t) (hs2_1 t) scM2 (Memref.isWhole_whole _) (fun h => h0 ((hcond2_0 t).mp h)) ((hcond2_1 t).mpr h1) (iblk2 V c 0 t) (outsAt2 V c (t.val - 1) (Nat.lt_of_le_of_lt (Nat.sub_le _ _) t.isLt)).2,
      sout2_C c (grid2.coords t) (ms2_0 t) (hs2_0 t) (ms2_1 t) (hs2_1 t) scM2 (Memref.isWhole_whole _) (fun h => h0 ((hcond2_0 t).mp h)) ((hcond2_1 t).mpr h1) (iblk2 V c 0 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant -/

/-- Before position `n`: at the first point the class's invariant (every scoped buffer at anything, the generator
    register at some state); afterwards the scratch at what the point before left, the rest as before. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ rest2 (F := F) c) ∗ (∃ r, prngReg c r)) := by
  cases n with
  | zero => exact absurd rfl hz
  | succ n => rfl

/-! ## The proof data -/

/-- The proof data of pipeline 2 on core `c` at the region-entry contents `V`: after the body at point `t` each input's
    buffer at its block and the output's at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t)

set_option maxHeartbeats 4800000 in
/-- The body at any point: the inputs' memrefs hold their blocks; the point is the first, a middle or the last one
    (its position decides the two branches); the invariant hands the body the scratch — at anything at the first
    point, at what the point before left afterwards — and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (ms2_0 t) fullShare ((dat2 V c).after 0 t) from by
    unfold Dat.leavesExact; rw [liveAt2_0 t], after2_0]
  by_cases h0 : t.val = 0
  · have h1 : t.val ≠ 9 := by omega
    rw [Dat.leavesExact_idle (dat2 V c) 1 t (idleAt2_1 t (fun h => h1 ((hcond2_1 t).mp h))) (noFlush2_1 t (fun h => h1 ((hcond2_1 t).mp h)))]
    rw [outsAt2_A V c t h0 h1]
    unfold sout2_A; (try dsimp only)
    rw [PhiS2_castSucc V c t, PhiS2_zero V c _ _ h0]
    iintro ⟨HΦ, Ho, ⟨%d0, H0⟩, ⟨%do_, HO⟩⟩
    ihave HΦ' := (PhiA2_to (F := F) c) $$ HΦ
    icases HΦ' with ⟨⟨HS, Hrest⟩, Hg⟩
    iapply ((kernelRun2_A c (grid2.coords t) _ _ _ _ _ _ ((hcond2_0 t).mpr h0) (fun h => h1 ((hcond2_1 t).mp h)) (iblk2 V c 0 t)).2 _ Set.univ _)
    isplitl [H0]; · iexact H0
    isplitl [HO]; · iexact HO
    isplitl [HS]; · iexact HS
    iintro ⟨H0, HO, ⟨%es, HS⟩⟩
    isplitl [HS Hrest Hg]
    · isplitl [HS Hrest]
      · isplitl [HS]
        · unfold owns; iexists _; isplitr
          swap; · iexact HS
          ipureintro; exact View.read_writes_of_cover _ _ _ _ _ (scover2_A c _ _ _ _ _ _ _ _ _ _)
        iexact Hrest
      iexact Hg
    isplitl [Ho]; · iexact Ho
    isplitl [H0]; · iexact H0
    iexists _; iexact HO
  · by_cases h1 : t.val = 9
    · rw [show (dat2 V c).leavesExact 1 t = owns (c : Thread nD τ) (ms2_1 t) fullShare ((dat2 V c).after 1 t) from by
        unfold Dat.leavesExact; rw [liveAt2_1 t ((hcond2_1 t).mpr h1)], after2_1]
      rw [outsAt2_C V c t h0 h1]
      unfold out2_C sout2_C; (try dsimp only)
      rw [PhiS2_castSucc V c t, PhiS2_pos V c _ _ h0]
      iintro ⟨⟨⟨HS, Hrest⟩, Hg⟩, Ho, ⟨%d0, H0⟩, ⟨%do_, HO⟩⟩
      iapply ((kernelRun2_C c (grid2.coords t) _ _ _ _ _ _ (fun h => h0 ((hcond2_0 t).mp h)) ((hcond2_1 t).mpr h1) (iblk2 V c 0 t) _).2.2 Set.univ _)
      isplitl [H0]; · iexact H0
      isplitl [HO]; · iexists _; iexact HO
      isplitl [HS]; · iexact HS
      iintro ⟨H0, ⟨%eo, HO⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover2_C c _ _ _ _ _ _ _ _ _ _ _)
          iexact Hrest
        iexact Hg
      isplitl [Ho]; · iexact Ho
      isplitl [H0]; · iexact H0
      unfold owns; iexists _; isplitr
      swap; · iexact HO
      ipureintro; exact View.read_writes_of_cover _ _ _ _ _ (cover2_C c _ _ _ _ _ _ _ _ _ _ _)
    · rw [Dat.leavesExact_idle (dat2 V c) 1 t (idleAt2_1 t (fun h => h1 ((hcond2_1 t).mp h))) (noFlush2_1 t (fun h => h1 ((hcond2_1 t).mp h)))]
      rw [outsAt2_B V c t h0 h1]
      unfold sout2_B; (try dsimp only)
      rw [PhiS2_castSucc V c t, PhiS2_pos V c _ _ h0]
      iintro ⟨⟨⟨HS, Hrest⟩, Hg⟩, Ho, ⟨%d0, H0⟩, ⟨%do_, HO⟩⟩
      iapply ((kernelRun2_B c (grid2.coords t) _ _ _ _ _ _ (fun h => h0 ((hcond2_0 t).mp h)) (fun h => h1 ((hcond2_1 t).mp h)) (iblk2 V c 0 t) _).2 _ Set.univ _)
      isplitl [H0]; · iexact H0
      isplitl [HO]; · iexact HO
      isplitl [HS]; · iexact HS
      iintro ⟨H0, HO, ⟨%es, HS⟩⟩
      isplitl [HS Hrest Hg]
      · isplitl [HS Hrest]
        · isplitl [HS]
          · unfold owns; iexists _; isplitr
            swap; · iexact HS
            ipureintro; exact View.read_writes_of_cover _ _ _ _ _ (scover2_B c _ _ _ _ _ _ _ _ _ _ _)
          iexact Hrest
        iexact Hg
      isplitl [Ho]; · iexact Ho
      isplitl [H0]; · iexact H0
      iexists _; iexact HO

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant's two ends -/

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch's named contents are forgotten. -/
theorem hout2 (c : Dev nD) : (dat2 V c).Φ (Fin.last cfg2.N) ⊢ (Pipeline.ΦA spec2 c : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 10 := N_2; omega)]
  iintro ⟨⟨HS, Hrest⟩, Hg⟩
  iapply (PhiA2_from (F := F) c)
  isplitl [HS Hrest]
  · isplitl [HS]
    · iexists _; iexact HS
    iexact Hrest
  iexact Hg

end

end Cert.Kernel.Fr

end
-- ==== Proof.BitsFrRun.lean ====
/-
  The run of @main: its fifteen items — twelve stretches of host operations and three kernel regions — as the
  segments of the several-region launch theorem, over a thread state that holds EVERY unscoped buffer at a named
  valuation. The valuations form a fold from the launch memory: a stretch rewrites the buffers its operations write,
  a region leaves its windows' arrays at what its write-backs fold to and every other buffer as it found it. The run
  theorem's post names the contents of every unscoped buffer at the end; the arguments read back through the fold
  to the launch memory give the frame claim.
-/
import proofs.«145632_j87290915324054_1_alg».proof.Proof.BitsR0Dat
import proofs.«145632_j87290915324054_1_alg».proof.Proof.BitsR1Dat
import proofs.«145632_j87290915324054_1_alg».proof.Proof.BitsR2Dat
import proofs.«145632_j87290915324054_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The buffer contents at each boundary between two items: a fold through @main -/

/-- Core `c`'s buffers at launch. -/
abbrev W0 (m : (ℓ : Loc nD τ sig) → Buf (Elt F) ℓ) (ρ : Dev nD → PrngReg) : Dev nD → Valuation τ sig (Elt F) :=
  fun c b => m (c, b)

variable (m : (ℓ : Loc nD τ sig) → Buf (Elt F) ℓ) (ρ : Dev nD → PrngReg)
/-- After the stretch `hostOps0`. -/
abbrev W1 : Dev nD → Valuation τ sig (Elt F) := fun c => StableHlo.after hostOps0 (W0 m ρ c)
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- After the stretch `hostOps0_1`. -/
abbrev W2 : Dev nD → Valuation τ sig (Elt F) := fun c => StableHlo.after hostOps0_1 (W1 m ρ c)
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
/-- After the stretch `hostOps0_2`. -/
abbrev W3 : Dev nD → Valuation τ sig (Elt F) := fun c => StableHlo.after hostOps0_2 (W2 m ρ c)
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
/-- After the stretch `hostOps0_3`. -/
abbrev W4 : Dev nD → Valuation τ sig (Elt F) := fun c => StableHlo.after hostOps0_3 (W3 m ρ c)
theorem W4_of (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h
/-- After the stretch `hostOps0_4`. -/
abbrev W5 : Dev nD → Valuation τ sig (Elt F) := fun c => StableHlo.after hostOps0_4 (W4 m ρ c)
theorem W5_of (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h
/-- The contents region 0 is entered from, read at the TensorCore's references (what its proof data take). -/
abbrev V5 : (c : Dev nD) → (b : Ref sig .tc) → Buf (Elt F) ((c : Thread nD τ).loc b) := fun c b => W5 m ρ c b
/-- At region 0's exit: its windows' arrays at what the pipeline leaves (an input as entered, an output's write-backs
    folded), every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references (region 0's exit contents). -/
abbrev V6 : (c : Dev nD) → (b : Ref sig .tc) → Buf (Elt F) ((c : Thread nD τ).loc b) := fun c b => W6 m ρ c b
/-- At region 0's exit each of its arrays holds what the pipeline leaves and every other buffer what it held at entry. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)
/-- After the stretch `hostOps1`. -/
abbrev W7 : Dev nD → Valuation τ sig (Elt F) := fun c => StableHlo.after hostOps1 (W6 m ρ c)
theorem W7_of (c : Dev nD) (r : Ref sig .tc) (h : r ∉ hostOps1_W) :
    W7 m ρ c (Proc.devRef .tc r) = W6 m ρ c (Proc.devRef .tc r) :=
  StableHlo.after_of_writes_sub hostOps1 _ hostOps1_writes h
/-- After the stretch `hostOps1_1`. -/
abbrev W8 : Dev nD → Valuation τ sig (Elt F) := fun c => StableHlo.after hostOps1_1 (W7 m ρ c)
theorem W8_of (c : Dev nD) (r : Ref sig .tc) (h : r ∉ hostOps1_1_W) :
    W8 m ρ c (Proc.devRef .tc r) = W7 m ρ c (Proc.devRef .tc r) :=
  StableHlo.after_of_writes_sub hostOps1_1 _ hostOps1_1_writes h
/-- After the stretch `hostOps1_2`. -/
abbrev W9 : Dev nD → Valuation τ sig (Elt F) := fun c => StableHlo.after hostOps1_2 (W8 m ρ c)
theorem W9_of (c : Dev nD) (r : Ref sig .tc) (h : r ∉ hostOps1_2_W) :
    W9 m ρ c (Proc.devRef .tc r) = W8 m ρ c (Proc.devRef .tc r) :=
  StableHlo.after_of_writes_sub hostOps1_2 _ hostOps1_2_writes h
/-- After the stretch `hostOps1_3`. -/
abbrev W10 : Dev nD → Valuation τ sig (Elt F) := fun c => StableHlo.after hostOps1_3 (W9 m ρ c)
theorem W10_of (c : Dev nD) (r : Ref sig .tc) (h : r ∉ hostOps1_3_W) :
    W10 m ρ c (Proc.devRef .tc r) = W9 m ρ c (Proc.devRef .tc r) :=
  StableHlo.after_of_writes_sub hostOps1_3 _ hostOps1_3_writes h
/-- After the stretch `hostOps1_4`. -/
abbrev W11 : Dev nD → Valuation τ sig (Elt F) := fun c => StableHlo.after hostOps1_4 (W10 m ρ c)
theorem W11_of (c : Dev nD) (r : Ref sig .tc) (h : r ∉ hostOps1_4_W) :
    W11 m ρ c (Proc.devRef .tc r) = W10 m ρ c (Proc.devRef .tc r) :=
  StableHlo.after_of_writes_sub hostOps1_4 _ hostOps1_4_writes h
/-- The contents region 1 is entered from, read at the TensorCore's references (what its proof data take). -/
abbrev V11 : (c : Dev nD) → (b : Ref sig .tc) → Buf (Elt F) ((c : Thread nD τ).loc b) := fun c b => W11 m ρ c b
/-- At region 1's exit: its windows' arrays at what the pipeline leaves (an input as entered, an output's write-backs
    folded), every other buffer as entered. -/
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
/-- The same read at the TensorCore's references (region 1's exit contents). -/
abbrev V12 : (c : Dev nD) → (b : Ref sig .tc) → Buf (Elt F) ((c : Thread nD τ).loc b) := fun c b => W12 m ρ c b
/-- At region 1's exit each of its arrays holds what the pipeline leaves and every other buffer what it held at entry. -/
theorem hF1 (c : Dev nD) (w : Fin cfg1.W) : (dat1 (V11 m ρ) c).arrAt w cfg1.N = V12 m ρ c (Pipeline.arrRef spec1 w) :=
  (W12_arr m ρ c w).symm
theorem hrest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)
/-- After the stretch `hostOps2`. -/
abbrev W13 : Dev nD → Valuation τ sig (Elt F) := fun c => StableHlo.after hostOps2 (W12 m ρ c)
theorem W13_of (c : Dev nD) (r : Ref sig .tc) (h : r ∉ hostOps2_W) :
    W13 m ρ c (Proc.devRef .tc r) = W12 m ρ c (Proc.devRef .tc r) :=
  StableHlo.after_of_writes_sub hostOps2 _ hostOps2_writes h
/-- The contents region 2 is entered from, read at the TensorCore's references (what its proof data take). -/
abbrev V13 : (c : Dev nD) → (b : Ref sig .tc) → Buf (Elt F) ((c : Thread nD τ).loc b) := fun c b => W13 m ρ c b
/-- At region 2's exit: its windows' arrays at what the pipeline leaves (an input as entered, an output's write-backs
    folded), every other buffer as entered. -/
def W14 (c : Dev nD) : Valuation τ sig (Elt F) :=
  Pipeline.withArrays spec2 c (W13 m ρ c) fun w => (dat2 (V13 m ρ) c).arrAt w cfg2.N
theorem W14_arr (c : Dev nD) (w : Fin cfg2.W) :
    W14 m ρ c (Proc.devRef .tc (Pipeline.arrRef spec2 w)) = (dat2 (V13 m ρ) c).arrAt w cfg2.N := by
  unfold W14; exact Pipeline.withArrays_arr spec2 launch2.win.arr_inj c _ _ w
theorem W14_of_ne (c : Dev nD) (b : Ref sig .tc) (hb : ∀ w, Pipeline.arrRef spec2 w ≠ b) :
    W14 m ρ c (Proc.devRef .tc b) = W13 m ρ c (Proc.devRef .tc b) := by
  unfold W14; exact Pipeline.withArrays_of_ne spec2 c _ _ b hb
/-- The same read at the TensorCore's references (region 2's exit contents). -/
abbrev V14 : (c : Dev nD) → (b : Ref sig .tc) → Buf (Elt F) ((c : Thread nD τ).loc b) := fun c b => W14 m ρ c b
/-- At region 2's exit each of its arrays holds what the pipeline leaves and every other buffer what it held at entry. -/
theorem hF2 (c : Dev nD) (w : Fin cfg2.W) : (dat2 (V13 m ρ) c).arrAt w cfg2.N = V14 m ρ c (Pipeline.arrRef spec2 w) :=
  (W14_arr m ρ c w).symm
theorem hrest2 (c : Dev nD) : ∀ b, b ∉ Finset.univ.image (Pipeline.arrRef spec2) → V14 m ρ c b = V13 m ρ c b :=
  fun b hb => W14_of_ne m ρ c b fun w e => hb (Finset.mem_image.mpr ⟨w, Finset.mem_univ _, e⟩)
/-- After the stretch `hostOps3`. -/
abbrev W15 : Dev nD → Valuation τ sig (Elt F) := fun c => StableHlo.after hostOps3 (W14 m ρ c)
theorem W15_of (c : Dev nD) (r : Ref sig .tc) (h : r ∉ hostOps3_W) :
    W15 m ρ c (Proc.devRef .tc r) = W14 m ρ c (Proc.devRef .tc r) :=
  StableHlo.after_of_writes_sub hostOps3 _ hostOps3_writes h

/-! ### The arguments end as launched: no stretch writes one and no region has one as a window's array -/
theorem W15_main_arg0 (c : Dev nD) : W15 m ρ c (Proc.devRef .tc main_arg0) = m ((c : Thread nD τ).loc main_arg0) :=
  (W15_of m ρ c main_arg0 (by decide)).trans <| (W14_of_ne m ρ c main_arg0 (by decide)).trans <| (W13_of m ρ c main_arg0 (by decide)).trans <| (W12_of_ne m ρ c main_arg0 (by decide)).trans <| (W11_of m ρ c main_arg0 (by decide)).trans <| (W10_of m ρ c main_arg0 (by decide)).trans <| (W9_of m ρ c main_arg0 (by decide)).trans <| (W8_of m ρ c main_arg0 (by decide)).trans <| (W7_of m ρ c main_arg0 (by decide)).trans <| (W6_of_ne m ρ c main_arg0 (by decide)).trans <| (W5_of m ρ c main_arg0 (by decide)).trans <| (W4_of m ρ c main_arg0 (by decide)).trans <| (W3_of m ρ c main_arg0 (by decide)).trans <| (W2_of m ρ c main_arg0 (by decide)).trans <| (W1_of m ρ c main_arg0 (by decide)).trans <| rfl
theorem W15_main_arg1 (c : Dev nD) : W15 m ρ c (Proc.devRef .tc main_arg1) = m ((c : Thread nD τ).loc main_arg1) :=
  (W15_of m ρ c main_arg1 (by decide)).trans <| (W14_of_ne m ρ c main_arg1 (by decide)).trans <| (W13_of m ρ c main_arg1 (by decide)).trans <| (W12_of_ne m ρ c main_arg1 (by decide)).trans <| (W11_of m ρ c main_arg1 (by decide)).trans <| (W10_of m ρ c main_arg1 (by decide)).trans <| (W9_of m ρ c main_arg1 (by decide)).trans <| (W8_of m ρ c main_arg1 (by decide)).trans <| (W7_of m ρ c main_arg1 (by decide)).trans <| (W6_of_ne m ρ c main_arg1 (by decide)).trans <| (W5_of m ρ c main_arg1 (by decide)).trans <| (W4_of m ρ c main_arg1 (by decide)).trans <| (W3_of m ρ c main_arg1 (by decide)).trans <| (W2_of m ρ c main_arg1 (by decide)).trans <| (W1_of m ρ c main_arg1 (by decide)).trans <| rfl
theorem W15_main_arg2 (c : Dev nD) : W15 m ρ c (Proc.devRef .tc main_arg2) = m ((c : Thread nD τ).loc main_arg2) :=
  (W15_of m ρ c main_arg2 (by decide)).trans <| (W14_of_ne m ρ c main_arg2 (by decide)).trans <| (W13_of m ρ c main_arg2 (by decide)).trans <| (W12_of_ne m ρ c main_arg2 (by decide)).trans <| (W11_of m ρ c main_arg2 (by decide)).trans <| (W10_of m ρ c main_arg2 (by decide)).trans <| (W9_of m ρ c main_arg2 (by decide)).trans <| (W8_of m ρ c main_arg2 (by decide)).trans <| (W7_of m ρ c main_arg2 (by decide)).trans <| (W6_of_ne m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide)).trans <| rfl
theorem W15_main_arg3 (c : Dev nD) : W15 m ρ c (Proc.devRef .tc main_arg3) = m ((c : Thread nD τ).loc main_arg3) :=
  (W15_of m ρ c main_arg3 (by decide)).trans <| (W14_of_ne m ρ c main_arg3 (by decide)).trans <| (W13_of m ρ c main_arg3 (by decide)).trans <| (W12_of_ne m ρ c main_arg3 (by decide)).trans <| (W11_of m ρ c main_arg3 (by decide)).trans <| (W10_of m ρ c main_arg3 (by decide)).trans <| (W9_of m ρ c main_arg3 (by decide)).trans <| (W8_of m ρ c main_arg3 (by decide)).trans <| (W7_of m ρ c main_arg3 (by decide)).trans <| (W6_of_ne m ρ c main_arg3 (by decide)).trans <| (W5_of m ρ c main_arg3 (by decide)).trans <| (W4_of m ρ c main_arg3 (by decide)).trans <| (W3_of m ρ c main_arg3 (by decide)).trans <| (W2_of m ρ c main_arg3 (by decide)).trans <| (W1_of m ρ c main_arg3 (by decide)).trans <| rfl
theorem W15_main_arg4 (c : Dev nD) : W15 m ρ c (Proc.devRef .tc main_arg4) = m ((c : Thread nD τ).loc main_arg4) :=
  (W15_of m ρ c main_arg4 (by decide)).trans <| (W14_of_ne m ρ c main_arg4 (by decide)).trans <| (W13_of m ρ c main_arg4 (by decide)).trans <| (W12_of_ne m ρ c main_arg4 (by decide)).trans <| (W11_of m ρ c main_arg4 (by decide)).trans <| (W10_of m ρ c main_arg4 (by decide)).trans <| (W9_of m ρ c main_arg4 (by decide)).trans <| (W8_of m ρ c main_arg4 (by decide)).trans <| (W7_of m ρ c main_arg4 (by decide)).trans <| (W6_of_ne m ρ c main_arg4 (by decide)).trans <| (W5_of m ρ c main_arg4 (by decide)).trans <| (W4_of m ρ c main_arg4 (by decide)).trans <| (W3_of m ρ c main_arg4 (by decide)).trans <| (W2_of m ρ c main_arg4 (by decide)).trans <| (W1_of m ρ c main_arg4 (by decide)).trans <| rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V11 m ρ) c
  | ⟨2, _⟩ => fun c => dat2 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along:
    it is left with those references at the stretch's fold of `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents `W15`,
    the generator register at some state. -/
abbrev Tₙ (c : Dev nD) : sProp 𝕄 := iprop(StableHlo.held (c : Thread nD τ) (Pipeline.ucRefs τ sig) (W15 m ρ c) ∗ ∃ r, prngReg c r)

/-! ## The regions as segments -/

-- a library lemma stated over the pinned configuration of a pipeline unifies with the printed one only when unification
-- may unfold plain definitions in a metavariable's type
set_option backward.isDefEq.respectTransparency.types false in
/-- REGION 0 over the thread state: entered from every unscoped buffer at `W5`, left at `W6`. Its arrays are split
    out of the unscoped buffers at entry and put back at the exit contents; the generator register goes into the class
    invariant and comes back, the tracked invariant being reached from it and giving it back (`hin0`, `hout0`); nothing
    is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V5 m ρ) c)
    unfold Pipeline.ΦA
    iintro ⟨Hp, -, Hr⟩
    isplitl [Hr]; · iexact Hr
    iexact Hp
  hout c := by
    refine BIBase.Entails.trans (hout0 (V5 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of a pipeline unifies with the printed one only when unification
-- may unfold plain definitions in a metavariable's type
set_option backward.isDefEq.respectTransparency.types false in
/-- REGION 1 over the thread state: entered from every unscoped buffer at `W11`, left at `W12`. Its arrays are split
    out of the unscoped buffers at entry and put back at the exit contents; the generator register goes into the class
    invariant and comes back, the tracked invariant being reached from it and giving it back (`hin1`, `hout1`); nothing
    is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V11 m ρ) c)
    unfold Pipeline.ΦA
    iintro ⟨Hp, -, Hr⟩
    isplitl [Hr]; · iexact Hr
    iexact Hp
  hout c := by
    refine BIBase.Entails.trans (hout1 (V11 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (V12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of a pipeline unifies with the printed one only when unification
-- may unfold plain definitions in a metavariable's type
set_option backward.isDefEq.respectTransparency.types false in
/-- REGION 2 over the thread state: entered from every unscoped buffer at `W13`, left at `W14`. Its arrays are split
    out of the unscoped buffers at entry and put back at the exit contents; the generator register goes into the class
    invariant and comes back, the tracked invariant being reached from it and giving it back (`hin2`, `hout2`); nothing
    is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V13 m ρ) c).loose
  hwaits := Pipeline.hwaits_of_owed_zero _ _ _ _ L lv 2 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec2 c (V13 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V13 m ρ) c)
    unfold Pipeline.ΦA
    iintro ⟨Hp, -, Hr⟩
    isplitl [Hr]; · iexact Hr
    iexact Hp
  hout c := by
    refine BIBase.Entails.trans (hout2 (V13 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V13 m ρ c) (V14 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's fifteen segments in order: a host segment per stretch from its boundary's contents, a region per kernel. -/
abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .host (hseg hostOps1_1 hostOps1_1_sub hostOps1_1_fresh (W7 m ρ)),
    .host (hseg hostOps1_2 hostOps1_2_sub hostOps1_2_fresh (W8 m ρ)),
    .host (hseg hostOps1_3 hostOps1_3_sub hostOps1_3_fresh (W9 m ρ)),
    .host (hseg hostOps1_4 hostOps1_4_sub hostOps1_4_fresh (W10 m ρ)),
    .region (reg1 m ρ),
    .host (hseg hostOps2 hostOps2_sub hostOps2_fresh (W12 m ρ)),
    .region (reg2 m ρ),
    .host (hseg hostOps3 hostOps3_sub hostOps3_fresh (W14 m ρ)) ]

/-- @main IS the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state holds, at EVERY unscoped buffer of every core, the
    last boundary's contents `W15`: the launch over the fifteen segments, the last thread state read against the final
    state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W15 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

/-- THE FRAME: every weakly fair execution of @main terminates, nothing faulting, and every final state has the five
    argument arrays as launched — the run's post read at each argument's buffer, which the fold carries back to the
    launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c)⟩) (run_all m ρ)

end Cert.Kernel.Fr

end
-- ==== Proof.R0Runs.lean ====
/-
  Region 0: what the runs of its kernel body share — each window's block at a grid point, the two
  conditions of the body's branches decided over the grid (the first point; the last point), where the
  output window is idle, the staging and scratch memrefs — and the body's run in each of its three
  cases: the first point (the scratch reset, then the point's sum added), a middle point (the sum
  added to what the point before left), the last point (added, then the scratch copied to the output).
  The pieces each buffer ends with are found by running the body.
-/
import proofs.«145632_j87290915324054_1_alg».proof.Proof.Gen.KernelIdeal.Launch
import proofs.«145632_j87290915324054_1_alg».proof.Proof.Gen.KernelIdeal.Skeleton
import proofs.«145632_j87290915324054_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two branch conditions, over the grid -/

/-- The first branch (reset the scratch) is taken -/
abbrev cond0_0 (i : grid0.Coords) : Prop := (Scalar.cmpi .ne (Scalar.extui (Scalar.cmpi .eq (BitVec.ofNat 32 (i 0).val) 0#32)) 0#32) = 1#1
/-- at the first point only. -/
theorem hcond0_0 : ∀ t : Fin cfg0.N, cond0_0 (grid0.coords t) ↔ t.val = 0 :=
  (by decide +kernel : ∀ t : Fin grid0.N, cond0_0 (grid0.coords t) ↔ t.val = 0)
/-- The second branch (copy the scratch to the output) is taken -/
abbrev cond0_1 (i : grid0.Coords) : Prop := k0_cond2 i = 1#1
/-- at the last point only. -/
theorem hcond0_1 : ∀ t : Fin cfg0.N, cond0_1 (grid0.coords t) ↔ t.val = 9 :=
  (by decide +kernel : ∀ t : Fin grid0.N, cond0_1 (grid0.coords t) ↔ t.val = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the output window is idle (the body stores nothing into it) -/
theorem idleAt0_2 : ∀ t : Fin cfg0.N, ¬cond0_1 (grid0.coords t) → cfg0.idle 2 (grid0.coords t) = true := by decide +kernel
/-- and is not written back; -/
theorem noFlush0_2 : ∀ t : Fin cfg0.N, ¬cond0_1 (grid0.coords t) → (cfg0.win 2).flush t = false := by decide +kernel
/-- at the last point it is live. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0 : View sig .tc .vmem S1x1 .f32 := (Memref.whole cc0_stg2_0 : Memref sig .tc .vmem S1x1 .f32).view
abbrev ms0_0 (t : Fin cfg0.N) : Memref sig .tc .vmem S2344x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2344x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The scratch word the kernel carries between points. -/
abbrev scM0 : Memref sig .tc .vmem S1x1 .f32 := Memref.whole cc0_scratch0
abbrev VS0 : View sig .tc .vmem S1x1 .f32 := scM0.view

/-- The scoped buffers that are neither a staging buffer of this region nor its scratch, each whole at some contents. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_scratch0), ((c : Thread nD τ).loc cc2_scratch0) ↦{fullShare} f))

/-- The class invariant hands out the scratch at some contents, the other scoped buffers and the generator register, -/
theorem PhiA0_to (c : Dev nD) :
    (Pipeline.ΦA spec0 c : sProp 𝕄) ⊢ iprop(iprop((∃ d, owns (c : Thread nD τ) scM0 fullShare d) ∗ rest0 (F := F) c) ∗ (∃ r, prngReg c r)) := by
  unfold Pipeline.ΦA rest0; rw [scopedRest0_eq]; simp only [scM0, owns_whole]
  iintro ⟨⟨HS, R0, R1, R2, R3, R4, R5, R6, R7, R8, R9⟩, Hg⟩
  isplitr [Hg]
  swap; · iexact Hg
  isplitl [HS]; · iexact HS
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact R9

/-- and takes them back. -/
theorem PhiA0_from (c : Dev nD) :
    iprop(iprop((∃ d, owns (c : Thread nD τ) scM0 fullShare d) ∗ rest0 (F := F) c) ∗ (∃ r, prngReg c r)) ⊢ (Pipeline.ΦA spec0 c : sProp 𝕄) := by
  unfold Pipeline.ΦA rest0; rw [scopedRest0_eq]; simp only [scM0, owns_whole]
  iintro ⟨⟨HS, R0, R1, R2, R3, R4, R5, R6, R7, R8, R9⟩, Hg⟩
  isplitr [Hg]
  swap; · iexact Hg
  isplitl [HS]; · iexact HS
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact R9

/-! ## The body's run, case by case -/

set_option maxHeartbeats 1000000 in
/-- THE FIRST POINT (the reset taken, the copy-out not): on whole memrefs — the inputs' at their contents, the idle
    output's at contents handed back untouched, the scratch at anything — the body runs to the continuation holding
    the inputs' and the output's as they were and the scratch with the pieces `LS` written. -/
noncomputable def kernelRun0_A (c : Dev nD) (i : grid0.Coords) (arg1 : Memref sig .tc .vmem S2344x128 .f32) (harg1 : arg1.IsWhole) (arg2 : Memref sig .tc .vmem S2344x128 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S2344x128 .f32) (x1 : Vec F S2344x128 .f32) :
    { LS : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xo ∗ (∃ d, owns (c : Thread nD τ) arg4 fullShare d)
            ∗ (iprop(owns (c : Thread nD τ) arg1 fullShare x0 ∗ owns (c : Thread nD τ) arg2 fullShare x1 ∗ owns (c : Thread nD τ) arg3 fullShare xo ∗ (∃ f, arg4.view.loc (c : Thread nD τ) ↦[arg4.view.set]{fullShare} arg4.view.writes (Elt F) f LS)) -∗ K ⟨⟩))
          ⊢ wp frame (wpE (defs₀ (F := F)) Variants.none c none) E (cc0__sum_abs_diff_kernel i arg1 harg1 arg2 harg2 arg3 harg3 arg4 harg4) K } := by
  refine ⟨?_, fun xo E K => ?run⟩
  case run =>
    simp only [cc0__sum_abs_diff_kernel_eq_skeleton]; unfold cc0__sum_abs_diff_kernel_skel
    unfold owns
    iintro ⟨⟨%f0, %hf0, H0⟩, ⟨%f1, %hf1, H1⟩, ⟨%fo, %hfo, HO⟩, ⟨%ds, %fs, -, HS⟩, Hk⟩
    obtain rfl := harg1.eq_unread hf0; obtain rfl := harg2.eq_unread hf1; obtain rfl := harg3.eq_unread hfo
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HO]
    · iexists _; isplitr; · ipureintro; exact harg3.read_unread _
      iexact HO
    iexists _; iexact HS

set_option maxHeartbeats 1000000 in
/-- A MIDDLE POINT (neither branch taken): the scratch at what the point before left (`xs`); the body runs to the
    continuation holding the inputs' and the idle output's memrefs as they were and the scratch with `LS` written. -/
noncomputable def kernelRun0_B (c : Dev nD) (i : grid0.Coords) (arg1 : Memref sig .tc .vmem S2344x128 .f32) (harg1 : arg1.IsWhole) (arg2 : Memref sig .tc .vmem S2344x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S2344x128 .f32) (x1 : Vec F S2344x128 .f32) (xs : Vec F S1x1 .f32) :
    { LS : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xo ∗ owns (c : Thread nD τ) arg4 fullShare xs
            ∗ (iprop(owns (c : Thread nD τ) arg1 fullShare x0 ∗ owns (c : Thread nD τ) arg2 fullShare x1 ∗ owns (c : Thread nD τ) arg3 fullShare xo ∗ (∃ f, arg4.view.loc (c : Thread nD τ) ↦[arg4.view.set]{fullShare} arg4.view.writes (Elt F) f LS)) -∗ K ⟨⟩))
          ⊢ wp frame (wpE (defs₀ (F := F)) Variants.none c none) E (cc0__sum_abs_diff_kernel i arg1 harg1 arg2 harg2 arg3 harg3 arg4 harg4) K } := by
  refine ⟨?_, fun xo E K => ?run⟩
  case run =>
    simp only [cc0__sum_abs_diff_kernel_eq_skeleton]; unfold cc0__sum_abs_diff_kernel_skel
    unfold owns
    iintro ⟨⟨%f0, %hf0, H0⟩, ⟨%f1, %hf1, H1⟩, ⟨%fo, %hfo, HO⟩, ⟨%fs, %hfs, HS⟩, Hk⟩
    obtain rfl := harg1.eq_unread hf0; obtain rfl := harg2.eq_unread hf1; obtain rfl := harg3.eq_unread hfo; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HO]
    · iexists _; isplitr; · ipureintro; exact harg3.read_unread _
      iexact HO
    iexists _; iexact HS

set_option maxHeartbeats 1000000 in
/-- THE LAST POINT (the reset not taken, the copy-out taken): the scratch at what the point before left, the output's
    memref at anything; the body runs to the continuation holding the inputs' as they were, the output's with the
    pieces `LO` written and the scratch with `LS` written. -/
noncomputable def kernelRun0_C (c : Dev nD) (i : grid0.Coords) (arg1 : Memref sig .tc .vmem S2344x128 .f32) (harg1 : arg1.IsWhole) (arg2 : Memref sig .tc .vmem S2344x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S2344x128 .f32) (x1 : Vec F S2344x128 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LS)) -∗ K ⟨⟩))
          ⊢ wp frame (wpE (defs₀ (F := F)) Variants.none c none) E (cc0__sum_abs_diff_kernel i arg1 harg1 arg2 harg2 arg3 harg3 arg4 harg4) K } := by
  refine ⟨?_, ?_, fun E K => ?run⟩
  case run =>
    simp only [cc0__sum_abs_diff_kernel_eq_skeleton]; unfold cc0__sum_abs_diff_kernel_skel
    unfold owns
    iintro ⟨⟨%f0, %hf0, H0⟩, ⟨%f1, %hf1, H1⟩, ⟨%do_, %fo, -, HO⟩, ⟨%fs, %hfs, HS⟩, Hk⟩
    obtain rfl := harg1.eq_unread hf0; obtain rfl := harg2.eq_unread hf1; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HO]; · iexists _; iexact HO
    iexists _; iexact HS

end Cert.KernelIdeal.Fr

end
-- ==== Proof.R0Dat.lean ====
/-
  Region 0: what its output word and its scratch word hold after each grid point (a recursion on the
  point: the first point's run; a later point's run over what the point before left in the scratch),
  the region's invariant (before the first point the class's; afterwards the scratch at that point's
  contents, the other scoped buffers at anything, the generator register at some state), the proof data,
  the body obligation at every point by cases on the point, and the invariant's two ends.
-/
import proofs.«145632_j87290915324054_1_alg».proof.Proof.Gen.KernelIdeal.Launch
import proofs.«145632_j87290915324054_1_alg».proof.Proof.Gen.KernelIdeal.Skeleton
import proofs.«145632_j87290915324054_1_alg».proof.Proof.Gen.KernelIdeal.Points
import proofs.«145632_j87290915324054_1_alg».proof.Proof.R0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

theorem scover0_A (c : Dev nD) (i : grid0.Coords) (arg1 : Memref sig .tc .vmem S2344x128 .f32) (harg1 : arg1.IsWhole) (arg2 : Memref sig .tc .vmem S2344x128 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S2344x128 .f32) (x1 : Vec F S2344x128 .f32) (y : S1x1.Idx) :
    ∃ pc ∈ (kernelRun0_A c i arg1 harg1 arg2 harg2 arg3 harg3 arg4 harg4 hc0 hc1 x0 x1).1, y ∈ pc.1.set :=
  View.cover_of_tiledL (kernelRun0_A c i arg1 harg1 arg2 harg2 arg3 harg3 arg4 harg4 hc0 hc1 x0 x1).1 S1x1.size (by sl_kernel_rfl) y

/-- What the first point leaves in the scratch: its pieces read back. -/
def sout0_A (c : Dev nD) (i : grid0.Coords) (arg1 : Memref sig .tc .vmem S2344x128 .f32) (harg1 : arg1.IsWhole) (arg2 : Memref sig .tc .vmem S2344x128 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S2344x128 .f32) (x1 : Vec F S2344x128 .f32) : Vec F S1x1 .f32 :=
  VS0.read (Elt F) (VS0.writes (Elt F) VS0.junk (kernelRun0_A c i arg1 harg1 arg2 harg2 arg3 harg3 arg4 harg4 hc0 hc1 x0 x1).1)

theorem scover0_B (c : Dev nD) (i : grid0.Coords) (arg1 : Memref sig .tc .vmem S2344x128 .f32) (harg1 : arg1.IsWhole) (arg2 : Memref sig .tc .vmem S2344x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S2344x128 .f32) (x1 : Vec F S2344x128 .f32) (xs : Vec F S1x1 .f32) (y : S1x1.Idx) :
    ∃ pc ∈ (kernelRun0_B c i arg1 harg1 arg2 harg2 arg3 harg3 arg4 harg4 hc0 hc1 x0 x1 xs).1, y ∈ pc.1.set :=
  View.cover_of_tiledL (kernelRun0_B c i arg1 harg1 arg2 harg2 arg3 harg3 arg4 harg4 hc0 hc1 x0 x1 xs).1 S1x1.size (by sl_kernel_rfl) y

/-- What a middle point leaves in the scratch. -/
def sout0_B (c : Dev nD) (i : grid0.Coords) (arg1 : Memref sig .tc .vmem S2344x128 .f32) (harg1 : arg1.IsWhole) (arg2 : Memref sig .tc .vmem S2344x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S2344x128 .f32) (x1 : Vec F S2344x128 .f32) (xs : Vec F S1x1 .f32) : Vec F S1x1 .f32 :=
  VS0.read (Elt F) (VS0.writes (Elt F) VS0.junk (kernelRun0_B c i arg1 harg1 arg2 harg2 arg3 harg3 arg4 harg4 hc0 hc1 x0 x1 xs).1)

theorem cover0_C (c : Dev nD) (i : grid0.Coords) (arg1 : Memref sig .tc .vmem S2344x128 .f32) (harg1 : arg1.IsWhole) (arg2 : Memref sig .tc .vmem S2344x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S2344x128 .f32) (x1 : Vec F S2344x128 .f32) (xs : Vec F S1x1 .f32) (y : S1x1.Idx) :
    ∃ pc ∈ (kernelRun0_C c i arg1 harg1 arg2 harg2 arg3 harg3 arg4 harg4 hc0 hc1 x0 x1 xs).1, y ∈ pc.1.set :=
  View.cover_of_tiledL (kernelRun0_C c i arg1 harg1 arg2 harg2 arg3 harg3 arg4 harg4 hc0 hc1 x0 x1 xs).1 S1x1.size (by sl_kernel_rfl) y

/-- What the last point leaves in the output's staging buffer. -/
def out0_C (c : Dev nD) (i : grid0.Coords) (arg1 : Memref sig .tc .vmem S2344x128 .f32) (harg1 : arg1.IsWhole) (arg2 : Memref sig .tc .vmem S2344x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S2344x128 .f32) (x1 : Vec F S2344x128 .f32) (xs : Vec F S1x1 .f32) : Vec F S1x1 .f32 :=
  VO0.read (Elt F) (VO0.writes (Elt F) VO0.junk (kernelRun0_C c i arg1 harg1 arg2 harg2 arg3 harg3 arg4 harg4 hc0 hc1 x0 x1 xs).1)

theorem scover0_C (c : Dev nD) (i : grid0.Coords) (arg1 : Memref sig .tc .vmem S2344x128 .f32) (harg1 : arg1.IsWhole) (arg2 : Memref sig .tc .vmem S2344x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S2344x128 .f32) (x1 : Vec F S2344x128 .f32) (xs : Vec F S1x1 .f32) (y : S1x1.Idx) :
    ∃ pc ∈ (kernelRun0_C c i arg1 harg1 arg2 harg2 arg3 harg3 arg4 harg4 hc0 hc1 x0 x1 xs).2.1, y ∈ pc.1.set :=
  View.cover_of_tiledL (kernelRun0_C c i arg1 harg1 arg2 harg2 arg3 harg3 arg4 harg4 hc0 hc1 x0 x1 xs).2.1 S1x1.size (by sl_kernel_rfl) y

/-- What the last point leaves in the scratch. -/
def sout0_C (c : Dev nD) (i : grid0.Coords) (arg1 : Memref sig .tc .vmem S2344x128 .f32) (harg1 : arg1.IsWhole) (arg2 : Memref sig .tc .vmem S2344x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S2344x128 .f32) (x1 : Vec F S2344x128 .f32) (xs : Vec F S1x1 .f32) : Vec F S1x1 .f32 :=
  VS0.read (Elt F) (VS0.writes (Elt F) VS0.junk (kernelRun0_C c i arg1 harg1 arg2 harg2 arg3 harg3 arg4 harg4 hc0 hc1 x0 x1 xs).2.1)

/-- Contents nothing consults: the output's buffer at a point where the window is idle. -/
def ojunk0 : Vec F S1x1 .f32 := VO0.read (Elt F) (VO0.writes (Elt F) VO0.junk [])

section
variable (V : (c : Dev nD) → (b : Ref sig .tc) → Buf (Elt F) ((c : Thread nD τ).loc b))

/-! ## Point by point -/

/-- What the output's staging buffer and the scratch hold after the body at position `n` (a pair): the first point's
    run on the point's blocks; at a later point the middle or the last run over what position `n - 1` left in the scratch. -/
def outsAt0 (c : Dev nD) : (n : ℕ) → n < cfg0.N → Vec F S1x1 .f32 × Vec F S1x1 .f32
  | 0, hn => (ojunk0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr rfl) (fun h => by have := (hcond0_1 ⟨0, hn⟩).mp h; (try dsimp only at this); omega) (iblk0 V c 0 ⟨0, hn⟩) (iblk0 V c 1 ⟨0, hn⟩))
  | n + 1, hn =>
    if h1 : n + 1 = 9 then
      (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => by have := (hcond0_0 ⟨n + 1, hn⟩).mp h; (try dsimp only at this); omega) ((hcond0_1 ⟨n + 1, hn⟩).mpr h1) (iblk0 V c 0 ⟨n + 1, hn⟩) (iblk0 V c 1 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => by have := (hcond0_0 ⟨n + 1, hn⟩).mp h; (try dsimp only at this); omega) ((hcond0_1 ⟨n + 1, hn⟩).mpr h1) (iblk0 V c 0 ⟨n + 1, hn⟩) (iblk0 V c 1 ⟨n + 1, hn⟩) (outsAt0 c n (Nat.lt_of_succ_lt hn)).2)
    else
      (ojunk0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => by have := (hcond0_0 ⟨n + 1, hn⟩).mp h; (try dsimp only at this); omega) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val = 0) (h1 : t.val ≠ 9) :
    outsAt0 V c t.val t.isLt = (ojunk0, sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact absurd h0 (Nat.succ_ne_zero n)

theorem outsAt0_B (c : Dev nD) (t : Fin cfg0.N) (h0 : t.val ≠ 0) (h1 : t.val ≠ 9) :
    outsAt0 V c t.val t.isLt = (ojunk0, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

theorem outsAt0_C (c : Dev nD) (t : Fin cfg0.N) (h0 : t.val ≠ 0) (h1 : t.val = 9) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant -/

/-- Before position `n`: at the first point the class's invariant (every scoped buffer at anything, the generator
    register at some state); afterwards the scratch at what the point before left, the rest as before. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 (F := F) c) ∗ (∃ r, prngReg c r)) := by
  cases n with
  | zero => exact absurd rfl hz
  | succ n => rfl

/-! ## The proof data -/

/-- The proof data of pipeline 0 on core `c` at the region-entry contents `V`: after the body at point `t` each input's
    buffer at its block and the output's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the point is the first, a middle or the last one
    (its position decides the two branches); the invariant hands the body the scratch — at anything at the first
    point, at what the point before left afterwards — and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val = 0
  · have h1 : t.val ≠ 9 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A; (try dsimp only)
    rw [PhiS0_castSucc V c t, PhiS0_zero V c _ _ h0]
    iintro ⟨HΦ, Ho, ⟨%d0, H0⟩, ⟨%d1, H1⟩, ⟨%do_, HO⟩⟩
    ihave HΦ' := (PhiA0_to (F := F) c) $$ HΦ
    icases HΦ' with ⟨⟨HS, Hrest⟩, Hg⟩
    iapply ((kernelRun0_A c (grid0.coords t) _ _ _ _ _ _ _ _ ((hcond0_0 t).mpr h0) (fun h => h1 ((hcond0_1 t).mp h)) (iblk0 V c 0 t) (iblk0 V c 1 t)).2 _ Set.univ _)
    isplitl [H0]; · iexact H0
    isplitl [H1]; · iexact H1
    isplitl [HO]; · iexact HO
    isplitl [HS]; · iexact HS
    iintro ⟨H0, H1, HO, ⟨%es, HS⟩⟩
    isplitl [HS Hrest Hg]
    · isplitl [HS Hrest]
      · isplitl [HS]
        · unfold owns; iexists _; isplitr
          swap; · iexact HS
          ipureintro; exact View.read_writes_of_cover _ _ _ _ _ (scover0_A c _ _ _ _ _ _ _ _ _ _ _ _ _)
        iexact Hrest
      iexact Hg
    isplitl [Ho]; · iexact Ho
    isplitl [H0]; · iexact H0
    isplitl [H1]; · iexact H1
    iexists _; iexact HO
  · by_cases h1 : t.val = 9
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      rw [PhiS0_castSucc V c t, PhiS0_pos V c _ _ h0]
      iintro ⟨⟨⟨HS, Hrest⟩, Hg⟩, Ho, ⟨%d0, H0⟩, ⟨%d1, H1⟩, ⟨%do_, HO⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [HO]; · iexists _; iexact HO
      isplitl [HS]; · iexact HS
      iintro ⟨H0, H1, ⟨%eo, HO⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover0_C c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact HO
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS0_castSucc V c t, PhiS0_pos V c _ _ h0]
      iintro ⟨⟨⟨HS, Hrest⟩, Hg⟩, Ho, ⟨%d0, H0⟩, ⟨%d1, H1⟩, ⟨%do_, HO⟩⟩
      iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [HO]; · iexact HO
      isplitl [HS]; · iexact HS
      iintro ⟨H0, H1, HO, ⟨%es, HS⟩⟩
      isplitl [HS Hrest Hg]
      · isplitl [HS Hrest]
        · isplitl [HS]
          · unfold owns; iexists _; isplitr
            swap; · iexact HS
            ipureintro; exact View.read_writes_of_cover _ _ _ _ _ (scover0_B c _ _ _ _ _ _ _ _ _ _ _ _ _ _)
          iexact Hrest
        iexact Hg
      isplitl [Ho]; · iexact Ho
      isplitl [H0]; · iexact H0
      isplitl [H1]; · iexact H1
      iexists _; iexact HO

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant's two ends -/

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch's named contents are forgotten. -/
theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 10 := N_0; omega)]
  iintro ⟨⟨HS, Hrest⟩, Hg⟩
  iapply (PhiA0_from (F := F) c)
  isplitl [HS Hrest]
  · isplitl [HS]
    · iexists _; iexact HS
    iexact Hrest
  iexact Hg

end

end Cert.KernelIdeal.Fr

end
-- ==== Proof.R1Runs.lean ====
/-
  Region 1: what the runs of its kernel body share — each window's block at a grid point, the two
  conditions of the body's branches decided over the grid (the first point; the last point), where the
  output window is idle, the staging and scratch memrefs — and the body's run in each of its three
  cases: the first point (the scratch reset, then the point's sum added), a middle point (the sum
  added to what the point before left), the last point (added, then the scratch copied to the output).
  The pieces each buffer ends with are found by running the body.
-/
import proofs.«145632_j87290915324054_1_alg».proof.Proof.Gen.KernelIdeal.Launch
import proofs.«145632_j87290915324054_1_alg».proof.Proof.Gen.KernelIdeal.Skeleton
import proofs.«145632_j87290915324054_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's two branch conditions, over the grid -/

/-- The first branch (reset the scratch) is taken -/
abbrev cond1_0 (i : grid1.Coords) : Prop := (Scalar.cmpi .ne (Scalar.extui (Scalar.cmpi .eq (BitVec.ofNat 32 (i 0).val) 0#32)) 0#32) = 1#1
/-- at the first point only. -/
theorem hcond1_0 : ∀ t : Fin cfg1.N, cond1_0 (grid1.coords t) ↔ t.val = 0 :=
  (by decide +kernel : ∀ t : Fin grid1.N, cond1_0 (grid1.coords t) ↔ t.val = 0)
/-- The second branch (copy the scratch to the output) is taken -/
abbrev cond1_1 (i : grid1.Coords) : Prop := k1_cond2 i = 1#1
/-- at the last point only. -/
theorem hcond1_1 : ∀ t : Fin cfg1.N, cond1_1 (grid1.coords t) ↔ t.val = 2 :=
  (by decide +kernel : ∀ t : Fin grid1.N, cond1_1 (grid1.coords t) ↔ t.val = 2)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last point the output window is idle (the body stores nothing into it) -/
theorem idleAt1_2 : ∀ t : Fin cfg1.N, ¬cond1_1 (grid1.coords t) → cfg1.idle 2 (grid1.coords t) = true := by decide +kernel
/-- and is not written back; -/
theorem noFlush1_2 : ∀ t : Fin cfg1.N, ¬cond1_1 (grid1.coords t) → (cfg1.win 2).flush t = false := by decide +kernel
/-- at the last point it is live. -/
theorem liveAt1_2 : ∀ t : Fin cfg1.N, cond1_1 (grid1.coords t) → cfg1.idle 2 (grid1.coords t) = false := by decide +kernel

/-! ## The memrefs the body is called with -/

/-- One staging buffer of the output window, through which its contents are stated. -/
abbrev VO1 : View sig .tc .vmem S1x1 .f32 := (Memref.whole cc1_stg2_0 : Memref sig .tc .vmem S1x1 .f32).view
abbrev ms1_0 (t : Fin cfg1.N) : Memref sig .tc .vmem S1304x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1304x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
/-- The scratch word the kernel carries between points. -/
abbrev scM1 : Memref sig .tc .vmem S1x1 .f32 := Memref.whole cc1_scratch0
abbrev VS1 : View sig .tc .vmem S1x1 .f32 := scM1.view

/-- The scoped buffers that are neither a staging buffer of this region nor its scratch, each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_scratch0), ((c : Thread nD τ).loc cc2_scratch0) ↦{fullShare} f))

/-- The class invariant hands out the scratch at some contents, the other scoped buffers and the generator register, -/
theorem PhiA1_to (c : Dev nD) :
    (Pipeline.ΦA spec1 c : sProp 𝕄) ⊢ iprop(iprop((∃ d, owns (c : Thread nD τ) scM1 fullShare d) ∗ rest1 (F := F) c) ∗ (∃ r, prngReg c r)) := by
  unfold Pipeline.ΦA rest1; rw [scopedRest1_eq]; simp only [scM1, owns_whole]
  iintro ⟨⟨R0, R1, R2, R3, R4, R5, HS, R6, R7, R8, R9⟩, Hg⟩
  isplitr [Hg]
  swap; · iexact Hg
  isplitl [HS]; · iexact HS
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact R9

/-- and takes them back. -/
theorem PhiA1_from (c : Dev nD) :
    iprop(iprop((∃ d, owns (c : Thread nD τ) scM1 fullShare d) ∗ rest1 (F := F) c) ∗ (∃ r, prngReg c r)) ⊢ (Pipeline.ΦA spec1 c : sProp 𝕄) := by
  unfold Pipeline.ΦA rest1; rw [scopedRest1_eq]; simp only [scM1, owns_whole]
  iintro ⟨⟨HS, R0, R1, R2, R3, R4, R5, R6, R7, R8, R9⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [HS]; · iexact HS
  isplitl [R6]; · iexact R6
  isplitl [R7]; · iexact R7
  isplitl [R8]; · iexact R8
  iexact R9

/-! ## The body's run, case by case -/

set_option maxHeartbeats 1000000 in
/-- THE FIRST POINT (the reset taken, the copy-out not): on whole memrefs — the inputs' at their contents, the idle
    output's at contents handed back untouched, the scratch at anything — the body runs to the continuation holding
    the inputs' and the output's as they were and the scratch with the pieces `LS` written. -/
noncomputable def kernelRun1_A (c : Dev nD) (i : grid1.Coords) (arg1 : Memref sig .tc .vmem S1304x128 .f32) (harg1 : arg1.IsWhole) (arg2 : Memref sig .tc .vmem S1304x128 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S1304x128 .f32) (x1 : Vec F S1304x128 .f32) :
    { LS : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xo ∗ (∃ d, owns (c : Thread nD τ) arg4 fullShare d)
            ∗ (iprop(owns (c : Thread nD τ) arg1 fullShare x0 ∗ owns (c : Thread nD τ) arg2 fullShare x1 ∗ owns (c : Thread nD τ) arg3 fullShare xo ∗ (∃ f, arg4.view.loc (c : Thread nD τ) ↦[arg4.view.set]{fullShare} arg4.view.writes (Elt F) f LS)) -∗ K ⟨⟩))
          ⊢ wp frame (wpE (defs₀ (F := F)) Variants.none c none) E (cc1__sum_abs_diff_kernel i arg1 harg1 arg2 harg2 arg3 harg3 arg4 harg4) K } := by
  refine ⟨?_, fun xo E K => ?run⟩
  case run =>
    simp only [cc1__sum_abs_diff_kernel_eq_skeleton]; unfold cc1__sum_abs_diff_kernel_skel
    unfold owns
    iintro ⟨⟨%f0, %hf0, H0⟩, ⟨%f1, %hf1, H1⟩, ⟨%fo, %hfo, HO⟩, ⟨%ds, %fs, -, HS⟩, Hk⟩
    obtain rfl := harg1.eq_unread hf0; obtain rfl := harg2.eq_unread hf1; obtain rfl := harg3.eq_unread hfo
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HO]
    · iexists _; isplitr; · ipureintro; exact harg3.read_unread _
      iexact HO
    iexists _; iexact HS

set_option maxHeartbeats 1000000 in
/-- A MIDDLE POINT (neither branch taken): the scratch at what the point before left (`xs`); the body runs to the
    continuation holding the inputs' and the idle output's memrefs as they were and the scratch with `LS` written. -/
noncomputable def kernelRun1_B (c : Dev nD) (i : grid1.Coords) (arg1 : Memref sig .tc .vmem S1304x128 .f32) (harg1 : arg1.IsWhole) (arg2 : Memref sig .tc .vmem S1304x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S1304x128 .f32) (x1 : Vec F S1304x128 .f32) (xs : Vec F S1x1 .f32) :
    { LS : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xo ∗ owns (c : Thread nD τ) arg4 fullShare xs
            ∗ (iprop(owns (c : Thread nD τ) arg1 fullShare x0 ∗ owns (c : Thread nD τ) arg2 fullShare x1 ∗ owns (c : Thread nD τ) arg3 fullShare xo ∗ (∃ f, arg4.view.loc (c : Thread nD τ) ↦[arg4.view.set]{fullShare} arg4.view.writes (Elt F) f LS)) -∗ K ⟨⟩))
          ⊢ wp frame (wpE (defs₀ (F := F)) Variants.none c none) E (cc1__sum_abs_diff_kernel i arg1 harg1 arg2 harg2 arg3 harg3 arg4 harg4) K } := by
  refine ⟨?_, fun xo E K => ?run⟩
  case run =>
    simp only [cc1__sum_abs_diff_kernel_eq_skeleton]; unfold cc1__sum_abs_diff_kernel_skel
    unfold owns
    iintro ⟨⟨%f0, %hf0, H0⟩, ⟨%f1, %hf1, H1⟩, ⟨%fo, %hfo, HO⟩, ⟨%fs, %hfs, HS⟩, Hk⟩
    obtain rfl := harg1.eq_unread hf0; obtain rfl := harg2.eq_unread hf1; obtain rfl := harg3.eq_unread hfo; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HO]
    · iexists _; isplitr; · ipureintro; exact harg3.read_unread _
      iexact HO
    iexists _; iexact HS

set_option maxHeartbeats 1000000 in
/-- THE LAST POINT (the reset not taken, the copy-out taken): the scratch at what the point before left, the output's
    memref at anything; the body runs to the continuation holding the inputs' as they were, the output's with the
    pieces `LO` written and the scratch with `LS` written. -/
noncomputable def kernelRun1_C (c : Dev nD) (i : grid1.Coords) (arg1 : Memref sig .tc .vmem S1304x128 .f32) (harg1 : arg1.IsWhole) (arg2 : Memref sig .tc .vmem S1304x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S1304x128 .f32) (x1 : Vec F S1304x128 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f LO) ∗ (∃ f, arg4.view.loc (c : Thread nD τ) ↦[arg4.view.set]{fullShare} arg4.view.writes (Elt F) f LS)) -∗ K ⟨⟩))
          ⊢ wp frame (wpE (defs₀ (F := F)) Variants.none c none) E (cc1__sum_abs_diff_kernel i arg1 harg1 arg2 harg2 arg3 harg3 arg4 harg4) K } := by
  refine ⟨?_, ?_, fun E K => ?run⟩
  case run =>
    simp only [cc1__sum_abs_diff_kernel_eq_skeleton]; unfold cc1__sum_abs_diff_kernel_skel
    unfold owns
    iintro ⟨⟨%f0, %hf0, H0⟩, ⟨%f1, %hf1, H1⟩, ⟨%do_, %fo, -, HO⟩, ⟨%fs, %hfs, HS⟩, Hk⟩
    obtain rfl := harg1.eq_unread hf0; obtain rfl := harg2.eq_unread hf1; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [HO]; · iexists _; iexact HO
    iexists _; iexact HS

end Cert.KernelIdeal.Fr

end
-- ==== Proof.R1Dat.lean ====
/-
  Region 1: what its output word and its scratch word hold after each grid point (a recursion on the
  point: the first point's run; a later point's run over what the point before left in the scratch),
  the region's invariant (before the first point the class's; afterwards the scratch at that point's
  contents, the other scoped buffers at anything, the generator register at some state), the proof data,
  the body obligation at every point by cases on the point, and the invariant's two ends.
-/
import proofs.«145632_j87290915324054_1_alg».proof.Proof.Gen.KernelIdeal.Launch
import proofs.«145632_j87290915324054_1_alg».proof.Proof.Gen.KernelIdeal.Skeleton
import proofs.«145632_j87290915324054_1_alg».proof.Proof.Gen.KernelIdeal.Points
import proofs.«145632_j87290915324054_1_alg».proof.Proof.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

theorem scover1_A (c : Dev nD) (i : grid1.Coords) (arg1 : Memref sig .tc .vmem S1304x128 .f32) (harg1 : arg1.IsWhole) (arg2 : Memref sig .tc .vmem S1304x128 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S1304x128 .f32) (x1 : Vec F S1304x128 .f32) (y : S1x1.Idx) :
    ∃ pc ∈ (kernelRun1_A c i arg1 harg1 arg2 harg2 arg3 harg3 arg4 harg4 hc0 hc1 x0 x1).1, y ∈ pc.1.set :=
  View.cover_of_tiledL (kernelRun1_A c i arg1 harg1 arg2 harg2 arg3 harg3 arg4 harg4 hc0 hc1 x0 x1).1 S1x1.size (by sl_kernel_rfl) y

/-- What the first point leaves in the scratch: its pieces read back. -/
def sout1_A (c : Dev nD) (i : grid1.Coords) (arg1 : Memref sig .tc .vmem S1304x128 .f32) (harg1 : arg1.IsWhole) (arg2 : Memref sig .tc .vmem S1304x128 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S1304x128 .f32) (x1 : Vec F S1304x128 .f32) : Vec F S1x1 .f32 :=
  VS1.read (Elt F) (VS1.writes (Elt F) VS1.junk (kernelRun1_A c i arg1 harg1 arg2 harg2 arg3 harg3 arg4 harg4 hc0 hc1 x0 x1).1)

theorem scover1_B (c : Dev nD) (i : grid1.Coords) (arg1 : Memref sig .tc .vmem S1304x128 .f32) (harg1 : arg1.IsWhole) (arg2 : Memref sig .tc .vmem S1304x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S1304x128 .f32) (x1 : Vec F S1304x128 .f32) (xs : Vec F S1x1 .f32) (y : S1x1.Idx) :
    ∃ pc ∈ (kernelRun1_B c i arg1 harg1 arg2 harg2 arg3 harg3 arg4 harg4 hc0 hc1 x0 x1 xs).1, y ∈ pc.1.set :=
  View.cover_of_tiledL (kernelRun1_B c i arg1 harg1 arg2 harg2 arg3 harg3 arg4 harg4 hc0 hc1 x0 x1 xs).1 S1x1.size (by sl_kernel_rfl) y

/-- What a middle point leaves in the scratch. -/
def sout1_B (c : Dev nD) (i : grid1.Coords) (arg1 : Memref sig .tc .vmem S1304x128 .f32) (harg1 : arg1.IsWhole) (arg2 : Memref sig .tc .vmem S1304x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S1304x128 .f32) (x1 : Vec F S1304x128 .f32) (xs : Vec F S1x1 .f32) : Vec F S1x1 .f32 :=
  VS1.read (Elt F) (VS1.writes (Elt F) VS1.junk (kernelRun1_B c i arg1 harg1 arg2 harg2 arg3 harg3 arg4 harg4 hc0 hc1 x0 x1 xs).1)

theorem cover1_C (c : Dev nD) (i : grid1.Coords) (arg1 : Memref sig .tc .vmem S1304x128 .f32) (harg1 : arg1.IsWhole) (arg2 : Memref sig .tc .vmem S1304x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S1304x128 .f32) (x1 : Vec F S1304x128 .f32) (xs : Vec F S1x1 .f32) (y : S1x1.Idx) :
    ∃ pc ∈ (kernelRun1_C c i arg1 harg1 arg2 harg2 arg3 harg3 arg4 harg4 hc0 hc1 x0 x1 xs).1, y ∈ pc.1.set :=
  View.cover_of_tiledL (kernelRun1_C c i arg1 harg1 arg2 harg2 arg3 harg3 arg4 harg4 hc0 hc1 x0 x1 xs).1 S1x1.size (by sl_kernel_rfl) y

/-- What the last point leaves in the output's staging buffer. -/
def out1_C (c : Dev nD) (i : grid1.Coords) (arg1 : Memref sig .tc .vmem S1304x128 .f32) (harg1 : arg1.IsWhole) (arg2 : Memref sig .tc .vmem S1304x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S1304x128 .f32) (x1 : Vec F S1304x128 .f32) (xs : Vec F S1x1 .f32) : Vec F S1x1 .f32 :=
  VO1.read (Elt F) (VO1.writes (Elt F) VO1.junk (kernelRun1_C c i arg1 harg1 arg2 harg2 arg3 harg3 arg4 harg4 hc0 hc1 x0 x1 xs).1)

theorem scover1_C (c : Dev nD) (i : grid1.Coords) (arg1 : Memref sig .tc .vmem S1304x128 .f32) (harg1 : arg1.IsWhole) (arg2 : Memref sig .tc .vmem S1304x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S1304x128 .f32) (x1 : Vec F S1304x128 .f32) (xs : Vec F S1x1 .f32) (y : S1x1.Idx) :
    ∃ pc ∈ (kernelRun1_C c i arg1 harg1 arg2 harg2 arg3 harg3 arg4 harg4 hc0 hc1 x0 x1 xs).2.1, y ∈ pc.1.set :=
  View.cover_of_tiledL (kernelRun1_C c i arg1 harg1 arg2 harg2 arg3 harg3 arg4 harg4 hc0 hc1 x0 x1 xs).2.1 S1x1.size (by sl_kernel_rfl) y

/-- What the last point leaves in the scratch. -/
def sout1_C (c : Dev nD) (i : grid1.Coords) (arg1 : Memref sig .tc .vmem S1304x128 .f32) (harg1 : arg1.IsWhole) (arg2 : Memref sig .tc .vmem S1304x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S1304x128 .f32) (x1 : Vec F S1304x128 .f32) (xs : Vec F S1x1 .f32) : Vec F S1x1 .f32 :=
  VS1.read (Elt F) (VS1.writes (Elt F) VS1.junk (kernelRun1_C c i arg1 harg1 arg2 harg2 arg3 harg3 arg4 harg4 hc0 hc1 x0 x1 xs).2.1)

/-- Contents nothing consults: the output's buffer at a point where the window is idle. -/
def ojunk1 : Vec F S1x1 .f32 := VO1.read (Elt F) (VO1.writes (Elt F) VO1.junk [])

section
variable (V : (c : Dev nD) → (b : Ref sig .tc) → Buf (Elt F) ((c : Thread nD τ).loc b))

/-! ## Point by point -/

/-- What the output's staging buffer and the scratch hold after the body at position `n` (a pair): the first point's
    run on the point's blocks; at a later point the middle or the last run over what position `n - 1` left in the scratch. -/
def outsAt1 (c : Dev nD) : (n : ℕ) → n < cfg1.N → Vec F S1x1 .f32 × Vec F S1x1 .f32
  | 0, hn => (ojunk1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr rfl) (fun h => by have := (hcond1_1 ⟨0, hn⟩).mp h; (try dsimp only at this); omega) (iblk1 V c 0 ⟨0, hn⟩) (iblk1 V c 1 ⟨0, hn⟩))
  | n + 1, hn =>
    if h1 : n + 1 = 2 then
      (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => by have := (hcond1_0 ⟨n + 1, hn⟩).mp h; (try dsimp only at this); omega) ((hcond1_1 ⟨n + 1, hn⟩).mpr h1) (iblk1 V c 0 ⟨n + 1, hn⟩) (iblk1 V c 1 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => by have := (hcond1_0 ⟨n + 1, hn⟩).mp h; (try dsimp only at this); omega) ((hcond1_1 ⟨n + 1, hn⟩).mpr h1) (iblk1 V c 0 ⟨n + 1, hn⟩) (iblk1 V c 1 ⟨n + 1, hn⟩) (outsAt1 c n (Nat.lt_of_succ_lt hn)).2)
    else
      (ojunk1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => by have := (hcond1_0 ⟨n + 1, hn⟩).mp h; (try dsimp only at this); omega) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val = 0) (h1 : t.val ≠ 2) :
    outsAt1 V c t.val t.isLt = (ojunk1, sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact absurd h0 (Nat.succ_ne_zero n)

theorem outsAt1_B (c : Dev nD) (t : Fin cfg1.N) (h0 : t.val ≠ 0) (h1 : t.val ≠ 2) :
    outsAt1 V c t.val t.isLt = (ojunk1, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

theorem outsAt1_C (c : Dev nD) (t : Fin cfg1.N) (h0 : t.val ≠ 0) (h1 : t.val = 2) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant -/

/-- Before position `n`: at the first point the class's invariant (every scoped buffer at anything, the generator
    register at some state); afterwards the scratch at what the point before left, the rest as before. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 (F := F) c) ∗ (∃ r, prngReg c r)) := by
  cases n with
  | zero => exact absurd rfl hz
  | succ n => rfl

/-! ## The proof data -/

/-- The proof data of pipeline 1 on core `c` at the region-entry contents `V`: after the body at point `t` each input's
    buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the point is the first, a middle or the last one
    (its position decides the two branches); the invariant hands the body the scratch — at anything at the first
    point, at what the point before left afterwards — and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 3 := lt_of_lt_of_eq t.isLt (show cfg1.N = 3 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val = 0
  · have h1 : t.val ≠ 2 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    rw [PhiS1_castSucc V c t, PhiS1_zero V c _ _ h0]
    iintro ⟨HΦ, Ho, ⟨%d0, H0⟩, ⟨%d1, H1⟩, ⟨%do_, HO⟩⟩
    ihave HΦ' := (PhiA1_to (F := F) c) $$ HΦ
    icases HΦ' with ⟨⟨HS, Hrest⟩, Hg⟩
    iapply ((kernelRun1_A c (grid1.coords t) _ _ _ _ _ _ _ _ ((hcond1_0 t).mpr h0) (fun h => h1 ((hcond1_1 t).mp h)) (iblk1 V c 0 t) (iblk1 V c 1 t)).2 _ Set.univ _)
    isplitl [H0]; · iexact H0
    isplitl [H1]; · iexact H1
    isplitl [HO]; · iexact HO
    isplitl [HS]; · iexact HS
    iintro ⟨H0, H1, HO, ⟨%es, HS⟩⟩
    isplitl [HS Hrest Hg]
    · isplitl [HS Hrest]
      · isplitl [HS]
        · unfold owns; iexists _; isplitr
          swap; · iexact HS
          ipureintro; exact View.read_writes_of_cover _ _ _ _ _ (scover1_A c _ _ _ _ _ _ _ _ _ _ _ _ _)
        iexact Hrest
      iexact Hg
    isplitl [Ho]; · iexact Ho
    isplitl [H0]; · iexact H0
    isplitl [H1]; · iexact H1
    iexists _; iexact HO
  · by_cases h1 : t.val = 2
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS1_castSucc V c t, PhiS1_pos V c _ _ h0]
      iintro ⟨⟨⟨HS, Hrest⟩, Hg⟩, Ho, ⟨%d0, H0⟩, ⟨%d1, H1⟩, ⟨%do_, HO⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [HO]; · iexists _; iexact HO
      isplitl [HS]; · iexact HS
      iintro ⟨H0, H1, ⟨%eo, HO⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover1_C c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact HO
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ h0]
      iintro ⟨⟨⟨HS, Hrest⟩, Hg⟩, Ho, ⟨%d0, H0⟩, ⟨%d1, H1⟩, ⟨%do_, HO⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [HO]; · iexact HO
      isplitl [HS]; · iexact HS
      iintro ⟨H0, H1, HO, ⟨%es, HS⟩⟩
      isplitl [HS Hrest Hg]
      · isplitl [HS Hrest]
        · isplitl [HS]
          · unfold owns; iexists _; isplitr
            swap; · iexact HS
            ipureintro; exact View.read_writes_of_cover _ _ _ _ _ (scover1_B c _ _ _ _ _ _ _ _ _ _ _ _ _ _)
          iexact Hrest
        iexact Hg
      isplitl [Ho]; · iexact Ho
      isplitl [H0]; · iexact H0
      isplitl [H1]; · iexact H1
      iexists _; iexact HO

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's named contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 3 := N_1; omega)]
  iintro ⟨⟨HS, Hrest⟩, Hg⟩
  iapply (PhiA1_from (F := F) c)
  isplitl [HS Hrest]
  · isplitl [HS]
    · iexists _; iexact HS
    iexact Hrest
  iexact Hg

end

end Cert.KernelIdeal.Fr

end
-- ==== Proof.R2Runs.lean ====
/-
  Region 2: what the runs of its kernel body share — each window's block at a grid point, the two
  conditions of the body's branches decided over the grid (the first point; the last point), where the
  output window is idle, the staging and scratch memrefs — and the body's run in each of its three
  cases: the first point (the scratch reset, then the point's sum added), a middle point (the sum
  added to what the point before left), the last point (added, then the scratch copied to the output).
  The pieces each buffer ends with are found by running the body.
-/
import proofs.«145632_j87290915324054_1_alg».proof.Proof.Gen.KernelIdeal.Launch
import proofs.«145632_j87290915324054_1_alg».proof.Proof.Gen.KernelIdeal.Skeleton
import proofs.«145632_j87290915324054_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

end

/-! ## The body's two branch conditions, over the grid -/

/-- The first branch (reset the scratch) is taken -/
abbrev cond2_0 (i : grid2.Coords) : Prop := (Scalar.cmpi .ne (Scalar.extui (Scalar.cmpi .eq (BitVec.ofNat 32 (i 0).val) 0#32)) 0#32) = 1#1
/-- at the first point only. -/
theorem hcond2_0 : ∀ t : Fin cfg2.N, cond2_0 (grid2.coords t) ↔ t.val = 0 :=
  (by decide +kernel : ∀ t : Fin grid2.N, cond2_0 (grid2.coords t) ↔ t.val = 0)
/-- The second branch (copy the scratch to the output) is taken -/
abbrev cond2_1 (i : grid2.Coords) : Prop := k2_cond2 i = 1#1
/-- at the last point only. -/
theorem hcond2_1 : ∀ t : Fin cfg2.N, cond2_1 (grid2.coords t) ↔ t.val = 9 :=
  (by decide +kernel : ∀ t : Fin grid2.N, cond2_1 (grid2.coords t) ↔ t.val = 9)

/-! ## Where the windows are idle -/

theorem liveAt2_0 : ∀ t : Fin cfg2.N, cfg2.idle 0 (grid2.coords t) = false := by decide +kernel
/-- Away from the last point the output window is idle (the body stores nothing into it) -/
theorem idleAt2_1 : ∀ t : Fin cfg2.N, ¬cond2_1 (grid2.coords t) → cfg2.idle 1 (grid2.coords t) = true := by decide +kernel
/-- and is not written back; -/
theorem noFlush2_1 : ∀ t : Fin cfg2.N, ¬cond2_1 (grid2.coords t) → (cfg2.win 1).flush t = false := by decide +kernel
/-- at the last point it is live. -/
theorem liveAt2_1 : ∀ t : Fin cfg2.N, cond2_1 (grid2.coords t) → cfg2.idle 1 (grid2.coords t) = false := by decide +kernel

/-! ## The memrefs the body is called with -/

/-- One staging buffer of the output window, through which its contents are stated. -/
abbrev VO2 : View sig .tc .vmem S1x1 .f32 := (Memref.whole cc2_stg1_0 : Memref sig .tc .vmem S1x1 .f32).view
abbrev ms2_0 (t : Fin cfg2.N) : Memref sig .tc .vmem S50000x6 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1 .f32 := win2_1.stage (cfg2.slots t 1)
abbrev hs2_1 (t : Fin cfg2.N) : (ms2_1 t).IsWhole := hstage2_1 ((cfg2.slots t 1).cast nbuf2_1)
/-- The scratch word the kernel carries between points. -/
abbrev scM2 : Memref sig .tc .vmem S1x1 .f32 := Memref.whole cc2_scratch0
abbrev VS2 : View sig .tc .vmem S1x1 .f32 := scM2.view

/-- The scoped buffers that are neither a staging buffer of this region nor its scratch, each whole at some contents. -/
def rest2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_scratch0), ((c : Thread nD τ).loc cc1_scratch0) ↦{fullShare} f))

/-- The class invariant hands out the scratch at some contents, the other scoped buffers and the generator register, -/
theorem PhiA2_to (c : Dev nD) :
    (Pipeline.ΦA spec2 c : sProp 𝕄) ⊢ iprop(iprop((∃ d, owns (c : Thread nD τ) scM2 fullShare d) ∗ rest2 (F := F) c) ∗ (∃ r, prngReg c r)) := by
  unfold Pipeline.ΦA rest2; rw [scopedRest2_eq]; simp only [scM2, owns_whole]
  iintro ⟨⟨R0, R1, R2, R3, R4, R5, R6, R7, R8, R9, R10, R11, HS⟩, Hg⟩
  isplitr [Hg]
  swap; · iexact Hg
  isplitl [HS]; · iexact HS
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexact R11

/-- and takes them back. -/
theorem PhiA2_from (c : Dev nD) :
    iprop(iprop((∃ d, owns (c : Thread nD τ) scM2 fullShare d) ∗ rest2 (F := F) c) ∗ (∃ r, prngReg c r)) ⊢ (Pipeline.ΦA spec2 c : sProp 𝕄) := by
  unfold Pipeline.ΦA rest2; rw [scopedRest2_eq]; simp only [scM2, owns_whole]
  iintro ⟨⟨HS, R0, R1, R2, R3, R4, R5, R6, R7, R8, R9, R10, R11⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  iexact HS

/-! ## The body's run, case by case -/

set_option maxHeartbeats 1000000 in
/-- THE FIRST POINT (the reset taken, the copy-out not): on whole memrefs — the inputs' at their contents, the idle
    output's at contents handed back untouched, the scratch at anything — the body runs to the continuation holding
    the inputs' and the output's as they were and the scratch with the pieces `LS` written. -/
noncomputable def kernelRun2_A (c : Dev nD) (i : grid2.Coords) (arg1 : Memref sig .tc .vmem S50000x6 .f32) (harg1 : arg1.IsWhole) (arg2 : Memref sig .tc .vmem S1x1 .f32) (harg2 : arg2.IsWhole) (arg3 : Memref sig .tc .vmem S1x1 .f32) (harg3 : arg3.IsWhole) (hc0 : cond2_0 i) (hc1 : ¬cond2_1 i)
    (x0 : Vec F S50000x6 .f32) :
    { LS : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare xo ∗ (∃ d, owns (c : Thread nD τ) arg3 fullShare d)
            ∗ (iprop(owns (c : Thread nD τ) arg1 fullShare x0 ∗ owns (c : Thread nD τ) arg2 fullShare xo ∗ (∃ f, arg3.view.loc (c : Thread nD τ) ↦[arg3.view.set]{fullShare} arg3.view.writes (Elt F) f LS)) -∗ K ⟨⟩))
          ⊢ wp frame (wpE (defs₀ (F := F)) Variants.none c none) E (cc2__smooth_kernel i arg1 harg1 arg2 harg2 arg3 harg3) K } := by
  refine ⟨?_, fun xo E K => ?run⟩
  case run =>
    simp only [cc2__smooth_kernel_eq_skeleton]; unfold cc2__smooth_kernel_skel
    unfold owns
    iintro ⟨⟨%f0, %hf0, H0⟩, ⟨%fo, %hfo, HO⟩, ⟨%ds, %fs, -, HS⟩, Hk⟩
    obtain rfl := harg1.eq_unread hf0; obtain rfl := harg2.eq_unread hfo
    sl_exec (disch := first | exact hc0 | exact hc1)
    sl_step
    iapply Hk
    isplitl [H0]
    · iexists _; isplitr; · ipureintro; exact harg1.read_unread _
      iexact H0
    isplitl [HO]
    · iexists _; isplitr; · ipureintro; exact harg2.read_unread _
      iexact HO
    iexists _; iexact HS

set_option maxHeartbeats 1000000 in
/-- A MIDDLE POINT (neither branch taken): the scratch at what the point before left (`xs`); the body runs to the
    continuation holding the inputs' and the idle output's memrefs as they were and the scratch with `LS` written. -/
noncomputable def kernelRun2_B (c : Dev nD) (i : grid2.Coords) (arg1 : Memref sig .tc .vmem S50000x6 .f32) (harg1 : arg1.IsWhole) (arg2 : Memref sig .tc .vmem S1x1 .f32) (harg2 : arg2.IsWhole) (arg3 : Memref sig .tc .vmem S1x1 .f32) (harg3 : arg3.IsWhole) (hc0 : ¬cond2_0 i) (hc1 : ¬cond2_1 i)
    (x0 : Vec F S50000x6 .f32) (xs : Vec F S1x1 .f32) :
    { LS : List (View.Piece (Elt F) S1x1 .f32) //
      ∀ (xo : Vec F S1x1 .f32) (E : Set ℕ) (K : PUnit → sProp 𝕄),
        iprop(owns (c : Thread nD τ) arg1 fullShare x0 ∗ owns (c : Thread nD τ) arg2 fullShare xo ∗ owns (c : Thread nD τ) arg3 fullShare xs
            ∗ (iprop(owns (c : Thread nD τ) arg1 fullShare x0 ∗ owns (c : Thread nD τ) arg2 fullShare xo ∗ (∃ f, arg3.view.loc (c : Thread nD τ) ↦[arg3.view.set]{fullShare} arg3.view.writes (Elt F) f LS)) -∗ K ⟨⟩))
          ⊢ wp frame (wpE (defs₀ (F := F)) Variants.none c none) E (cc2__smooth_kernel i arg1 harg1 arg2 harg2 arg3 harg3) K } := by
  refine ⟨?_, fun xo E K => ?run⟩
  case run =>
    simp only [cc2__smooth_kernel_eq_skeleton]; unfold cc2__smooth_kernel_skel
    unfold owns
    iintro ⟨⟨%f0, %hf0, H0⟩, ⟨%fo, %hfo, HO⟩, ⟨%fs, %hfs, HS⟩, Hk⟩
    obtain rfl := harg1.eq_unread hf0; obtain rfl := harg2.eq_unread hfo; obtain rfl := harg3.eq_unread hfs
    sl_exec (disch := first | exact hc0 | exact hc1)
    sl_step
    iapply Hk
    isplitl [H0]
    · iexists _; isplitr; · ipureintro; exact harg1.read_unread _
      iexact H0
    isplitl [HO]
    · iexists _; isplitr; · ipureintro; exact harg2.read_unread _
      iexact HO
    iexists _; iexact HS

set_option maxHeartbeats 1000000 in
/-- THE LAST POINT (the reset not taken, the copy-out taken): the scratch at what the point before left, the output's
    memref at anything; the body runs to the continuation holding the inputs' as they were, the output's with the
    pieces `LO` written and the scratch with `LS` written. -/
noncomputable def kernelRun2_C (c : Dev nD) (i : grid2.Coords) (arg1 : Memref sig .tc .vmem S50000x6 .f32) (harg1 : arg1.IsWhole) (arg2 : Memref sig .tc .vmem S1x1 .f32) (harg2 : arg2.IsWhole) (arg3 : Memref sig .tc .vmem S1x1 .f32) (harg3 : arg3.IsWhole) (hc0 : ¬cond2_0 i) (hc1 : cond2_1 i)
    (x0 : Vec F S50000x6 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs
            ∗ (iprop(owns (c : Thread nD τ) arg1 fullShare x0 ∗ (∃ f, arg2.view.loc (c : Thread nD τ) ↦[arg2.view.set]{fullShare} arg2.view.writes (Elt F) f LO) ∗ (∃ f, arg3.view.loc (c : Thread nD τ) ↦[arg3.view.set]{fullShare} arg3.view.writes (Elt F) f LS)) -∗ K ⟨⟩))
          ⊢ wp frame (wpE (defs₀ (F := F)) Variants.none c none) E (cc2__smooth_kernel i arg1 harg1 arg2 harg2 arg3 harg3) K } := by
  refine ⟨?_, ?_, fun E K => ?run⟩
  case run =>
    simp only [cc2__smooth_kernel_eq_skeleton]; unfold cc2__smooth_kernel_skel
    unfold owns
    iintro ⟨⟨%f0, %hf0, H0⟩, ⟨%do_, %fo, -, HO⟩, ⟨%fs, %hfs, HS⟩, Hk⟩
    obtain rfl := harg1.eq_unread hf0; obtain rfl := harg3.eq_unread hfs
    sl_exec (disch := first | exact hc0 | exact hc1)
    sl_step
    iapply Hk
    isplitl [H0]
    · iexists _; isplitr; · ipureintro; exact harg1.read_unread _
      iexact H0
    isplitl [HO]; · iexists _; iexact HO
    iexists _; iexact HS

end Cert.KernelIdeal.Fr

end
-- ==== Proof.R2Dat.lean ====
/-
  Region 2: what its output word and its scratch word hold after each grid point (a recursion on the
  point: the first point's run; a later point's run over what the point before left in the scratch),
  the region's invariant (before the first point the class's; afterwards the scratch at that point's
  contents, the other scoped buffers at anything, the generator register at some state), the proof data,
  the body obligation at every point by cases on the point, and the invariant's two ends.
-/
import proofs.«145632_j87290915324054_1_alg».proof.Proof.Gen.KernelIdeal.Launch
import proofs.«145632_j87290915324054_1_alg».proof.Proof.Gen.KernelIdeal.Skeleton
import proofs.«145632_j87290915324054_1_alg».proof.Proof.Gen.KernelIdeal.Points
import proofs.«145632_j87290915324054_1_alg».proof.Proof.R2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

theorem scover2_A (c : Dev nD) (i : grid2.Coords) (arg1 : Memref sig .tc .vmem S50000x6 .f32) (harg1 : arg1.IsWhole) (arg2 : Memref sig .tc .vmem S1x1 .f32) (harg2 : arg2.IsWhole) (arg3 : Memref sig .tc .vmem S1x1 .f32) (harg3 : arg3.IsWhole) (hc0 : cond2_0 i) (hc1 : ¬cond2_1 i)
    (x0 : Vec F S50000x6 .f32) (y : S1x1.Idx) :
    ∃ pc ∈ (kernelRun2_A c i arg1 harg1 arg2 harg2 arg3 harg3 hc0 hc1 x0).1, y ∈ pc.1.set :=
  View.cover_of_tiledL (kernelRun2_A c i arg1 harg1 arg2 harg2 arg3 harg3 hc0 hc1 x0).1 S1x1.size (by sl_kernel_rfl) y

/-- What the first point leaves in the scratch: its pieces read back. -/
def sout2_A (c : Dev nD) (i : grid2.Coords) (arg1 : Memref sig .tc .vmem S50000x6 .f32) (harg1 : arg1.IsWhole) (arg2 : Memref sig .tc .vmem S1x1 .f32) (harg2 : arg2.IsWhole) (arg3 : Memref sig .tc .vmem S1x1 .f32) (harg3 : arg3.IsWhole) (hc0 : cond2_0 i) (hc1 : ¬cond2_1 i)
    (x0 : Vec F S50000x6 .f32) : Vec F S1x1 .f32 :=
  VS2.read (Elt F) (VS2.writes (Elt F) VS2.junk (kernelRun2_A c i arg1 harg1 arg2 harg2 arg3 harg3 hc0 hc1 x0).1)

theorem scover2_B (c : Dev nD) (i : grid2.Coords) (arg1 : Memref sig .tc .vmem S50000x6 .f32) (harg1 : arg1.IsWhole) (arg2 : Memref sig .tc .vmem S1x1 .f32) (harg2 : arg2.IsWhole) (arg3 : Memref sig .tc .vmem S1x1 .f32) (harg3 : arg3.IsWhole) (hc0 : ¬cond2_0 i) (hc1 : ¬cond2_1 i)
    (x0 : Vec F S50000x6 .f32) (xs : Vec F S1x1 .f32) (y : S1x1.Idx) :
    ∃ pc ∈ (kernelRun2_B c i arg1 harg1 arg2 harg2 arg3 harg3 hc0 hc1 x0 xs).1, y ∈ pc.1.set :=
  View.cover_of_tiledL (kernelRun2_B c i arg1 harg1 arg2 harg2 arg3 harg3 hc0 hc1 x0 xs).1 S1x1.size (by sl_kernel_rfl) y

/-- What a middle point leaves in the scratch. -/
def sout2_B (c : Dev nD) (i : grid2.Coords) (arg1 : Memref sig .tc .vmem S50000x6 .f32) (harg1 : arg1.IsWhole) (arg2 : Memref sig .tc .vmem S1x1 .f32) (harg2 : arg2.IsWhole) (arg3 : Memref sig .tc .vmem S1x1 .f32) (harg3 : arg3.IsWhole) (hc0 : ¬cond2_0 i) (hc1 : ¬cond2_1 i)
    (x0 : Vec F S50000x6 .f32) (xs : Vec F S1x1 .f32) : Vec F S1x1 .f32 :=
  VS2.read (Elt F) (VS2.writes (Elt F) VS2.junk (kernelRun2_B c i arg1 harg1 arg2 harg2 arg3 harg3 hc0 hc1 x0 xs).1)

theorem cover2_C (c : Dev nD) (i : grid2.Coords) (arg1 : Memref sig .tc .vmem S50000x6 .f32) (harg1 : arg1.IsWhole) (arg2 : Memref sig .tc .vmem S1x1 .f32) (harg2 : arg2.IsWhole) (arg3 : Memref sig .tc .vmem S1x1 .f32) (harg3 : arg3.IsWhole) (hc0 : ¬cond2_0 i) (hc1 : cond2_1 i)
    (x0 : Vec F S50000x6 .f32) (xs : Vec F S1x1 .f32) (y : S1x1.Idx) :
    ∃ pc ∈ (kernelRun2_C c i arg1 harg1 arg2 harg2 arg3 harg3 hc0 hc1 x0 xs).1, y ∈ pc.1.set :=
  View.cover_of_tiledL (kernelRun2_C c i arg1 harg1 arg2 harg2 arg3 harg3 hc0 hc1 x0 xs).1 S1x1.size (by sl_kernel_rfl) y

/-- What the last point leaves in the output's staging buffer. -/
def out2_C (c : Dev nD) (i : grid2.Coords) (arg1 : Memref sig .tc .vmem S50000x6 .f32) (harg1 : arg1.IsWhole) (arg2 : Memref sig .tc .vmem S1x1 .f32) (harg2 : arg2.IsWhole) (arg3 : Memref sig .tc .vmem S1x1 .f32) (harg3 : arg3.IsWhole) (hc0 : ¬cond2_0 i) (hc1 : cond2_1 i)
    (x0 : Vec F S50000x6 .f32) (xs : Vec F S1x1 .f32) : Vec F S1x1 .f32 :=
  VO2.read (Elt F) (VO2.writes (Elt F) VO2.junk (kernelRun2_C c i arg1 harg1 arg2 harg2 arg3 harg3 hc0 hc1 x0 xs).1)

theorem scover2_C (c : Dev nD) (i : grid2.Coords) (arg1 : Memref sig .tc .vmem S50000x6 .f32) (harg1 : arg1.IsWhole) (arg2 : Memref sig .tc .vmem S1x1 .f32) (harg2 : arg2.IsWhole) (arg3 : Memref sig .tc .vmem S1x1 .f32) (harg3 : arg3.IsWhole) (hc0 : ¬cond2_0 i) (hc1 : cond2_1 i)
    (x0 : Vec F S50000x6 .f32) (xs : Vec F S1x1 .f32) (y : S1x1.Idx) :
    ∃ pc ∈ (kernelRun2_C c i arg1 harg1 arg2 harg2 arg3 harg3 hc0 hc1 x0 xs).2.1, y ∈ pc.1.set :=
  View.cover_of_tiledL (kernelRun2_C c i arg1 harg1 arg2 harg2 arg3 harg3 hc0 hc1 x0 xs).2.1 S1x1.size (by sl_kernel_rfl) y

/-- What the last point leaves in the scratch. -/
def sout2_C (c : Dev nD) (i : grid2.Coords) (arg1 : Memref sig .tc .vmem S50000x6 .f32) (harg1 : arg1.IsWhole) (arg2 : Memref sig .tc .vmem S1x1 .f32) (harg2 : arg2.IsWhole) (arg3 : Memref sig .tc .vmem S1x1 .f32) (harg3 : arg3.IsWhole) (hc0 : ¬cond2_0 i) (hc1 : cond2_1 i)
    (x0 : Vec F S50000x6 .f32) (xs : Vec F S1x1 .f32) : Vec F S1x1 .f32 :=
  VS2.read (Elt F) (VS2.writes (Elt F) VS2.junk (kernelRun2_C c i arg1 harg1 arg2 harg2 arg3 harg3 hc0 hc1 x0 xs).2.1)

/-- Contents nothing consults: the output's buffer at a point where the window is idle. -/
def ojunk2 : Vec F S1x1 .f32 := VO2.read (Elt F) (VO2.writes (Elt F) VO2.junk [])

section
variable (V : (c : Dev nD) → (b : Ref sig .tc) → Buf (Elt F) ((c : Thread nD τ).loc b))

/-! ## Point by point -/

/-- What the output's staging buffer and the scratch hold after the body at position `n` (a pair): the first point's
    run on the point's blocks; at a later point the middle or the last run over what position `n - 1` left in the scratch. -/
def outsAt2 (c : Dev nD) : (n : ℕ) → n < cfg2.N → Vec F S1x1 .f32 × Vec F S1x1 .f32
  | 0, hn => (ojunk2, sout2_A c (grid2.coords ⟨0, hn⟩) (ms2_0 ⟨0, hn⟩) (hs2_0 ⟨0, hn⟩) (ms2_1 ⟨0, hn⟩) (hs2_1 ⟨0, hn⟩) scM2 (Memref.isWhole_whole _) ((hcond2_0 ⟨0, hn⟩).mpr rfl) (fun h => by have := (hcond2_1 ⟨0, hn⟩).mp h; (try dsimp only at this); omega) (iblk2 V c 0 ⟨0, hn⟩))
  | n + 1, hn =>
    if h1 : n + 1 = 9 then
      (out2_C c (grid2.coords ⟨n + 1, hn⟩) (ms2_0 ⟨n + 1, hn⟩) (hs2_0 ⟨n + 1, hn⟩) (ms2_1 ⟨n + 1, hn⟩) (hs2_1 ⟨n + 1, hn⟩) scM2 (Memref.isWhole_whole _) (fun h => by have := (hcond2_0 ⟨n + 1, hn⟩).mp h; (try dsimp only at this); omega) ((hcond2_1 ⟨n + 1, hn⟩).mpr h1) (iblk2 V c 0 ⟨n + 1, hn⟩) (outsAt2 c n (Nat.lt_of_succ_lt hn)).2,
       sout2_C c (grid2.coords ⟨n + 1, hn⟩) (ms2_0 ⟨n + 1, hn⟩) (hs2_0 ⟨n + 1, hn⟩) (ms2_1 ⟨n + 1, hn⟩) (hs2_1 ⟨n + 1, hn⟩) scM2 (Memref.isWhole_whole _) (fun h => by have := (hcond2_0 ⟨n + 1, hn⟩).mp h; (try dsimp only at this); omega) ((hcond2_1 ⟨n + 1, hn⟩).mpr h1) (iblk2 V c 0 ⟨n + 1, hn⟩) (outsAt2 c n (Nat.lt_of_succ_lt hn)).2)
    else
      (ojunk2, sout2_B c (grid2.coords ⟨n + 1, hn⟩) (ms2_0 ⟨n + 1, hn⟩) (hs2_0 ⟨n + 1, hn⟩) (ms2_1 ⟨n + 1, hn⟩) (hs2_1 ⟨n + 1, hn⟩) scM2 (Memref.isWhole_whole _) (fun h => by have := (hcond2_0 ⟨n + 1, hn⟩).mp h; (try dsimp only at this); omega) (fun h => h1 ((hcond2_1 ⟨n + 1, hn⟩).mp h)) (iblk2 V c 0 ⟨n + 1, hn⟩) (outsAt2 c n (Nat.lt_of_succ_lt hn)).2)

theorem outsAt2_A (c : Dev nD) (t : Fin cfg2.N) (h0 : t.val = 0) (h1 : t.val ≠ 9) :
    outsAt2 V c t.val t.isLt = (ojunk2, sout2_A c (grid2.coords t) (ms2_0 t) (hs2_0 t) (ms2_1 t) (hs2_1 t) scM2 (Memref.isWhole_whole _) ((hcond2_0 t).mpr h0) (fun h => h1 ((hcond2_1 t).mp h)) (iblk2 V c 0 t)) := by
  obtain ⟨n, hn⟩ := t
  cases n with
  | zero => exact rfl
  | succ n => exact absurd h0 (Nat.succ_ne_zero n)

theorem outsAt2_B (c : Dev nD) (t : Fin cfg2.N) (h0 : t.val ≠ 0) (h1 : t.val ≠ 9) :
    outsAt2 V c t.val t.isLt = (ojunk2, sout2_B c (grid2.coords t) (ms2_0 t) (hs2_0 t) (ms2_1 t) (hs2_1 t) scM2 (Memref.isWhole_whole _) (fun h => h0 ((hcond2_0 t).mp h)) (fun h => h1 ((hcond2_1 t).mp h)) (iblk2 V c 0 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

theorem outsAt2_C (c : Dev nD) (t : Fin cfg2.N) (h0 : t.val ≠ 0) (h1 : t.val = 9) :
    outsAt2 V c t.val t.isLt = (out2_C c (grid2.coords t) (ms2_0 t) (hs2_0 t) (ms2_1 t) (hs2_1 t) scM2 (Memref.isWhole_whole _) (fun h => h0 ((hcond2_0 t).mp h)) ((hcond2_1 t).mpr h1) (iblk2 V c 0 t) (outsAt2 V c (t.val - 1) (Nat.lt_of_le_of_lt (Nat.sub_le _ _) t.isLt)).2,
      sout2_C c (grid2.coords t) (ms2_0 t) (hs2_0 t) (ms2_1 t) (hs2_1 t) scM2 (Memref.isWhole_whole _) (fun h => h0 ((hcond2_0 t).mp h)) ((hcond2_1 t).mpr h1) (iblk2 V c 0 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant -/

/-- Before position `n`: at the first point the class's invariant (every scoped buffer at anything, the generator
    register at some state); afterwards the scratch at what the point before left, the rest as before. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare ((outsAt2 V c n hn).2) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ rest2 (F := F) c) ∗ (∃ r, prngReg c r)) := by
  cases n with
  | zero => exact absurd rfl hz
  | succ n => rfl

/-! ## The proof data -/

/-- The proof data of pipeline 2 on core `c` at the region-entry contents `V`: after the body at point `t` each input's
    buffer at its block and the output's at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t)

set_option maxHeartbeats 4800000 in
/-- The body at any point: the inputs' memrefs hold their blocks; the point is the first, a middle or the last one
    (its position decides the two branches); the invariant hands the body the scratch — at anything at the first
    point, at what the point before left afterwards — and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl]
  rw [show (dat2 V c).Φ t.succ = PhiS2 V c (t.val + 1) t.isLt from rfl, PhiS2_succ]
  have hN : t.val < 10 := lt_of_lt_of_eq t.isLt (show cfg2.N = 10 from N_2)
  rw [show (dat2 V c).leavesExact 0 t = owns (c : Thread nD τ) (ms2_0 t) fullShare ((dat2 V c).after 0 t) from by
    unfold Dat.leavesExact; rw [liveAt2_0 t], after2_0]
  by_cases h0 : t.val = 0
  · have h1 : t.val ≠ 9 := by omega
    rw [Dat.leavesExact_idle (dat2 V c) 1 t (idleAt2_1 t (fun h => h1 ((hcond2_1 t).mp h))) (noFlush2_1 t (fun h => h1 ((hcond2_1 t).mp h)))]
    rw [outsAt2_A V c t h0 h1]
    unfold sout2_A; (try dsimp only)
    rw [PhiS2_castSucc V c t, PhiS2_zero V c _ _ h0]
    iintro ⟨HΦ, Ho, ⟨%d0, H0⟩, ⟨%do_, HO⟩⟩
    ihave HΦ' := (PhiA2_to (F := F) c) $$ HΦ
    icases HΦ' with ⟨⟨HS, Hrest⟩, Hg⟩
    iapply ((kernelRun2_A c (grid2.coords t) _ _ _ _ _ _ ((hcond2_0 t).mpr h0) (fun h => h1 ((hcond2_1 t).mp h)) (iblk2 V c 0 t)).2 _ Set.univ _)
    isplitl [H0]; · iexact H0
    isplitl [HO]; · iexact HO
    isplitl [HS]; · iexact HS
    iintro ⟨H0, HO, ⟨%es, HS⟩⟩
    isplitl [HS Hrest Hg]
    · isplitl [HS Hrest]
      · isplitl [HS]
        · unfold owns; iexists _; isplitr
          swap; · iexact HS
          ipureintro; exact View.read_writes_of_cover _ _ _ _ _ (scover2_A c _ _ _ _ _ _ _ _ _ _)
        iexact Hrest
      iexact Hg
    isplitl [Ho]; · iexact Ho
    isplitl [H0]; · iexact H0
    iexists _; iexact HO
  · by_cases h1 : t.val = 9
    · rw [show (dat2 V c).leavesExact 1 t = owns (c : Thread nD τ) (ms2_1 t) fullShare ((dat2 V c).after 1 t) from by
        unfold Dat.leavesExact; rw [liveAt2_1 t ((hcond2_1 t).mpr h1)], after2_1]
      rw [outsAt2_C V c t h0 h1]
      unfold out2_C sout2_C; (try dsimp only)
      rw [PhiS2_castSucc V c t, PhiS2_pos V c _ _ h0]
      iintro ⟨⟨⟨HS, Hrest⟩, Hg⟩, Ho, ⟨%d0, H0⟩, ⟨%do_, HO⟩⟩
      iapply ((kernelRun2_C c (grid2.coords t) _ _ _ _ _ _ (fun h => h0 ((hcond2_0 t).mp h)) ((hcond2_1 t).mpr h1) (iblk2 V c 0 t) _).2.2 Set.univ _)
      isplitl [H0]; · iexact H0
      isplitl [HO]; · iexists _; iexact HO
      isplitl [HS]; · iexact HS
      iintro ⟨H0, ⟨%eo, HO⟩, ⟨%es, HS⟩⟩
      isplitl [HS Hrest Hg]
      · isplitl [HS Hrest]
        · isplitl [HS]
          · unfold owns; iexists _; isplitr
            swap; · iexact HS
            ipureintro; exact View.read_writes_of_cover _ _ _ _ _ (scover2_C c _ _ _ _ _ _ _ _ _ _ _)
          iexact Hrest
        iexact Hg
      isplitl [Ho]; · iexact Ho
      isplitl [H0]; · iexact H0
      unfold owns; iexists _; isplitr
      swap; · iexact HO
      ipureintro; exact View.read_writes_of_cover _ _ _ _ _ (cover2_C c _ _ _ _ _ _ _ _ _ _ _)
    · rw [Dat.leavesExact_idle (dat2 V c) 1 t (idleAt2_1 t (fun h => h1 ((hcond2_1 t).mp h))) (noFlush2_1 t (fun h => h1 ((hcond2_1 t).mp h)))]
      rw [outsAt2_B V c t h0 h1]
      unfold sout2_B; (try dsimp only)
      rw [PhiS2_castSucc V c t, PhiS2_pos V c _ _ h0]
      iintro ⟨⟨⟨HS, Hrest⟩, Hg⟩, Ho, ⟨%d0, H0⟩, ⟨%do_, HO⟩⟩
      iapply ((kernelRun2_B c (grid2.coords t) _ _ _ _ _ _ (fun h => h0 ((hcond2_0 t).mp h)) (fun h => h1 ((hcond2_1 t).mp h)) (iblk2 V c 0 t) _).2 _ Set.univ _)
      isplitl [H0]; · iexact H0
      isplitl [HO]; · iexact HO
      isplitl [HS]; · iexact HS
      iintro ⟨H0, HO, ⟨%es, HS⟩⟩
      isplitl [HS Hrest Hg]
      · isplitl [HS Hrest]
        · isplitl [HS]
          · unfold owns; iexists _; isplitr
            swap; · iexact HS
            ipureintro; exact View.read_writes_of_cover _ _ _ _ _ (scover2_B c _ _ _ _ _ _ _ _ _ _ _)
          iexact Hrest
        iexact Hg
      isplitl [Ho]; · iexact Ho
      isplitl [H0]; · iexact H0
      iexists _; iexact HO

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The invariant's two ends -/

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch's named contents are forgotten. -/
theorem hout2 (c : Dev nD) : (dat2 V c).Φ (Fin.last cfg2.N) ⊢ (Pipeline.ΦA spec2 c : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 10 := N_2; omega)]
  iintro ⟨⟨HS, Hrest⟩, Hg⟩
  iapply (PhiA2_from (F := F) c)
  isplitl [HS Hrest]
  · isplitl [HS]
    · iexists _; iexact HS
    iexact Hrest
  iexact Hg

end

end Cert.KernelIdeal.Fr

end
-- ==== Proof.FrRun.lean ====
/-
  The run of @main: its fifteen items — twelve stretches of host operations and three kernel regions — as the
  segments of the several-region launch theorem, over a thread state that holds EVERY unscoped buffer at a named
  valuation. The valuations form a fold from the launch memory: a stretch rewrites the buffers its operations write,
  a region leaves its windows' arrays at what its write-backs fold to and every other buffer as it found it. The run
  theorem's post names the contents of every unscoped buffer at the end; the arguments read back through the fold
  to the launch memory give the frame claim.
-/
import proofs.«145632_j87290915324054_1_alg».proof.Proof.R0Dat
import proofs.«145632_j87290915324054_1_alg».proof.Proof.R1Dat
import proofs.«145632_j87290915324054_1_alg».proof.Proof.R2Dat
import proofs.«145632_j87290915324054_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The buffer contents at each boundary between two items: a fold through @main -/

/-- Core `c`'s buffers at launch. -/
abbrev W0 (m : (ℓ : Loc nD τ sig) → Buf (Elt F) ℓ) (ρ : Dev nD → PrngReg) : Dev nD → Valuation τ sig (Elt F) :=
  fun c b => m (c, b)

variable (m : (ℓ : Loc nD τ sig) → Buf (Elt F) ℓ) (ρ : Dev nD → PrngReg)
/-- After the stretch `hostOps0`. -/
abbrev W1 : Dev nD → Valuation τ sig (Elt F) := fun c => StableHlo.after hostOps0 (W0 m ρ c)
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- After the stretch `hostOps0_1`. -/
abbrev W2 : Dev nD → Valuation τ sig (Elt F) := fun c => StableHlo.after hostOps0_1 (W1 m ρ c)
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
/-- After the stretch `hostOps0_2`. -/
abbrev W3 : Dev nD → Valuation τ sig (Elt F) := fun c => StableHlo.after hostOps0_2 (W2 m ρ c)
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
/-- After the stretch `hostOps0_3`. -/
abbrev W4 : Dev nD → Valuation τ sig (Elt F) := fun c => StableHlo.after hostOps0_3 (W3 m ρ c)
theorem W4_of (c : Dev nD) (r : Ref sig .tc) (h : r ∉ hostOps0_3_W) :
    W4 m ρ c (Proc.devRef .tc r) = W3 m ρ c (Proc.devRef .tc r) :=
  StableHlo.after_of_writes_sub hostOps0_3 _ hostOps0_3_writes h
/-- After the stretch `hostOps0_4`. -/
abbrev W5 : Dev nD → Valuation τ sig (Elt F) := fun c => StableHlo.after hostOps0_4 (W4 m ρ c)
theorem W5_of (c : Dev nD) (r : Ref sig .tc) (h : r ∉ hostOps0_4_W) :
    W5 m ρ c (Proc.devRef .tc r) = W4 m ρ c (Proc.devRef .tc r) :=
  StableHlo.after_of_writes_sub hostOps0_4 _ hostOps0_4_writes h
/-- The contents region 0 is entered from, read at the TensorCore's references (what its proof data take). -/
abbrev V5 : (c : Dev nD) → (b : Ref sig .tc) → Buf (Elt F) ((c : Thread nD τ).loc b) := fun c b => W5 m ρ c b
/-- At region 0's exit: its windows' arrays at what the pipeline leaves (an input as entered, an output's write-backs
    folded), every other buffer as entered. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- The same read at the TensorCore's references (region 0's exit contents). -/
abbrev V6 : (c : Dev nD) → (b : Ref sig .tc) → Buf (Elt F) ((c : Thread nD τ).loc b) := fun c b => W6 m ρ c b
/-- At region 0's exit each of its arrays holds what the pipeline leaves and every other buffer what it held at entry. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)
/-- After the stretch `hostOps1`. -/
abbrev W7 : Dev nD → Valuation τ sig (Elt F) := fun c => StableHlo.after hostOps1 (W6 m ρ c)
theorem W7_of (c : Dev nD) (r : Ref sig .tc) (h : r ∉ hostOps1_W) :
    W7 m ρ c (Proc.devRef .tc r) = W6 m ρ c (Proc.devRef .tc r) :=
  StableHlo.after_of_writes_sub hostOps1 _ hostOps1_writes h
/-- After the stretch `hostOps1_1`. -/
abbrev W8 : Dev nD → Valuation τ sig (Elt F) := fun c => StableHlo.after hostOps1_1 (W7 m ρ c)
theorem W8_of (c : Dev nD) (r : Ref sig .tc) (h : r ∉ hostOps1_1_W) :
    W8 m ρ c (Proc.devRef .tc r) = W7 m ρ c (Proc.devRef .tc r) :=
  StableHlo.after_of_writes_sub hostOps1_1 _ hostOps1_1_writes h
/-- After the stretch `hostOps1_2`. -/
abbrev W9 : Dev nD → Valuation τ sig (Elt F) := fun c => StableHlo.after hostOps1_2 (W8 m ρ c)
theorem W9_of (c : Dev nD) (r : Ref sig .tc) (h : r ∉ hostOps1_2_W) :
    W9 m ρ c (Proc.devRef .tc r) = W8 m ρ c (Proc.devRef .tc r) :=
  StableHlo.after_of_writes_sub hostOps1_2 _ hostOps1_2_writes h
/-- After the stretch `hostOps1_3`. -/
abbrev W10 : Dev nD → Valuation τ sig (Elt F) := fun c => StableHlo.after hostOps1_3 (W9 m ρ c)
theorem W10_of (c : Dev nD) (r : Ref sig .tc) (h : r ∉ hostOps1_3_W) :
    W10 m ρ c (Proc.devRef .tc r) = W9 m ρ c (Proc.devRef .tc r) :=
  StableHlo.after_of_writes_sub hostOps1_3 _ hostOps1_3_writes h
/-- After the stretch `hostOps1_4`. -/
abbrev W11 : Dev nD → Valuation τ sig (Elt F) := fun c => StableHlo.after hostOps1_4 (W10 m ρ c)
theorem W11_of (c : Dev nD) (r : Ref sig .tc) (h : r ∉ hostOps1_4_W) :
    W11 m ρ c (Proc.devRef .tc r) = W10 m ρ c (Proc.devRef .tc r) :=
  StableHlo.after_of_writes_sub hostOps1_4 _ hostOps1_4_writes h
/-- The contents region 1 is entered from, read at the TensorCore's references (what its proof data take). -/
abbrev V11 : (c : Dev nD) → (b : Ref sig .tc) → Buf (Elt F) ((c : Thread nD τ).loc b) := fun c b => W11 m ρ c b
/-- At region 1's exit: its windows' arrays at what the pipeline leaves (an input as entered, an output's write-backs
    folded), every other buffer as entered. -/
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
/-- The same read at the TensorCore's references (region 1's exit contents). -/
abbrev V12 : (c : Dev nD) → (b : Ref sig .tc) → Buf (Elt F) ((c : Thread nD τ).loc b) := fun c b => W12 m ρ c b
/-- At region 1's exit each of its arrays holds what the pipeline leaves and every other buffer what it held at entry. -/
theorem hF1 (c : Dev nD) (w : Fin cfg1.W) : (dat1 (V11 m ρ) c).arrAt w cfg1.N = V12 m ρ c (Pipeline.arrRef spec1 w) :=
  (W12_arr m ρ c w).symm
theorem hrest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)
/-- After the stretch `hostOps2`. -/
abbrev W13 : Dev nD → Valuation τ sig (Elt F) := fun c => StableHlo.after hostOps2 (W12 m ρ c)
theorem W13_of (c : Dev nD) (r : Ref sig .tc) (h : r ∉ hostOps2_W) :
    W13 m ρ c (Proc.devRef .tc r) = W12 m ρ c (Proc.devRef .tc r) :=
  StableHlo.after_of_writes_sub hostOps2 _ hostOps2_writes h
/-- The contents region 2 is entered from, read at the TensorCore's references (what its proof data take). -/
abbrev V13 : (c : Dev nD) → (b : Ref sig .tc) → Buf (Elt F) ((c : Thread nD τ).loc b) := fun c b => W13 m ρ c b
/-- At region 2's exit: its windows' arrays at what the pipeline leaves (an input as entered, an output's write-backs
    folded), every other buffer as entered. -/
def W14 (c : Dev nD) : Valuation τ sig (Elt F) :=
  Pipeline.withArrays spec2 c (W13 m ρ c) fun w => (dat2 (V13 m ρ) c).arrAt w cfg2.N
theorem W14_arr (c : Dev nD) (w : Fin cfg2.W) :
    W14 m ρ c (Proc.devRef .tc (Pipeline.arrRef spec2 w)) = (dat2 (V13 m ρ) c).arrAt w cfg2.N := by
  unfold W14; exact Pipeline.withArrays_arr spec2 launch2.win.arr_inj c _ _ w
theorem W14_of_ne (c : Dev nD) (b : Ref sig .tc) (hb : ∀ w, Pipeline.arrRef spec2 w ≠ b) :
    W14 m ρ c (Proc.devRef .tc b) = W13 m ρ c (Proc.devRef .tc b) := by
  unfold W14; exact Pipeline.withArrays_of_ne spec2 c _ _ b hb
/-- The same read at the TensorCore's references (region 2's exit contents). -/
abbrev V14 : (c : Dev nD) → (b : Ref sig .tc) → Buf (Elt F) ((c : Thread nD τ).loc b) := fun c b => W14 m ρ c b
/-- At region 2's exit each of its arrays holds what the pipeline leaves and every other buffer what it held at entry. -/
theorem hF2 (c : Dev nD) (w : Fin cfg2.W) : (dat2 (V13 m ρ) c).arrAt w cfg2.N = V14 m ρ c (Pipeline.arrRef spec2 w) :=
  (W14_arr m ρ c w).symm
theorem hrest2 (c : Dev nD) : ∀ b, b ∉ Finset.univ.image (Pipeline.arrRef spec2) → V14 m ρ c b = V13 m ρ c b :=
  fun b hb => W14_of_ne m ρ c b fun w e => hb (Finset.mem_image.mpr ⟨w, Finset.mem_univ _, e⟩)
/-- After the stretch `hostOps3`. -/
abbrev W15 : Dev nD → Valuation τ sig (Elt F) := fun c => StableHlo.after hostOps3 (W14 m ρ c)
theorem W15_of (c : Dev nD) (r : Ref sig .tc) (h : r ∉ hostOps3_W) :
    W15 m ρ c (Proc.devRef .tc r) = W14 m ρ c (Proc.devRef .tc r) :=
  StableHlo.after_of_writes_sub hostOps3 _ hostOps3_writes h

/-! ### The arguments end as launched: no stretch writes one and no region has one as a window's array -/
theorem W15_main_arg0 (c : Dev nD) : W15 m ρ c (Proc.devRef .tc main_arg0) = m ((c : Thread nD τ).loc main_arg0) :=
  (W15_of m ρ c main_arg0 (by decide)).trans <| (W14_of_ne m ρ c main_arg0 (by decide)).trans <| (W13_of m ρ c main_arg0 (by decide)).trans <| (W12_of_ne m ρ c main_arg0 (by decide)).trans <| (W11_of m ρ c main_arg0 (by decide)).trans <| (W10_of m ρ c main_arg0 (by decide)).trans <| (W9_of m ρ c main_arg0 (by decide)).trans <| (W8_of m ρ c main_arg0 (by decide)).trans <| (W7_of m ρ c main_arg0 (by decide)).trans <| (W6_of_ne m ρ c main_arg0 (by decide)).trans <| (W5_of m ρ c main_arg0 (by decide)).trans <| (W4_of m ρ c main_arg0 (by decide)).trans <| (W3_of m ρ c main_arg0 (by decide)).trans <| (W2_of m ρ c main_arg0 (by decide)).trans <| (W1_of m ρ c main_arg0 (by decide)).trans <| rfl
theorem W15_main_arg1 (c : Dev nD) : W15 m ρ c (Proc.devRef .tc main_arg1) = m ((c : Thread nD τ).loc main_arg1) :=
  (W15_of m ρ c main_arg1 (by decide)).trans <| (W14_of_ne m ρ c main_arg1 (by decide)).trans <| (W13_of m ρ c main_arg1 (by decide)).trans <| (W12_of_ne m ρ c main_arg1 (by decide)).trans <| (W11_of m ρ c main_arg1 (by decide)).trans <| (W10_of m ρ c main_arg1 (by decide)).trans <| (W9_of m ρ c main_arg1 (by decide)).trans <| (W8_of m ρ c main_arg1 (by decide)).trans <| (W7_of m ρ c main_arg1 (by decide)).trans <| (W6_of_ne m ρ c main_arg1 (by decide)).trans <| (W5_of m ρ c main_arg1 (by decide)).trans <| (W4_of m ρ c main_arg1 (by decide)).trans <| (W3_of m ρ c main_arg1 (by decide)).trans <| (W2_of m ρ c main_arg1 (by decide)).trans <| (W1_of m ρ c main_arg1 (by decide)).trans <| rfl
theorem W15_main_arg2 (c : Dev nD) : W15 m ρ c (Proc.devRef .tc main_arg2) = m ((c : Thread nD τ).loc main_arg2) :=
  (W15_of m ρ c main_arg2 (by decide)).trans <| (W14_of_ne m ρ c main_arg2 (by decide)).trans <| (W13_of m ρ c main_arg2 (by decide)).trans <| (W12_of_ne m ρ c main_arg2 (by decide)).trans <| (W11_of m ρ c main_arg2 (by decide)).trans <| (W10_of m ρ c main_arg2 (by decide)).trans <| (W9_of m ρ c main_arg2 (by decide)).trans <| (W8_of m ρ c main_arg2 (by decide)).trans <| (W7_of m ρ c main_arg2 (by decide)).trans <| (W6_of_ne m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide)).trans <| rfl
theorem W15_main_arg3 (c : Dev nD) : W15 m ρ c (Proc.devRef .tc main_arg3) = m ((c : Thread nD τ).loc main_arg3) :=
  (W15_of m ρ c main_arg3 (by decide)).trans <| (W14_of_ne m ρ c main_arg3 (by decide)).trans <| (W13_of m ρ c main_arg3 (by decide)).trans <| (W12_of_ne m ρ c main_arg3 (by decide)).trans <| (W11_of m ρ c main_arg3 (by decide)).trans <| (W10_of m ρ c main_arg3 (by decide)).trans <| (W9_of m ρ c main_arg3 (by decide)).trans <| (W8_of m ρ c main_arg3 (by decide)).trans <| (W7_of m ρ c main_arg3 (by decide)).trans <| (W6_of_ne m ρ c main_arg3 (by decide)).trans <| (W5_of m ρ c main_arg3 (by decide)).trans <| (W4_of m ρ c main_arg3 (by decide)).trans <| (W3_of m ρ c main_arg3 (by decide)).trans <| (W2_of m ρ c main_arg3 (by decide)).trans <| (W1_of m ρ c main_arg3 (by decide)).trans <| rfl
theorem W15_main_arg4 (c : Dev nD) : W15 m ρ c (Proc.devRef .tc main_arg4) = m ((c : Thread nD τ).loc main_arg4) :=
  (W15_of m ρ c main_arg4 (by decide)).trans <| (W14_of_ne m ρ c main_arg4 (by decide)).trans <| (W13_of m ρ c main_arg4 (by decide)).trans <| (W12_of_ne m ρ c main_arg4 (by decide)).trans <| (W11_of m ρ c main_arg4 (by decide)).trans <| (W10_of m ρ c main_arg4 (by decide)).trans <| (W9_of m ρ c main_arg4 (by decide)).trans <| (W8_of m ρ c main_arg4 (by decide)).trans <| (W7_of m ρ c main_arg4 (by decide)).trans <| (W6_of_ne m ρ c main_arg4 (by decide)).trans <| (W5_of m ρ c main_arg4 (by decide)).trans <| (W4_of m ρ c main_arg4 (by decide)).trans <| (W3_of m ρ c main_arg4 (by decide)).trans <| (W2_of m ρ c main_arg4 (by decide)).trans <| (W1_of m ρ c main_arg4 (by decide)).trans <| rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V11 m ρ) c
  | ⟨2, _⟩ => fun c => dat2 (V13 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it
    owes, nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along:
    it is left with those references at the stretch's fold of `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents `W15`,
    the generator register at some state. -/
abbrev Tₙ (c : Dev nD) : sProp 𝕄 := iprop(StableHlo.held (c : Thread nD τ) (Pipeline.ucRefs τ sig) (W15 m ρ c) ∗ ∃ r, prngReg c r)

/-! ## The regions as segments -/

-- a library lemma stated over the pinned configuration of a pipeline unifies with the printed one only when unification
-- may unfold plain definitions in a metavariable's type
set_option backward.isDefEq.respectTransparency.types false in
/-- REGION 0 over the thread state: entered from every unscoped buffer at `W5`, left at `W6`. Its arrays are split
    out of the unscoped buffers at entry and put back at the exit contents; the generator register goes into the class
    invariant and comes back, the tracked invariant being reached from it and giving it back (`hin0`, `hout0`); nothing
    is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V5 m ρ) c)
    unfold Pipeline.ΦA
    iintro ⟨Hp, -, Hr⟩
    isplitl [Hr]; · iexact Hr
    iexact Hp
  hout c := by
    refine BIBase.Entails.trans (hout0 (V5 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of a pipeline unifies with the printed one only when unification
-- may unfold plain definitions in a metavariable's type
set_option backward.isDefEq.respectTransparency.types false in
/-- REGION 1 over the thread state: entered from every unscoped buffer at `W11`, left at `W12`. Its arrays are split
    out of the unscoped buffers at entry and put back at the exit contents; the generator register goes into the class
    invariant and comes back, the tracked invariant being reached from it and giving it back (`hin1`, `hout1`); nothing
    is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V11 m ρ) c)
    unfold Pipeline.ΦA
    iintro ⟨Hp, -, Hr⟩
    isplitl [Hr]; · iexact Hr
    iexact Hp
  hout c := by
    refine BIBase.Entails.trans (hout1 (V11 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (V12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of a pipeline unifies with the printed one only when unification
-- may unfold plain definitions in a metavariable's type
set_option backward.isDefEq.respectTransparency.types false in
/-- REGION 2 over the thread state: entered from every unscoped buffer at `W13`, left at `W14`. Its arrays are split
    out of the unscoped buffers at entry and put back at the exit contents; the generator register goes into the class
    invariant and comes back, the tracked invariant being reached from it and giving it back (`hin2`, `hout2`); nothing
    is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V13 m ρ) c).loose
  hwaits := Pipeline.hwaits_of_owed_zero _ _ _ _ L lv 2 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec2 c (V13 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V13 m ρ) c)
    unfold Pipeline.ΦA
    iintro ⟨Hp, -, Hr⟩
    isplitl [Hr]; · iexact Hr
    iexact Hp
  hout c := by
    refine BIBase.Entails.trans (hout2 (V13 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V13 m ρ c) (V14 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's fifteen segments in order: a host segment per stretch from its boundary's contents, a region per kernel. -/
abbrev segs : List (Pipeline.Seg (pcfgs (F := F)) adm (pdats m ρ) () defs₀ 𝒱₀ L lv) :=
  [
    .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .host (hseg hostOps1_1 hostOps1_1_sub hostOps1_1_fresh (W7 m ρ)),
    .host (hseg hostOps1_2 hostOps1_2_sub hostOps1_2_fresh (W8 m ρ)),
    .host (hseg hostOps1_3 hostOps1_3_sub hostOps1_3_fresh (W9 m ρ)),
    .host (hseg hostOps1_4 hostOps1_4_sub hostOps1_4_fresh (W10 m ρ)),
    .region (reg1 m ρ),
    .host (hseg hostOps2 hostOps2_sub hostOps2_fresh (W12 m ρ)),
    .region (reg2 m ρ),
    .host (hseg hostOps3 hostOps3_sub hostOps3_fresh (W14 m ρ)) ]

/-- @main IS the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state holds, at EVERY unscoped buffer of every core, the
    last boundary's contents `W15`: the launch over the fifteen segments, the last thread state read against the final
    state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W15 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

/-- THE FRAME: every weakly fair execution of @main terminates, nothing faulting, and every final state has the five
    argument arrays as launched — the run's post read at each argument's buffer, which the fold carries back to the
    launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c)⟩) (run_all m ρ)

end Cert.KernelIdeal.Fr

end
-- ==== Proof.FrHostRead.lean ====
/-
  What the chain of buffer contents says at the buffers that matter: the program's three results at the end, as the
  host's arithmetic over what the three regions leave in their output arrays; and each region's input arrays at its
  entry, as the launch memory's argument arrays — padded with the converted integer zero up to a whole number of
  128-lane rows and reshaped to rows, or reshaped to rows of six — read at an index.
-/
import proofs.«145632_j87290915324054_1_alg».proof.Proof.FrRun
import Idealize.ShloMosaic.Lib.Pipeline.Value
import Idealize.ShloMosaic.Lib.ValueIdx
import Idealize.ShloMosaic.Lib.KernelVsHost

set_option maxRecDepth 16384

noncomputable section

namespace Cert.KernelIdeal.Fr

open Idealize.ShloMosaic Idealize.ShloMosaic.TcCoe Idealize.ShloMosaic.Tactic
open Idealize.ShloMosaic.ValueIdx
open Cert.KernelIdeal Cert.KernelIdeal.Gen

variable {F : FTy → Type} [FloatOps F]
/-! ## A padded, row-reshaped vector read at an index -/

/-- The word the host pads with: the 32-bit integer zero converted to a float. -/
def padWord : F .f32 := FloatOps.sitofp .f32 (0#32 : BitVec 32)

/-- At the ideal instance the padding word is zero. -/
theorem padWord_ideal : (padWord : Ideal .f32) = 0 := by
  show ((((0#32 : BitVec 32).toInt : ℤ) : ℝ) : EReal) = 0
  simp

/-- A vector of length `n` padded behind with `v` to length `p = R * C` and reshaped to `R` rows of `C`, read at row `i`,
    column `l`: the vector at the flat position `i * C + l` where that is below `n`, the padding value beyond. -/
theorem reshape_pad_apply {α : Type} {n p hi R C : Nat} (x : (⟨1, ![n]⟩ : Shape).Idx → α) (v : S_.Idx → α)
    (hp : (⟨1, ![n]⟩ : Shape).Pads (![0] : Fin 1 → Nat) ![hi] ![0] ⟨1, ![p]⟩) (hu : 0 < S_.numel)
    (hc : (⟨1, ![p]⟩ : Shape).ShapeCasts ⟨2, ![R, C]⟩) (hRC : R * C = p) (i : Fin R) (l : Fin C) :
    shapeCast (⟨2, ![R, C]⟩ : Shape) (pad (⟨1, ![p]⟩ : Shape) (![0] : Fin 1 → Nat) ![hi] ![0] x v hp hu) hc (ix2 i l)
      = if h : i.val * C + l.val < n then x (ix1 ⟨i.val * C + l.val, h⟩) else v ix0 := by
  have hlt : i.val * C + l.val < p := by
    have h1 := i.isLt; have h2 := l.isLt
    calc i.val * C + l.val < i.val * C + C := by omega
      _ = (i.val + 1) * C := by ring
      _ ≤ R * C := Nat.mul_le_mul_right _ (by omega)
      _ = p := hRC
  refine (shapeCast_apply _ hc (ix2 i l) (ix1 ⟨i.val * C + l.val, hlt⟩) (by
    rw [Shape.rowMajor_val_one, Shape.rowMajor_val_two]; rfl)).trans ?_
  by_cases h : i.val * C + l.val < n
  · rw [dif_pos h]
    exact pad_apply_of_inside _ _ _ x v hp hu _ (ix1 ⟨i.val * C + l.val, h⟩) (fun a => match a with
      | ⟨0, _⟩ => by show i.val * C + l.val = 0 + (i.val * C + l.val) * (0 + 1); omega)
  · rw [dif_neg h]
    refine (pad_apply_of_not_inside _ _ _ x v hp hu _ (⟨0, Nat.zero_lt_one⟩ : Fin 1) ?_).trans (congrArg v (eq_ix0 _))
    rintro ⟨-, -, h3⟩
    exact h (by
      have : (i.val * C + l.val - 0) / (0 + 1) < n := h3
      simpa using this)

variable (m : (ℓ : Loc nD τ sig) → Buf (Elt F) ℓ) (ρ : Dev nD → PrngReg)

/-! ## What the regions leave, in the chain -/

/-- After region 0 its output array holds what the pipeline's write-backs fold to. -/
theorem W6_main_v4 (c : Dev nD) : W6 m ρ c (Proc.devRef .tc main_v4) = (dat0 (V5 m ρ) c).arrAt 2 cfg0.N := W6_arr m ρ c 2
/-- After region 1 its output array holds what the pipeline's write-backs fold to. -/
theorem W12_main_v11 (c : Dev nD) : W12 m ρ c (Proc.devRef .tc main_v11) = (dat1 (V11 m ρ) c).arrAt 2 cfg1.N := W12_arr m ρ c 2
/-- After region 2 its output array holds what the pipeline's write-backs fold to. -/
theorem W14_main_v16 (c : Dev nD) : W14 m ρ c (Proc.devRef .tc main_v16) = (dat2 (V13 m ρ) c).arrAt 1 cfg2.N := W14_arr m ρ c 1

/-! ## The arguments up to the regions that read them -/

theorem W6_main_arg2 (c : Dev nD) : W6 m ρ c (Proc.devRef .tc main_arg2) = m ((c : Thread nD τ).loc main_arg2) :=
  (W6_of_ne m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide)).trans rfl
theorem W6_main_arg4 (c : Dev nD) : W6 m ρ c (Proc.devRef .tc main_arg4) = m ((c : Thread nD τ).loc main_arg4) :=
  (W6_of_ne m ρ c main_arg4 (by decide)).trans <| (W5_of m ρ c main_arg4 (by decide)).trans <| (W4_of m ρ c main_arg4 (by decide)).trans <| (W3_of m ρ c main_arg4 (by decide)).trans <| (W2_of m ρ c main_arg4 (by decide)).trans <| (W1_of m ρ c main_arg4 (by decide)).trans rfl
theorem W12_main_arg1 (c : Dev nD) : W12 m ρ c (Proc.devRef .tc main_arg1) = m ((c : Thread nD τ).loc main_arg1) :=
  (W12_of_ne m ρ c main_arg1 (by decide)).trans <| (W11_of m ρ c main_arg1 (by decide)).trans <| (W10_of m ρ c main_arg1 (by decide)).trans <| (W9_of m ρ c main_arg1 (by decide)).trans <| (W8_of m ρ c main_arg1 (by decide)).trans <| (W7_of m ρ c main_arg1 (by decide)).trans <| (W6_of_ne m ρ c main_arg1 (by decide)).trans <| (W5_of m ρ c main_arg1 (by decide)).trans <| (W4_of m ρ c main_arg1 (by decide)).trans <| (W3_of m ρ c main_arg1 (by decide)).trans <| (W2_of m ρ c main_arg1 (by decide)).trans <| (W1_of m ρ c main_arg1 (by decide)).trans rfl

/-! ## The three results at the end -/

/-- The first mean: region 0's sum, as a scalar, over the first pair's length (written by the stretch after region 0). -/
theorem W7_main_v6 (c : Dev nD) : W7 m ρ c (Proc.devRef .tc main_v6)
    = Host.divf (shapeCast S_ (W6 m ρ c (Proc.devRef .tc main_v4)) shapeCasts_S1x1_S_) (constant S_ .f32 0x4A371B00#32) := by
  show StableHlo.after hostOps1 _ (Proc.devRef .tc main_v6) = _
  after_results; rfl
/-- It is carried unchanged through the four stretches before region 1 and through region 1. -/
theorem W12_main_v6 (c : Dev nD) : W12 m ρ c (Proc.devRef .tc main_v6) = W7 m ρ c (Proc.devRef .tc main_v6) :=
  (W12_of_ne m ρ c main_v6 (by decide)).trans <| (W11_of m ρ c main_v6 (by decide)).trans <| (W10_of m ρ c main_v6 (by decide)).trans <| (W9_of m ρ c main_v6 (by decide)).trans <| (W8_of m ρ c main_v6 (by decide))
/-- The sum of the two means (written by the stretch after region 1). -/
theorem W13_main_v14 (c : Dev nD) : W13 m ρ c (Proc.devRef .tc main_v14)
    = addf (W12 m ρ c (Proc.devRef .tc main_v6))
        (Host.divf (shapeCast S_ (W12 m ρ c (Proc.devRef .tc main_v11)) shapeCasts_S1x1_S_) (constant S_ .f32 0x48F42400#32)) := by
  show StableHlo.after hostOps2 _ (Proc.devRef .tc main_v14) = _
  after_results; rfl
/-- RESULT `main_v14` at the end: carried through region 2 and the last stretch. -/
theorem W15_main_v14 (c : Dev nD) : W15 m ρ c (Proc.devRef .tc main_v14)
    = addf (Host.divf (shapeCast S_ (W6 m ρ c (Proc.devRef .tc main_v4)) shapeCasts_S1x1_S_) (constant S_ .f32 0x4A371B00#32))
        (Host.divf (shapeCast S_ (W12 m ρ c (Proc.devRef .tc main_v11)) shapeCasts_S1x1_S_) (constant S_ .f32 0x48F42400#32)) := by
  rw [← W7_main_v6, ← W12_main_v6, ← W13_main_v14]
  exact (W15_of m ρ c main_v14 (by decide)).trans <| (W14_of_ne m ρ c main_v14 (by decide))
/-- RESULT `main_v18` at the end: region 2's sum, as a scalar, over six. -/
theorem W15_main_v18 (c : Dev nD) : W15 m ρ c (Proc.devRef .tc main_v18)
    = Host.divf (shapeCast S_ (W14 m ρ c (Proc.devRef .tc main_v16)) shapeCasts_S1x1_S_) (constant S_ .f32 0x40C00000#32) := by
  show StableHlo.after hostOps3 _ (Proc.devRef .tc main_v18) = _
  after_results; rfl
/-- RESULT `main_v20` at the end: the sum of the two means plus a hundred times the third term. -/
theorem W15_main_v20_aux (c : Dev nD) : W15 m ρ c (Proc.devRef .tc main_v20)
    = addf (W14 m ρ c (Proc.devRef .tc main_v14))
        (mulf (constant S_ .f32 0x42C80000#32)
          (Host.divf (shapeCast S_ (W14 m ρ c (Proc.devRef .tc main_v16)) shapeCasts_S1x1_S_) (constant S_ .f32 0x40C00000#32))) := by
  show StableHlo.after hostOps3 _ (Proc.devRef .tc main_v20) = _
  after_results; rfl
theorem W15_main_v20 (c : Dev nD) : W15 m ρ c (Proc.devRef .tc main_v20)
    = addf (addf (Host.divf (shapeCast S_ (W6 m ρ c (Proc.devRef .tc main_v4)) shapeCasts_S1x1_S_) (constant S_ .f32 0x4A371B00#32))
          (Host.divf (shapeCast S_ (W12 m ρ c (Proc.devRef .tc main_v11)) shapeCasts_S1x1_S_) (constant S_ .f32 0x48F42400#32)))
        (mulf (constant S_ .f32 0x42C80000#32)
          (Host.divf (shapeCast S_ (W14 m ρ c (Proc.devRef .tc main_v16)) shapeCasts_S1x1_S_) (constant S_ .f32 0x40C00000#32))) := by
  rw [W15_main_v20_aux, ← W15_main_v14, W15_of m ρ c main_v14 (by decide)]

/-! ## The results over what the regions leave -/

/-- RESULT `main_v14` over the regions' output arrays. -/
theorem W15_main_v14_arr (c : Dev nD) : W15 m ρ c (Proc.devRef .tc main_v14)
    = addf (Host.divf (shapeCast (s := S1x1) S_ ((dat0 (V5 m ρ) c).arrAt 2 cfg0.N) shapeCasts_S1x1_S_) (constant S_ .f32 0x4A371B00#32))
        (Host.divf (shapeCast (s := S1x1) S_ ((dat1 (V11 m ρ) c).arrAt 2 cfg1.N) shapeCasts_S1x1_S_) (constant S_ .f32 0x48F42400#32)) := by
  rw [W15_main_v14, W6_main_v4, W12_main_v11]
/-- RESULT `main_v18` over region 2's output array. -/
theorem W15_main_v18_arr (c : Dev nD) : W15 m ρ c (Proc.devRef .tc main_v18)
    = Host.divf (shapeCast (s := S1x1) S_ ((dat2 (V13 m ρ) c).arrAt 1 cfg2.N) shapeCasts_S1x1_S_) (constant S_ .f32 0x40C00000#32) := by
  rw [W15_main_v18, W14_main_v16]
/-- RESULT `main_v20` over the regions' output arrays. -/
theorem W15_main_v20_arr (c : Dev nD) : W15 m ρ c (Proc.devRef .tc main_v20)
    = addf (addf (Host.divf (shapeCast (s := S1x1) S_ ((dat0 (V5 m ρ) c).arrAt 2 cfg0.N) shapeCasts_S1x1_S_) (constant S_ .f32 0x4A371B00#32))
          (Host.divf (shapeCast (s := S1x1) S_ ((dat1 (V11 m ρ) c).arrAt 2 cfg1.N) shapeCasts_S1x1_S_) (constant S_ .f32 0x48F42400#32)))
        (mulf (constant S_ .f32 0x42C80000#32)
          (Host.divf (shapeCast (s := S1x1) S_ ((dat2 (V13 m ρ) c).arrAt 1 cfg2.N) shapeCasts_S1x1_S_) (constant S_ .f32 0x40C00000#32))) := by
  rw [W15_main_v20, W6_main_v4, W12_main_v11, W14_main_v16]

/-! ## The regions' input arrays at entry, read at an index -/

/-- `main_v2` as region 0 finds it: `main_arg0` padded behind to 3000320 entries with the converted integer zero and reshaped to
    23440 rows of 128. -/
theorem V5_main_v2_eq (c : Dev nD) : V5 m ρ c main_v2
    = shapeCast S23440x128 (pad S3000320 ![0] ![320] ![0] (m ((c : Thread nD τ).loc main_arg0)) (sitofp .f32 (constantI S_ 32 0#32)) pads_S3000000_S3000320_03200 h_S_) shapeCasts_S3000320_S23440x128 := by
  show StableHlo.after hostOps0_4 _ (Proc.devRef .tc main_v2) = _
  after_results; rfl
/-- … read at row `i`, lane `l`: the argument at the flat position `i * 128 + l` below 3000000, the padding word beyond. -/
theorem V5_main_v2_apply (c : Dev nD) (i : Fin 23440) (l : Fin 128) : V5 m ρ c main_v2 (ix2 i l)
    = if h : i.val * 128 + l.val < 3000000 then m ((c : Thread nD τ).loc main_arg0) (ix1 ⟨i.val * 128 + l.val, h⟩) else padWord := by
  rw [V5_main_v2_eq]
  exact reshape_pad_apply (n := 3000000) (p := 3000320) (hi := 320) (R := 23440) (C := 128) _ _ pads_S3000000_S3000320_03200 h_S_ shapeCasts_S3000320_S23440x128 rfl i l

/-- `main_v3` as region 0 finds it: `main_arg3` padded behind to 3000320 entries with the converted integer zero and reshaped to
    23440 rows of 128. -/
theorem V5_main_v3_eq (c : Dev nD) : V5 m ρ c main_v3
    = shapeCast S23440x128 (pad S3000320 ![0] ![320] ![0] (m ((c : Thread nD τ).loc main_arg3)) (sitofp .f32 (constantI S_ 32 0#32)) pads_S3000000_S3000320_03200 h_S_) shapeCasts_S3000320_S23440x128 := by
  show StableHlo.after hostOps0_4 _ (Proc.devRef .tc main_v3) = _
  after_results; rfl
/-- … read at row `i`, lane `l`: the argument at the flat position `i * 128 + l` below 3000000, the padding word beyond. -/
theorem V5_main_v3_apply (c : Dev nD) (i : Fin 23440) (l : Fin 128) : V5 m ρ c main_v3 (ix2 i l)
    = if h : i.val * 128 + l.val < 3000000 then m ((c : Thread nD τ).loc main_arg3) (ix1 ⟨i.val * 128 + l.val, h⟩) else padWord := by
  rw [V5_main_v3_eq]
  exact reshape_pad_apply (n := 3000000) (p := 3000320) (hi := 320) (R := 23440) (C := 128) _ _ pads_S3000000_S3000320_03200 h_S_ shapeCasts_S3000320_S23440x128 rfl i l

/-- `main_v9` as region 1 finds it: `main_arg2` padded behind to 500736 entries with the converted integer zero and reshaped to
    3912 rows of 128. -/
theorem V11_main_v9_eq (c : Dev nD) : V11 m ρ c main_v9
    = shapeCast S3912x128 (pad S500736 ![0] ![736] ![0] (W6 m ρ c (Proc.devRef .tc main_arg2)) (sitofp .f32 (constantI S_ 32 0#32)) pads_S500000_S500736_07360 h_S_) shapeCasts_S500736_S3912x128 := by
  show StableHlo.after hostOps1_4 _ (Proc.devRef .tc main_v9) = _
  after_results; rfl
/-- … read at row `i`, lane `l`: the argument at the flat position `i * 128 + l` below 500000, the padding word beyond. -/
theorem V11_main_v9_apply (c : Dev nD) (i : Fin 3912) (l : Fin 128) : V11 m ρ c main_v9 (ix2 i l)
    = if h : i.val * 128 + l.val < 500000 then m ((c : Thread nD τ).loc main_arg2) (ix1 ⟨i.val * 128 + l.val, h⟩) else padWord := by
  rw [V11_main_v9_eq, W6_main_arg2]
  exact reshape_pad_apply (n := 500000) (p := 500736) (hi := 736) (R := 3912) (C := 128) _ _ pads_S500000_S500736_07360 h_S_ shapeCasts_S500736_S3912x128 rfl i l

/-- `main_v10` as region 1 finds it: `main_arg4` padded behind to 500736 entries with the converted integer zero and reshaped to
    3912 rows of 128. -/
theorem V11_main_v10_eq (c : Dev nD) : V11 m ρ c main_v10
    = shapeCast S3912x128 (pad S500736 ![0] ![736] ![0] (W6 m ρ c (Proc.devRef .tc main_arg4)) (sitofp .f32 (constantI S_ 32 0#32)) pads_S500000_S500736_07360 h_S_) shapeCasts_S500736_S3912x128 := by
  show StableHlo.after hostOps1_4 _ (Proc.devRef .tc main_v10) = _
  after_results; rfl
/-- … read at row `i`, lane `l`: the argument at the flat position `i * 128 + l` below 500000, the padding word beyond. -/
theorem V11_main_v10_apply (c : Dev nD) (i : Fin 3912) (l : Fin 128) : V11 m ρ c main_v10 (ix2 i l)
    = if h : i.val * 128 + l.val < 500000 then m ((c : Thread nD τ).loc main_arg4) (ix1 ⟨i.val * 128 + l.val, h⟩) else padWord := by
  rw [V11_main_v10_eq, W6_main_arg4]
  exact reshape_pad_apply (n := 500000) (p := 500736) (hi := 736) (R := 3912) (C := 128) _ _ pads_S500000_S500736_07360 h_S_ shapeCasts_S500736_S3912x128 rfl i l

/-- `main_v15` as region 2 finds it: `main_arg1` reshaped to 500000 rows of six. -/
theorem V13_main_v15_eq (c : Dev nD) : V13 m ρ c main_v15
    = shapeCast S500000x6 (W12 m ρ c (Proc.devRef .tc main_arg1)) shapeCasts_S3000000_S500000x6 := by
  show StableHlo.after hostOps2 _ (Proc.devRef .tc main_v15) = _
  after_results; rfl
/-- … read at row `r`, column `k`: the argument at the flat position `r * 6 + k`. -/
theorem V13_main_v15_apply (c : Dev nD) (r : Fin 500000) (k : Fin 6) : V13 m ρ c main_v15 (ix2 r k)
    = m ((c : Thread nD τ).loc main_arg1) (ix1 ⟨r.val * 6 + k.val, by have := r.isLt; have := k.isLt; omega⟩) := by
  rw [V13_main_v15_eq, W12_main_arg1]
  exact shapeCast_apply _ shapeCasts_S3000000_S500000x6 (ix2 r k) (ix1 ⟨r.val * 6 + k.val, by have := r.isLt; have := k.isLt; omega⟩) (by
    rw [Shape.rowMajor_val_one, Shape.rowMajor_val_two]; rfl)

end Cert.KernelIdeal.Fr

end
-- ==== Proof.ValueDefs.lean ====
/-
  The running sums the three kernels keep in their one-word scratch, as recursions over the grid:
  at the first point the scratch is reset to zero and the point's block sum added, at every later
  point the block sum is added to what the point before left. Stated over the blocks as plain
  functions of the point, through the kernels' own arithmetic (the payload terms of their stores),
  so that the frame side (which block the pipeline hands the body at a point) and the value side
  (what these sums are as numbers) meet at one definition.
-/
import proofs.«145632_j87290915324054_1_alg».proof.Proof.Gen.KernelIdeal.Skeleton

noncomputable section

namespace Cert.KernelIdeal.Val

open Idealize.ShloMosaic Cert.KernelIdeal Cert.KernelIdeal.Gen

variable {F : FTy → Type} [FloatOps F]

/-- Region 0 (the mean absolute difference of the two padded [23440,128] arrays, ten blocks of
    [2344,128]): the scratch after point `n`, from the two input blocks at each point. -/
def acc0 (xa xb : Fin 10 → Vec F S2344x128 .f32) : (n : ℕ) → n < 10 → Vec F S1x1 .f32
  | 0, h => k0_pay2 (xa ⟨0, h⟩) (xb ⟨0, h⟩) (k0_pay1 (F := F))
  | n + 1, h => k0_pay2 (xa ⟨n + 1, h⟩) (xb ⟨n + 1, h⟩) (acc0 xa xb n (Nat.lt_of_succ_lt h))

/-- Region 1 (the same kernel on the padded [3912,128] arrays, three blocks of [1304,128]). -/
def acc1 (xa xb : Fin 3 → Vec F S1304x128 .f32) : (n : ℕ) → n < 3 → Vec F S1x1 .f32
  | 0, h => k1_pay2 (xa ⟨0, h⟩) (xb ⟨0, h⟩) (k1_pay1 (F := F))
  | n + 1, h => k1_pay2 (xa ⟨n + 1, h⟩) (xb ⟨n + 1, h⟩) (acc1 xa xb n (Nat.lt_of_succ_lt h))

/-- Region 2 (the sum over all rows of the absolute deviations from the row mean, the [500000,6]
    array in ten blocks of [50000,6]). -/
def acc2 (x : Fin 10 → Vec F S50000x6 .f32) : (n : ℕ) → n < 10 → Vec F S1x1 .f32
  | 0, h => k2_pay2 (x ⟨0, h⟩) (k2_pay1 (F := F))
  | n + 1, h => k2_pay2 (x ⟨n + 1, h⟩) (acc2 x n (Nat.lt_of_succ_lt h))

end Cert.KernelIdeal.Val

end
-- ==== Proof.R0Value.lean ====
/-
  Region 0 read as a value: what each case of the body leaves is the kernel's own arithmetic applied to the
  point's blocks and to what the scratch held (zero at the first point); so the scratch after point `n` is
  the running sum `acc0` of the blocks up to `n`; the output word, written back once, at the last point, is
  that sum over the whole grid; and block `t` of an input window is a band of rows of the region's array.
-/
import proofs.«145632_j87290915324054_1_alg».proof.Proof.R0Dat
import proofs.«145632_j87290915324054_1_alg».proof.Proof.ValueDefs
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.Tactic Idealize.SL.Sem
open Idealize.ShloMosaic.Pipeline (Dat)
open Cert.KernelIdeal Cert.KernelIdeal.Gen Cert.KernelIdeal.Val

variable {F : FTy → Type} [FloatOps F]

theorem hz0 : (![0, 0] : Fin 2 → Nat) = fun _ => 0 := funext fun a => by fin_cases a <;> rfl

/-! ## The three cases -/

/-- The first point: the scratch is reset, read back, and the point's sum added. -/
theorem soutA_eq0 (c : Dev nD) (i : grid0.Coords) (arg1 : Memref sig .tc .vmem S2344x128 .f32) (harg1 : arg1.IsWhole) (arg2 : Memref sig .tc .vmem S2344x128 .f32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S2344x128 .f32) (x1 : Vec F S2344x128 .f32) :
    sout0_A c i arg1 harg1 arg2 harg2 arg3 harg3 arg4 harg4 hc0 hc1 x0 x1 = k0_pay2 x0 x1 (k0_pay1 (F := F)) := by
  unfold sout0_A
  rw [View.read_writes_eq_canon _ _ _ (scover0_A c i arg1 harg1 arg2 harg2 arg3 harg3 arg4 harg4 hc0 hc1 x0 x1)]
  unfold kernelRun0_A
  dsimp only
  try sl_unfold_words
  rw [View.canon_cons_unit_zero hz0, View.readCov_unit_zero (S := S1x1) _ hz0]
  simp only [View.readAt_eq_ld, harg1.read_unread, harg2.read_unread, View.ld_unit_zero (S := S2344x128) hz0]

/-- A middle point: the point's sum added to what the scratch held. -/
theorem soutB_eq0 (c : Dev nD) (i : grid0.Coords) (arg1 : Memref sig .tc .vmem S2344x128 .f32) (harg1 : arg1.IsWhole) (arg2 : Memref sig .tc .vmem S2344x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S2344x128 .f32) (x1 : Vec F S2344x128 .f32) (xs : Vec F S1x1 .f32) :
    sout0_B c i arg1 harg1 arg2 harg2 arg3 harg3 arg4 harg4 hc0 hc1 x0 x1 xs = k0_pay2 x0 x1 xs := by
  unfold sout0_B
  rw [View.read_writes_eq_canon _ _ _ (scover0_B c i arg1 harg1 arg2 harg2 arg3 harg3 arg4 harg4 hc0 hc1 x0 x1 xs)]
  unfold kernelRun0_B
  dsimp only
  try sl_unfold_words
  rw [View.canon_unit_zero hz0]
  simp only [View.readAt_eq_ld, harg1.read_unread, harg2.read_unread, harg4.read_unread, View.ld_unit_zero (S := S2344x128) hz0, View.ld_unit_zero (S := S1x1) hz0]

/-- The last point leaves the same in the scratch, -/
theorem soutC_eq0 (c : Dev nD) (i : grid0.Coords) (arg1 : Memref sig .tc .vmem S2344x128 .f32) (harg1 : arg1.IsWhole) (arg2 : Memref sig .tc .vmem S2344x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S2344x128 .f32) (x1 : Vec F S2344x128 .f32) (xs : Vec F S1x1 .f32) :
    sout0_C c i arg1 harg1 arg2 harg2 arg3 harg3 arg4 harg4 hc0 hc1 x0 x1 xs = k0_pay2 x0 x1 xs := by
  unfold sout0_C
  rw [View.read_writes_eq_canon _ _ _ (scover0_C c i arg1 harg1 arg2 harg2 arg3 harg3 arg4 harg4 hc0 hc1 x0 x1 xs)]
  unfold kernelRun0_C
  dsimp only
  try sl_unfold_words
  rw [View.canon_unit_zero hz0]
  simp only [View.readAt_eq_ld, harg1.read_unread, harg2.read_unread, harg4.read_unread, View.ld_unit_zero (S := S2344x128) hz0, View.ld_unit_zero (S := S1x1) hz0]

/-- and copies it to the output. -/
theorem outC_eq0 (c : Dev nD) (i : grid0.Coords) (arg1 : Memref sig .tc .vmem S2344x128 .f32) (harg1 : arg1.IsWhole) (arg2 : Memref sig .tc .vmem S2344x128 .f32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S2344x128 .f32) (x1 : Vec F S2344x128 .f32) (xs : Vec F S1x1 .f32) :
    out0_C c i arg1 harg1 arg2 harg2 arg3 harg3 arg4 harg4 hc0 hc1 x0 x1 xs = k0_pay2 x0 x1 xs := by
  unfold out0_C
  rw [View.read_writes_eq_canon _ _ _ (cover0_C c i arg1 harg1 arg2 harg2 arg3 harg3 arg4 harg4 hc0 hc1 x0 x1 xs)]
  unfold kernelRun0_C
  dsimp only
  try sl_unfold_words
  rw [View.canon_unit_zero hz0, View.readCov_unit_zero (S := S1x1) _ hz0]
  simp only [View.readAt_eq_ld, harg1.read_unread, harg2.read_unread, harg4.read_unread, View.ld_unit_zero (S := S2344x128) hz0, View.ld_unit_zero (S := S1x1) hz0]

section
variable (V : (c : Dev nD) → (b : Ref sig .tc) → Buf (Elt F) ((c : Thread nD τ).loc b))

/-! ## The running sum -/

/-- After point `n` the scratch holds the running sum of the blocks up to `n`. -/
theorem scratch_eq0 (c : Dev nD) : ∀ (n : ℕ) (hn : n < cfg0.N) (hn' : n < 10),
    (outsAt0 V c n hn).2 = acc0 (fun t : Fin 10 => (iblk0 V c 0 (Fin.cast N_0.symm t) : Vec F S2344x128 .f32)) (fun t : Fin 10 => (iblk0 V c 1 (Fin.cast N_0.symm t) : Vec F S2344x128 .f32)) n hn'
  | 0, hn, hn' => by
    rw [outsAt0_A V c ⟨0, hn⟩ rfl (show (0 : ℕ) ≠ 9 by decide)]
    dsimp only
    rw [soutA_eq0]
    rfl
  | n + 1, hn, hn' => by
    have ih := scratch_eq0 c n (Nat.lt_of_succ_lt hn) (Nat.lt_of_succ_lt hn')
    by_cases h1 : n + 1 = 9
    · rw [outsAt0_C V c ⟨n + 1, hn⟩ (Nat.succ_ne_zero n) h1]
      dsimp only
      rw [soutC_eq0]
      simp only [Nat.add_sub_cancel]
      rw [ih]
      rfl
    · rw [outsAt0_B V c ⟨n + 1, hn⟩ (Nat.succ_ne_zero n) h1]
      dsimp only
      rw [soutB_eq0]
      simp only [Nat.add_sub_cancel]
      rw [ih]
      rfl

/-- The sum over the whole grid. -/
abbrev total0 (c : Dev nD) : Vec F S1x1 .f32 := acc0 (fun t : Fin 10 => (iblk0 V c 0 (Fin.cast N_0.symm t) : Vec F S2344x128 .f32)) (fun t : Fin 10 => (iblk0 V c 1 (Fin.cast N_0.symm t) : Vec F S2344x128 .f32)) 9 (by decide)

/-- What the output's staging buffer holds after the last point. -/
theorem after_last0 (c : Dev nD) : (outsAt0 V c t0_9.val t0_9.isLt).1 = total0 V c := by
  rw [outsAt0_C V c t0_9 (by decide) rfl]
  dsimp only
  rw [outC_eq0]
  have ih := scratch_eq0 V c 8 (by rw [show cfg0.N = 10 from N_0]; decide) (by decide)
  show k0_pay2 (iblk0 V c 0 t0_9) (iblk0 V c 1 t0_9) (outsAt0 V c 8 _).2 = _
  rw [ih]
  rfl

/-- The one write-back, at the last point, writes that word: block (0, 0) of the [1,1] array is the array. -/
theorem flushed_eq0 (c : Dev nD) (t : Fin cfg0.N) (hf : (cfg0.win 2).flush t = true) :
    (dat0 V c).flushed 2 t = ((cfg0.win 2).blk t).view.read (Elt F) (total0 V c) := by
  have hN : cfg0.N = 10 := N_0
  have h1 : t.val = 9 := by have := (flush0_2 t).mp hf; have := t.isLt; omega
  obtain rfl : t = t0_9 := Fin.ext h1
  show (cfg0.win 2).cut (grid0.coords t0_9) ((dat0 V c).after 2 t0_9) = _
  rw [after0_2, after_last0]
  have hz' : (fun a => win0_2.index t0_9 a * main_v4.ty.shape.size a) = fun _ => 0 := funext fun a => by fin_cases a <;> decide
  exact (Memref.read_access_unit_zero (Elt F) main_v4 hz' (fun a => by rw [congrFun hz' a]; simp) (total0 V c)).symm

/-- So the output array ends holding the sum over the whole grid. -/
theorem final0 (c : Dev nD) : (dat0 V c).arrAt 2 cfg0.N = total0 V c :=
  (dat0 V c).arrAt_eq_of_cover 2 (total0 V c) (flushed_eq0 V c) fun i =>
    ⟨t0_9, (flush0_2 t0_9).mpr rfl, by
      show i ∈ ((View.whole main_v4).slice (win0_2.rect t0_9)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_9 0 * win0_2.size 0 ≤ (i 0 : Nat) ∧ (i 0 : Nat) < win0_2.index t0_9 0 * win0_2.size 0 + win0_2.xsize (grid0.coords t0_9) 0
                  rw [show win0_2.index t0_9 0 * win0_2.size 0 = 0 from by decide +kernel, show win0_2.xsize (grid0.coords t0_9) 0 = 1 from by decide +kernel]; omega
      | ⟨1, _⟩ => show win0_2.index t0_9 1 * win0_2.size 1 ≤ (i 1 : Nat) ∧ (i 1 : Nat) < win0_2.index t0_9 1 * win0_2.size 1 + win0_2.xsize (grid0.coords t0_9) 1
                  rw [show win0_2.index t0_9 1 * win0_2.size 1 = 0 from by decide +kernel, show win0_2.xsize (grid0.coords t0_9) 1 = 1 from by decide +kernel]; omega⟩

/-! ## The input blocks as bands of rows -/

/-- Input window 0's block at point `t` is rows `2344·t … 2344·t + 2343` of the region's array `main_v2`. -/
theorem iblk0_0_apply (c : Dev nD) (t : Fin cfg0.N) (x : S2344x128.Idx) (k : S23440x128.Idx)
    (hk0 : (k 0).val = 2344 * t.val + (x 0).val) (hk1 : (k 1).val = (x 1).val) :
    (iblk0 V c 0 t : Vec F S2344x128 .f32) x = (V c main_v2 : S23440x128.Idx → Elt F .f32) k := by
  have hi : win0_0.index t 0 = t.val ∧ win0_0.index t 1 = 0 := by
    rcases fin_N0 t with rfl | rfl | rfl | rfl | rfl | rfl | rfl | rfl | rfl | rfl <;> decide
  unfold iblk0
  rw [View.read_apply]
  show V c main_v2 _ = V c main_v2 _
  congr 1
  funext a
  apply Fin.ext
  match a with
  | ⟨0, _⟩ => show win0_0.index t 0 * 2344 + 1 * (x 0).val = (k 0).val; rw [hi.1, hk0]; omega
  | ⟨1, _⟩ => show win0_0.index t 1 * 128 + 1 * (x 1).val = (k 1).val; rw [hi.2, hk1]; omega

/-- The same over coordinates: entry `(r, l)` of block `t` is entry `(2344·t + r, l)` of the array. -/
theorem iblk0_0_ix (c : Dev nD) (t : Fin 10) (r : Fin 2344) (l : Fin 128) :
    (iblk0 V c 0 (Fin.cast N_0.symm t) : Vec F S2344x128 .f32) (ValueIdx.ix2 r l)
      = (V c main_v2 : S23440x128.Idx → Elt F .f32) (ValueIdx.ix2 (⟨t.val * 2344 + r.val, by have := t.isLt; have := r.isLt; omega⟩ : Fin 23440) l) :=
  iblk0_0_apply V c (Fin.cast N_0.symm t) (ValueIdx.ix2 r l) (ValueIdx.ix2 _ l)
    (by show t.val * 2344 + r.val = 2344 * t.val + r.val; omega) rfl

/-- Input window 1's block at point `t` is rows `2344·t … 2344·t + 2343` of the region's array `main_v3`. -/
theorem iblk0_1_apply (c : Dev nD) (t : Fin cfg0.N) (x : S2344x128.Idx) (k : S23440x128.Idx)
    (hk0 : (k 0).val = 2344 * t.val + (x 0).val) (hk1 : (k 1).val = (x 1).val) :
    (iblk0 V c 1 t : Vec F S2344x128 .f32) x = (V c main_v3 : S23440x128.Idx → Elt F .f32) k := by
  have hi : win0_1.index t 0 = t.val ∧ win0_1.index t 1 = 0 := by
    rcases fin_N0 t with rfl | rfl | rfl | rfl | rfl | rfl | rfl | rfl | rfl | rfl <;> decide
  unfold iblk0
  rw [View.read_apply]
  show V c main_v3 _ = V c main_v3 _
  congr 1
  funext a
  apply Fin.ext
  match a with
  | ⟨0, _⟩ => show win0_1.index t 0 * 2344 + 1 * (x 0).val = (k 0).val; rw [hi.1, hk0]; omega
  | ⟨1, _⟩ => show win0_1.index t 1 * 128 + 1 * (x 1).val = (k 1).val; rw [hi.2, hk1]; omega

/-- The same over coordinates: entry `(r, l)` of block `t` is entry `(2344·t + r, l)` of the array. -/
theorem iblk0_1_ix (c : Dev nD) (t : Fin 10) (r : Fin 2344) (l : Fin 128) :
    (iblk0 V c 1 (Fin.cast N_0.symm t) : Vec F S2344x128 .f32) (ValueIdx.ix2 r l)
      = (V c main_v3 : S23440x128.Idx → Elt F .f32) (ValueIdx.ix2 (⟨t.val * 2344 + r.val, by have := t.isLt; have := r.isLt; omega⟩ : Fin 23440) l) :=
  iblk0_1_apply V c (Fin.cast N_0.symm t) (ValueIdx.ix2 r l) (ValueIdx.ix2 _ l)
    (by show t.val * 2344 + r.val = 2344 * t.val + r.val; omega) rfl

end

end Cert.KernelIdeal.Fr

end
-- ==== Proof.R1Value.lean ====
/-
  Region 1 read as a value: what each case of the body leaves is the kernel's own arithmetic applied to the
  point's blocks and to what the scratch held (zero at the first point); so the scratch after point `n` is
  the running sum `acc1` of the blocks up to `n`; the output word, written back once, at the last point, is
  that sum over the whole grid; and block `t` of an input window is a band of rows of the region's array.
-/
import proofs.«145632_j87290915324054_1_alg».proof.Proof.R1Dat
import proofs.«145632_j87290915324054_1_alg».proof.Proof.ValueDefs
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.Tactic Idealize.SL.Sem
open Idealize.ShloMosaic.Pipeline (Dat)
open Cert.KernelIdeal Cert.KernelIdeal.Gen Cert.KernelIdeal.Val

variable {F : FTy → Type} [FloatOps F]

theorem hz1 : (![0, 0] : Fin 2 → Nat) = fun _ => 0 := funext fun a => by fin_cases a <;> rfl

/-! ## The three cases -/

/-- The first point: the scratch is reset, read back, and the point's sum added. -/
theorem soutA_eq1 (c : Dev nD) (i : grid1.Coords) (arg1 : Memref sig .tc .vmem S1304x128 .f32) (harg1 : arg1.IsWhole) (arg2 : Memref sig .tc .vmem S1304x128 .f32) (harg2 : arg2.IsWhole) (arg3 : Memref sig .tc .vmem S1x1 .f32) (harg3 : arg3.IsWhole) (arg4 : Memref sig .tc .vmem S1x1 .f32) (harg4 : arg4.IsWhole) (hc0 : cond1_0 i) (hc1 : ¬cond1_1 i)
    (x0 : Vec F S1304x128 .f32) (x1 : Vec F S1304x128 .f32) :
    sout1_A c i arg1 harg1 arg2 harg2 arg3 harg3 arg4 harg4 hc0 hc1 x0 x1 = k1_pay2 x0 x1 (k1_pay1 (F := F)) := by
  unfold sout1_A
  rw [View.read_writes_eq_canon _ _ _ (scover1_A c i arg1 harg1 arg2 harg2 arg3 harg3 arg4 harg4 hc0 hc1 x0 x1)]
  unfold kernelRun1_A
  dsimp only
  try sl_unfold_words
  rw [View.canon_cons_unit_zero hz1, View.readCov_unit_zero (S := S1x1) _ hz1]
  simp only [View.readAt_eq_ld, harg1.read_unread, harg2.read_unread, View.ld_unit_zero (S := S1304x128) hz1]

/-- A middle point: the point's sum added to what the scratch held. -/
theorem soutB_eq1 (c : Dev nD) (i : grid1.Coords) (arg1 : Memref sig .tc .vmem S1304x128 .f32) (harg1 : arg1.IsWhole) (arg2 : Memref sig .tc .vmem S1304x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : ¬cond1_1 i)
    (x0 : Vec F S1304x128 .f32) (x1 : Vec F S1304x128 .f32) (xs : Vec F S1x1 .f32) :
    sout1_B c i arg1 harg1 arg2 harg2 arg3 harg3 arg4 harg4 hc0 hc1 x0 x1 xs = k1_pay2 x0 x1 xs := by
  unfold sout1_B
  rw [View.read_writes_eq_canon _ _ _ (scover1_B c i arg1 harg1 arg2 harg2 arg3 harg3 arg4 harg4 hc0 hc1 x0 x1 xs)]
  unfold kernelRun1_B
  dsimp only
  try sl_unfold_words
  rw [View.canon_unit_zero hz1]
  simp only [View.readAt_eq_ld, harg1.read_unread, harg2.read_unread, harg4.read_unread, View.ld_unit_zero (S := S1304x128) hz1, View.ld_unit_zero (S := S1x1) hz1]

/-- The last point leaves the same in the scratch, -/
theorem soutC_eq1 (c : Dev nD) (i : grid1.Coords) (arg1 : Memref sig .tc .vmem S1304x128 .f32) (harg1 : arg1.IsWhole) (arg2 : Memref sig .tc .vmem S1304x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S1304x128 .f32) (x1 : Vec F S1304x128 .f32) (xs : Vec F S1x1 .f32) :
    sout1_C c i arg1 harg1 arg2 harg2 arg3 harg3 arg4 harg4 hc0 hc1 x0 x1 xs = k1_pay2 x0 x1 xs := by
  unfold sout1_C
  rw [View.read_writes_eq_canon _ _ _ (scover1_C c i arg1 harg1 arg2 harg2 arg3 harg3 arg4 harg4 hc0 hc1 x0 x1 xs)]
  unfold kernelRun1_C
  dsimp only
  try sl_unfold_words
  rw [View.canon_unit_zero hz1]
  simp only [View.readAt_eq_ld, harg1.read_unread, harg2.read_unread, harg4.read_unread, View.ld_unit_zero (S := S1304x128) hz1, View.ld_unit_zero (S := S1x1) hz1]

/-- and copies it to the output. -/
theorem outC_eq1 (c : Dev nD) (i : grid1.Coords) (arg1 : Memref sig .tc .vmem S1304x128 .f32) (harg1 : arg1.IsWhole) (arg2 : Memref sig .tc .vmem S1304x128 .f32) (harg2 : arg2.IsWhole) (arg3 : Memref sig .tc .vmem S1x1 .f32) (harg3 : arg3.IsWhole) (arg4 : Memref sig .tc .vmem S1x1 .f32) (harg4 : arg4.IsWhole) (hc0 : ¬cond1_0 i) (hc1 : cond1_1 i)
    (x0 : Vec F S1304x128 .f32) (x1 : Vec F S1304x128 .f32) (xs : Vec F S1x1 .f32) :
    out1_C c i arg1 harg1 arg2 harg2 arg3 harg3 arg4 harg4 hc0 hc1 x0 x1 xs = k1_pay2 x0 x1 xs := by
  unfold out1_C
  rw [View.read_writes_eq_canon _ _ _ (cover1_C c i arg1 harg1 arg2 harg2 arg3 harg3 arg4 harg4 hc0 hc1 x0 x1 xs)]
  unfold kernelRun1_C
  dsimp only
  try sl_unfold_words
  rw [View.canon_unit_zero hz1, View.readCov_unit_zero (S := S1x1) _ hz1]
  simp only [View.readAt_eq_ld, harg1.read_unread, harg2.read_unread, harg4.read_unread, View.ld_unit_zero (S := S1304x128) hz1, View.ld_unit_zero (S := S1x1) hz1]

section
variable (V : (c : Dev nD) → (b : Ref sig .tc) → Buf (Elt F) ((c : Thread nD τ).loc b))

/-! ## The running sum -/

/-- After point `n` the scratch holds the running sum of the blocks up to `n`. -/
theorem scratch_eq1 (c : Dev nD) : ∀ (n : ℕ) (hn : n < cfg1.N) (hn' : n < 3),
    (outsAt1 V c n hn).2 = acc1 (fun t : Fin 3 => (iblk1 V c 0 (Fin.cast N_1.symm t) : Vec F S1304x128 .f32)) (fun t : Fin 3 => (iblk1 V c 1 (Fin.cast N_1.symm t) : Vec F S1304x128 .f32)) n hn'
  | 0, hn, hn' => by
    rw [outsAt1_A V c ⟨0, hn⟩ rfl (show (0 : ℕ) ≠ 2 by decide)]
    dsimp only
    rw [soutA_eq1]
    rfl
  | n + 1, hn, hn' => by
    have ih := scratch_eq1 c n (Nat.lt_of_succ_lt hn) (Nat.lt_of_succ_lt hn')
    by_cases h1 : n + 1 = 2
    · rw [outsAt1_C V c ⟨n + 1, hn⟩ (Nat.succ_ne_zero n) h1]
      dsimp only
      rw [soutC_eq1]
      simp only [Nat.add_sub_cancel]
      rw [ih]
      rfl
    · rw [outsAt1_B V c ⟨n + 1, hn⟩ (Nat.succ_ne_zero n) h1]
      dsimp only
      rw [soutB_eq1]
      simp only [Nat.add_sub_cancel]
      rw [ih]
      rfl

/-- The sum over the whole grid. -/
abbrev total1 (c : Dev nD) : Vec F S1x1 .f32 := acc1 (fun t : Fin 3 => (iblk1 V c 0 (Fin.cast N_1.symm t) : Vec F S1304x128 .f32)) (fun t : Fin 3 => (iblk1 V c 1 (Fin.cast N_1.symm t) : Vec F S1304x128 .f32)) 2 (by decide)

/-- What the output's staging buffer holds after the last point. -/
theorem after_last1 (c : Dev nD) : (outsAt1 V c t1_2.val t1_2.isLt).1 = total1 V c := by
  rw [outsAt1_C V c t1_2 (by decide) rfl]
  dsimp only
  rw [outC_eq1]
  have ih := scratch_eq1 V c 1 (by rw [show cfg1.N = 3 from N_1]; decide) (by decide)
  show k1_pay2 (iblk1 V c 0 t1_2) (iblk1 V c 1 t1_2) (outsAt1 V c 1 _).2 = _
  rw [ih]
  rfl

/-- The one write-back, at the last point, writes that word: block (0, 0) of the [1,1] array is the array. -/
theorem flushed_eq1 (c : Dev nD) (t : Fin cfg1.N) (hf : (cfg1.win 2).flush t = true) :
    (dat1 V c).flushed 2 t = ((cfg1.win 2).blk t).view.read (Elt F) (total1 V c) := by
  have hN : cfg1.N = 3 := N_1
  have h1 : t.val = 2 := by have := (flush1_2 t).mp hf; have := t.isLt; omega
  obtain rfl : t = t1_2 := Fin.ext h1
  show (cfg1.win 2).cut (grid1.coords t1_2) ((dat1 V c).after 2 t1_2) = _
  rw [after1_2, after_last1]
  have hz' : (fun a => win1_2.index t1_2 a * main_v11.ty.shape.size a) = fun _ => 0 := funext fun a => by fin_cases a <;> decide
  exact (Memref.read_access_unit_zero (Elt F) main_v11 hz' (fun a => by rw [congrFun hz' a]; simp) (total1 V c)).symm

/-- So the output array ends holding the sum over the whole grid. -/
theorem final1 (c : Dev nD) : (dat1 V c).arrAt 2 cfg1.N = total1 V c :=
  (dat1 V c).arrAt_eq_of_cover 2 (total1 V c) (flushed_eq1 V c) fun i =>
    ⟨t1_2, (flush1_2 t1_2).mpr rfl, by
      show i ∈ ((View.whole main_v11).slice (win1_2.rect t1_2)).set
      rw [View.set_slice_whole, Rect.mem_set_unit]
      intro a
      have h0 : (i 0 : Nat) < 1 := (i 0).isLt
      have h1 : (i 1 : Nat) < 1 := (i 1).isLt
      match a with
      | ⟨0, _⟩ => show win1_2.index t1_2 0 * win1_2.size 0 ≤ (i 0 : Nat) ∧ (i 0 : Nat) < win1_2.index t1_2 0 * win1_2.size 0 + win1_2.xsize (grid1.coords t1_2) 0
                  rw [show win1_2.index t1_2 0 * win1_2.size 0 = 0 from by decide +kernel, show win1_2.xsize (grid1.coords t1_2) 0 = 1 from by decide +kernel]; omega
      | ⟨1, _⟩ => show win1_2.index t1_2 1 * win1_2.size 1 ≤ (i 1 : Nat) ∧ (i 1 : Nat) < win1_2.index t1_2 1 * win1_2.size 1 + win1_2.xsize (grid1.coords t1_2) 1
                  rw [show win1_2.index t1_2 1 * win1_2.size 1 = 0 from by decide +kernel, show win1_2.xsize (grid1.coords t1_2) 1 = 1 from by decide +kernel]; omega⟩

/-! ## The input blocks as bands of rows -/

/-- Input window 0's block at point `t` is rows `1304·t … 1304·t + 1303` of the region's array `main_v9`. -/
theorem iblk1_0_apply (c : Dev nD) (t : Fin cfg1.N) (x : S1304x128.Idx) (k : S3912x128.Idx)
    (hk0 : (k 0).val = 1304 * t.val + (x 0).val) (hk1 : (k 1).val = (x 1).val) :
    (iblk1 V c 0 t : Vec F S1304x128 .f32) x = (V c main_v9 : S3912x128.Idx → Elt F .f32) k := by
  have hi : win1_0.index t 0 = t.val ∧ win1_0.index t 1 = 0 := by
    rcases fin_N1 t with rfl | rfl | rfl <;> decide
  unfold iblk1
  rw [View.read_apply]
  show V c main_v9 _ = V c main_v9 _
  congr 1
  funext a
  apply Fin.ext
  match a with
  | ⟨0, _⟩ => show win1_0.index t 0 * 1304 + 1 * (x 0).val = (k 0).val; rw [hi.1, hk0]; omega
  | ⟨1, _⟩ => show win1_0.index t 1 * 128 + 1 * (x 1).val = (k 1).val; rw [hi.2, hk1]; omega

/-- The same over coordinates: entry `(r, l)` of block `t` is entry `(1304·t + r, l)` of the array. -/
theorem iblk1_0_ix (c : Dev nD) (t : Fin 3) (r : Fin 1304) (l : Fin 128) :
    (iblk1 V c 0 (Fin.cast N_1.symm t) : Vec F S1304x128 .f32) (ValueIdx.ix2 r l)
      = (V c main_v9 : S3912x128.Idx → Elt F .f32) (ValueIdx.ix2 (⟨t.val * 1304 + r.val, by have := t.isLt; have := r.isLt; omega⟩ : Fin 3912) l) :=
  iblk1_0_apply V c (Fin.cast N_1.symm t) (ValueIdx.ix2 r l) (ValueIdx.ix2 _ l)
    (by show t.val * 1304 + r.val = 1304 * t.val + r.val; omega) rfl

/-- Input window 1's block at point `t` is rows `1304·t … 1304·t + 1303` of the region's array `main_v10`. -/
theorem iblk1_1_apply (c : Dev nD) (t : Fin cfg1.N) (x : S1304x128.Idx) (k : S3912x128.Idx)
    (hk0 : (k 0).val = 1304 * t.val + (x 0).val) (hk1 : (k 1).val = (x 1).val) :
    (iblk1 V c 1 t : Vec F S1304x128 .f32) x = (V c main_v10 : S3912x128.Idx → Elt F .f32) k := by
  have hi : win1_1.index t 0 = t.val ∧ win1_1.index t 1 = 0 := by
    rcases fin_N1 t with rfl | rfl | rfl <;> decide
  unfold iblk1
  rw [View.read_apply]
  show V c main_v10 _ = V c main_v10 _
  congr 1
  funext a
  apply Fin.ext
  match a with
  | ⟨0, _⟩ => show win1_1.index t 0 * 1304 + 1 * (x 0).val = (k 0).val; rw [hi.1, hk0]; omega
  | ⟨1, _⟩ => show win1_1.index t 1 * 128 + 1 * (x 1).val = (k 1).val; rw [hi.2, hk1]; omega

/-- The same over coordinates: entry `(r, l)` of block `t` is entry `(1304·t + r, l)` of the array. -/
theorem iblk1_1_ix (c : Dev nD) (t : Fin 3) (r : Fin 1304) (l : Fin 128) :
    (iblk1 V c 1 (Fin.cast N_1.symm t) : Vec F S1304x128 .f32) (ValueIdx.ix2 r l)
      = (V c main_v10 : S3912x128.Idx → Elt F .f32) (ValueIdx.ix2 (⟨t.val * 1304 + r.val, by have := t.isLt; have := r.isLt; omega⟩ : Fin 3912) l) :=
  iblk1_1_apply V c (Fin.cast N_1.symm t) (ValueIdx.ix2 r l) (ValueIdx.ix2 _ l)
    (by show t.val * 1304 + r.val = 1304 * t.val + r.val; omega) rfl

end

end Cert.KernelIdeal.Fr

end
-- ==== Proof.R2Value.lean ====
/-
  Region 2 read as a value: what each case of the body leaves is the kernel's own arithmetic applied to the
  point's blocks and to what the scratch held (zero at the first point); so the scratch after point `n` is
  the running sum `acc2` of the blocks up to `n`; the output word, written back once, at the last point, is
  that sum over the whole grid; and block `t` of an input window is a band of rows of the region's array.
-/
import proofs.«145632_j87290915324054_1_alg».proof.Proof.R2Dat
import proofs.«145632_j87290915324054_1_alg».proof.Proof.ValueDefs
import Idealize.ShloMosaic.Lib.Pipeline.Value
import Idealize.ShloMosaic.Lib.ValueIdx

set_option maxRecDepth 16384

noncomputable section

namespace Cert.KernelIdeal.Fr

open Idealize.ShloMosaic Idealize.ShloMosaic.TcCoe Idealize.ShloMosaic.Tactic Idealize.SL.Sem
open Idealize.ShloMosaic.Pipeline (Dat)
open Cert.KernelIdeal Cert.KernelIdeal.Gen Cert.KernelIdeal.Val

variable {F : FTy → Type} [FloatOps F]

theorem hz2 : (![0, 0] : Fin 2 → Nat) = fun _ => 0 := funext fun a => by fin_cases a <;> rfl

/-! ## The three cases -/

/-- The first point: the scratch is reset, read back, and the point's sum added. -/
theorem soutA_eq2 (c : Dev nD) (i : grid2.Coords) (arg1 : Memref sig .tc .vmem S50000x6 .f32) (harg1 : arg1.IsWhole) (arg2 : Memref sig .tc .vmem S1x1 .f32) (harg2 : arg2.IsWhole) (arg3 : Memref sig .tc .vmem S1x1 .f32) (harg3 : arg3.IsWhole) (hc0 : cond2_0 i) (hc1 : ¬cond2_1 i)
    (x0 : Vec F S50000x6 .f32) :
    sout2_A c i arg1 harg1 arg2 harg2 arg3 harg3 hc0 hc1 x0 = k2_pay2 x0 (k2_pay1 (F := F)) := by
  unfold sout2_A
  rw [View.read_writes_eq_canon _ _ _ (scover2_A c i arg1 harg1 arg2 harg2 arg3 harg3 hc0 hc1 x0)]
  unfold kernelRun2_A
  dsimp only
  try sl_unfold_words
  rw [View.canon_cons_unit_zero hz2, View.readCov_unit_zero (S := S1x1) _ hz2]
  simp only [View.readAt_eq_ld, harg1.read_unread, View.ld_unit_zero (S := S50000x6) hz2]

/-- A middle point: the point's sum added to what the scratch held. -/
theorem soutB_eq2 (c : Dev nD) (i : grid2.Coords) (arg1 : Memref sig .tc .vmem S50000x6 .f32) (harg1 : arg1.IsWhole) (arg2 : Memref sig .tc .vmem S1x1 .f32) (harg2 : arg2.IsWhole) (arg3 : Memref sig .tc .vmem S1x1 .f32) (harg3 : arg3.IsWhole) (hc0 : ¬cond2_0 i) (hc1 : ¬cond2_1 i)
    (x0 : Vec F S50000x6 .f32) (xs : Vec F S1x1 .f32) :
    sout2_B c i arg1 harg1 arg2 harg2 arg3 harg3 hc0 hc1 x0 xs = k2_pay2 x0 xs := by
  unfold sout2_B
  rw [View.read_writes_eq_canon _ _ _ (scover2_B c i arg1 harg1 arg2 harg2 arg3 harg3 hc0 hc1 x0 xs)]
  unfold kernelRun2_B
  dsimp only
  try sl_unfold_words
  rw [View.canon_unit_zero hz2]
  simp only [View.readAt_eq_ld, harg1.read_unread, harg3.read_unread, View.ld_unit_zero (S := S50000x6) hz2, View.ld_unit_zero (S := S1x1) hz2]

/-- The last point leaves the same in the scratch, -/
theorem soutC_eq2 (c : Dev nD) (i : grid2.Coords) (arg1 : Memref sig .tc .vmem S50000x6 .f32) (harg1 : arg1.IsWhole) (arg2 : Memref sig .tc .vmem S1x1 .f32) (harg2 : arg2.IsWhole) (arg3 : Memref sig .tc .vmem S1x1 .f32) (harg3 : arg3.IsWhole) (hc0 : ¬cond2_0 i) (hc1 : cond2_1 i)
    (x0 : Vec F S50000x6 .f32) (xs : Vec F S1x1 .f32) :
    sout2_C c i arg1 harg1 arg2 harg2 arg3 harg3 hc0 hc1 x0 xs = k2_pay2 x0 xs := by
  unfold sout2_C
  rw [View.read_writes_eq_canon _ _ _ (scover2_C c i arg1 harg1 arg2 harg2 arg3 harg3 hc0 hc1 x0 xs)]
  unfold kernelRun2_C
  dsimp only
  try sl_unfold_words
  rw [View.canon_unit_zero hz2]
  simp only [View.readAt_eq_ld, harg1.read_unread, harg3.read_unread, View.ld_unit_zero (S := S50000x6) hz2, View.ld_unit_zero (S := S1x1) hz2]

/-- and copies it to the output. -/
theorem outC_eq2 (c : Dev nD) (i : grid2.Coords) (arg1 : Memref sig .tc .vmem S50000x6 .f32) (harg1 : arg1.IsWhole) (arg2 : Memref sig .tc .vmem S1x1 .f32) (harg2 : arg2.IsWhole) (arg3 : Memref sig .tc .vmem S1x1 .f32) (harg3 : arg3.IsWhole) (hc0 : ¬cond2_0 i) (hc1 : cond2_1 i)
    (x0 : Vec F S50000x6 .f32) (xs : Vec F S1x1 .f32) :
    out2_C c i arg1 harg1 arg2 harg2 arg3 harg3 hc0 hc1 x0 xs = k2_pay2 x0 xs := by
  unfold out2_C
  rw [View.read_writes_eq_canon _ _ _ (cover2_C c i arg1 harg1 arg2 harg2 arg3 harg3 hc0 hc1 x0 xs)]
  unfold kernelRun2_C
  dsimp only
  try sl_unfold_words
  rw [View.canon_unit_zero hz2, View.readCov_unit_zero (S := S1x1) _ hz2]
  simp only [View.readAt_eq_ld, harg1.read_unread, harg3.read_unread, View.ld_unit_zero (S := S50000x6) hz2, View.ld_unit_zero (S := S1x1) hz2]

section
variable (V : (c : Dev nD) → (b : Ref sig .tc) → Buf (Elt F) ((c : Thread nD τ).loc b))

/-! ## The running sum -/

/-- After point `n` the scratch holds the running sum of the blocks up to `n`. -/
theorem scratch_eq2 (c : Dev nD) : ∀ (n : ℕ) (hn : n < cfg2.N) (hn' : n < 10),
    (outsAt2 V c n hn).2 = acc2 (fun t : Fin 10 => (iblk2 V c 0 (Fin.cast N_2.symm t) : Vec F S50000x6 .f32)) n hn'
  | 0, hn, hn' => by
    rw [outsAt2_A V c ⟨0, hn⟩ rfl (show (0 : ℕ) ≠ 9 by decide)]
    dsimp only
    rw [soutA_eq2]
    rfl
  | n + 1, hn, hn' => by
    have ih := scratch_eq2 c n (Nat.lt_of_succ_lt hn) (Nat.lt_of_succ_lt hn')
    by_cases h1 : n + 1 = 9
    · rw [outsAt2_C V c ⟨n + 1, hn⟩ (Nat.succ_ne_zero n) h1]
      dsimp only
      rw [soutC_eq2]
      simp only [Nat.add_sub_cancel]
      rw [ih]
      rfl
    · rw [outsAt2_B V c ⟨n + 1, hn⟩ (Nat.succ_ne_zero n) h1]
      dsimp only
      rw [soutB_eq2]
      simp only [Nat.add_sub_cancel]
      rw [ih]
      rfl

/-- The sum over the whole grid. -/
abbrev total2 (c : Dev nD) : Vec F S1x1 .f32 := acc2 (fun t : Fin 10 => (iblk2 V c 0 (Fin.cast N_2.symm t) : Vec F S50000x6 .f32)) 9 (by decide)

/-- What the output's staging buffer holds after the last point. -/
theorem after_last2 (c : Dev nD) : (outsAt2 V c t2_9.val t2_9.isLt).1 = total2 V c := by
  rw [outsAt2_C V c t2_9 (by decide) rfl]
  dsimp only
  rw [outC_eq2]
  have ih := scratch_eq2 V c 8 (by rw [show cfg2.N = 10 from N_2]; decide) (by decide)
  show k2_pay2 (iblk2 V c 0 t2_9) (outsAt2 V c 8 _).2 = _
  rw [ih]
  rfl

/-- The one write-back, at the last point, writes that word: block (0, 0) of the [1,1] array is the array. -/
theorem flushed_eq2 (c : Dev nD) (t : Fin cfg2.N) (hf : (cfg2.win 1).flush t = true) :
    (dat2 V c).flushed 1 t = ((cfg2.win 1).blk t).view.read (Elt F) (total2 V c) := by
  have hN : cfg2.N = 10 := N_2
  have h1 : t.val = 9 := by have := (flush2_1 t).mp hf; have := t.isLt; omega
  obtain rfl : t = t2_9 := Fin.ext h1
  show (cfg2.win 1).cut (grid2.coords t2_9) ((dat2 V c).after 1 t2_9) = _
  rw [after2_1, after_last2]
  have hz' : (fun a => win2_1.index t2_9 a * main_v16.ty.shape.size a) = fun _ => 0 := funext fun a => by fin_cases a <;> decide
  exact (Memref.read_access_unit_zero (Elt F) main_v16 hz' (fun a => by rw [congrFun hz' a]; simp) (total2 V c)).symm

/-- So the output array ends holding the sum over the whole grid. -/
theorem final2 (c : Dev nD) : (dat2 V c).arrAt 1 cfg2.N = total2 V c :=
  (dat2 V c).arrAt_eq_of_cover 1 (total2 V c) (flushed_eq2 V c) fun i =>
    ⟨t2_9, (flush2_1 t2_9).mpr rfl, by
      show i ∈ ((View.whole main_v16).slice (win2_1.rect t2_9)).set
      rw [View.set_slice_whole, Rect.mem_set_unit]
      intro a
      have h0 : (i 0 : Nat) < 1 := (i 0).isLt
      have h1 : (i 1 : Nat) < 1 := (i 1).isLt
      match a with
      | ⟨0, _⟩ => show win2_1.index t2_9 0 * win2_1.size 0 ≤ (i 0 : Nat) ∧ (i 0 : Nat) < win2_1.index t2_9 0 * win2_1.size 0 + win2_1.xsize (grid2.coords t2_9) 0
                  rw [show win2_1.index t2_9 0 * win2_1.size 0 = 0 from by decide +kernel, show win2_1.xsize (grid2.coords t2_9) 0 = 1 from by decide +kernel]; omega
      | ⟨1, _⟩ => show win2_1.index t2_9 1 * win2_1.size 1 ≤ (i 1 : Nat) ∧ (i 1 : Nat) < win2_1.index t2_9 1 * win2_1.size 1 + win2_1.xsize (grid2.coords t2_9) 1
                  rw [show win2_1.index t2_9 1 * win2_1.size 1 = 0 from by decide +kernel, show win2_1.xsize (grid2.coords t2_9) 1 = 1 from by decide +kernel]; omega⟩

/-! ## The input blocks as bands of rows -/

/-- Input window 0's block at point `t` is rows `50000·t … 50000·t + 49999` of the region's array `main_v15`. -/
theorem iblk2_0_apply (c : Dev nD) (t : Fin cfg2.N) (x : S50000x6.Idx) (k : S500000x6.Idx)
    (hk0 : (k 0).val = 50000 * t.val + (x 0).val) (hk1 : (k 1).val = (x 1).val) :
    (iblk2 V c 0 t : Vec F S50000x6 .f32) x = (V c main_v15 : S500000x6.Idx → Elt F .f32) k := by
  have hi : win2_0.index t 0 = t.val ∧ win2_0.index t 1 = 0 := by
    rcases fin_N2 t with rfl | rfl | rfl | rfl | rfl | rfl | rfl | rfl | rfl | rfl <;> decide
  unfold iblk2
  rw [View.read_apply]
  show V c main_v15 _ = V c main_v15 _
  congr 1
  funext a
  apply Fin.ext
  match a with
  | ⟨0, _⟩ => show win2_0.index t 0 * 50000 + 1 * (x 0).val = (k 0).val; rw [hi.1, hk0]; omega
  | ⟨1, _⟩ => show win2_0.index t 1 * 6 + 1 * (x 1).val = (k 1).val; rw [hi.2, hk1]; omega

/-- The same over coordinates: entry `(r, l)` of block `t` is entry `(50000·t + r, l)` of the array. -/
theorem iblk2_0_ix (c : Dev nD) (t : Fin 10) (r : Fin 50000) (l : Fin 6) :
    (iblk2 V c 0 (Fin.cast N_2.symm t) : Vec F S50000x6 .f32) (ValueIdx.ix2 r l)
      = (V c main_v15 : S500000x6.Idx → Elt F .f32) (ValueIdx.ix2 (⟨t.val * 50000 + r.val, by have := t.isLt; have := r.isLt; omega⟩ : Fin 500000) l) :=
  iblk2_0_apply V c (Fin.cast N_2.symm t) (ValueIdx.ix2 r l) (ValueIdx.ix2 _ l)
    (by show t.val * 50000 + r.val = 50000 * t.val + r.val; omega) rfl

end

end Cert.KernelIdeal.Fr

end
-- ==== Proof.SumLemmas.lean ====
/-
  Sums over the extended reals regrouped: the absolute difference of two extended reals, a sum over a
  rank-3 index set with a leading unit axis as a double sum over its two other coordinates, a double sum
  over blocks of rows as one sum over all the rows, a double sum over rows and lanes as one sum over the
  row-major positions, and a sum over a zero-padded range as the sum over the unpadded one.
-/
import Idealize.ShloMosaic.Lib.ValueIdx
import Mathlib.Algebra.BigOperators.Fin
import Mathlib.Logic.Equiv.Fin.Basic

noncomputable section

open scoped BigOperators

namespace Cert.KernelIdeal.Val

open Idealize.ShloMosaic Idealize.ShloMosaic.ValueIdx

/-- The absolute difference of two extended reals, as the maximum of the difference and its negation. -/
def absd (a b : EReal) : EReal := max (a - b) (-(a - b))

theorem absd_zero : absd 0 0 = 0 := by simp [absd]

/-- A sum over the indices of a [1, a, b] array is the double sum over its last two coordinates. -/
theorem sum_idx3_unit {M : Type*} [AddCommMonoid M] {a b : Nat} (f : (⟨3, ![1, a, b]⟩ : Shape).Idx → M) :
    ∑ i, f i = ∑ r : Fin a, ∑ l : Fin b, f (ix3 (0 : Fin 1) r l) := by
  let e : (⟨3, ![1, a, b]⟩ : Shape).Idx ≃ Fin a × Fin b :=
    { toFun := fun i => (i 1, i 2)
      invFun := fun p => ix3 (0 : Fin 1) p.1 p.2
      left_inv := fun i => by
        funext d
        match d with
        | ⟨0, _⟩ => exact Subsingleton.elim (α := Fin 1) _ _
        | ⟨1, _⟩ => rfl
        | ⟨2, _⟩ => rfl
      right_inv := fun _ => rfl }
  rw [← Equiv.sum_comp e.symm f, Fintype.sum_prod_type]
  rfl

/-- A sum over a range of naturals below `a * b`, split by quotient and remainder. -/
theorem sum_fin_mul {M : Type*} [AddCommMonoid M] (a b : Nat) (g : Nat → M) :
    ∑ i : Fin a, ∑ j : Fin b, g (i.val * b + j.val) = ∑ k ∈ Finset.range (a * b), g k := by
  rw [← Fin.sum_univ_eq_sum_range g (a * b), ← Equiv.sum_comp finProdFinEquiv (fun k : Fin (a * b) => g k.val),
    Fintype.sum_prod_type]
  refine Finset.sum_congr rfl fun i _ => Finset.sum_congr rfl fun j _ => ?_
  refine congrArg g ?_
  show i.val * b + j.val = j.val + b * i.val
  rw [Nat.mul_comm, Nat.add_comm]

/-- A sum over the indices of a rank-1 array is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0
      invFun := fun a => ix1 a
      left_inv := fun i => (eq_ix1 i).symm
      right_inv := fun _ => rfl }
  rw [← Equiv.sum_comp e.symm f]
  rfl

/-- Blocks of rows: when `idx t r` is row `t * R + r`, the double sum over the block `t` and the row `r`
    inside it is the sum over all the rows. -/
theorem sum_blocks {M : Type*} [AddCommMonoid M] {T R N : Nat} (hN : T * R = N) (G : Fin N → M)
    (idx : Fin T → Fin R → Fin N) (hidx : ∀ t r, (idx t r).val = t.val * R + r.val) :
    ∑ t : Fin T, ∑ r : Fin R, G (idx t r) = ∑ i : Fin N, G i := by
  subst hN
  rw [← Equiv.sum_comp finProdFinEquiv G, Fintype.sum_prod_type]
  refine Finset.sum_congr rfl fun t _ => Finset.sum_congr rfl fun r _ => congrArg G (Fin.ext ?_)
  rw [hidx]
  show t.val * R + r.val = r.val + R * t.val
  rw [Nat.mul_comm, Nat.add_comm]

/-- A rank-1 array read at a natural position, zero past its end. -/
def ext0 {n : Nat} (a : (⟨1, ![n]⟩ : Shape).Idx → EReal) (k : Nat) : EReal :=
  if h : k < n then a (ix1 ⟨k, h⟩) else 0

/-- Two arrays of `n` entries padded with zeros to `n + p = R * C` entries and viewed as `R` rows of `C`
    lanes: the sum of the absolute differences over the rows and lanes is the sum over the `n` entries
    (the padding adds the absolute difference of zero and zero). -/
theorem sum_padded {n p R C : Nat} (hRC : R * C = n + p) (a b : (⟨1, ![n]⟩ : Shape).Idx → EReal)
    (A B : (⟨2, ![R, C]⟩ : Shape).Idx → EReal)
    (hA : ∀ (i : Fin R) (l : Fin C), A (ix2 i l) = ext0 a (i.val * C + l.val))
    (hB : ∀ (i : Fin R) (l : Fin C), B (ix2 i l) = ext0 b (i.val * C + l.val)) :
    ∑ i : Fin R, ∑ l : Fin C, absd (A (ix2 i l)) (B (ix2 i l)) = ∑ j : Fin n, absd (a (ix1 j)) (b (ix1 j)) := by
  refine (Finset.sum_congr rfl fun i _ => Finset.sum_congr rfl fun l _ => ?_).trans
    ((sum_fin_mul R C fun k => absd (ext0 a k) (ext0 b k)).trans ?_)
  · rw [hA, hB]
  rw [hRC, Finset.sum_range_add, Finset.sum_eq_zero (s := Finset.range p), add_zero,
    ← Fin.sum_univ_eq_sum_range (fun k => absd (ext0 a k) (ext0 b k)) n]
  · refine Finset.sum_congr rfl fun j _ => ?_
    show absd (ext0 a j.val) (ext0 b j.val) = _
    unfold ext0
    rw [dif_pos j.isLt, dif_pos j.isLt]
  · intro k _
    show absd (ext0 a (n + k)) (ext0 b (n + k)) = 0
    unfold ext0
    rw [dif_neg (by omega), dif_neg (by omega)]
    exact absd_zero

end Cert.KernelIdeal.Val

end
-- ==== Proof.PayValue0.lean ====
/-
  The arithmetic of one grid point of the absolute-difference kernels read as numbers: over the extended
  reals the stored word is the loaded word plus the sum, over the block's rows and lanes, of the absolute
  differences of the two input blocks.
-/
import proofs.«145632_j87290915324054_1_alg».proof.Proof.Gen.KernelIdeal.Skeleton
import proofs.«145632_j87290915324054_1_alg».proof.Proof.SumLemmas
import Idealize.ShloMosaic.Lib.ValueLayout
import Idealize.ShloMosaic.PureOps.Ideal.Laws

noncomputable section

open scoped BigOperators

namespace Cert.KernelIdeal.Val

open Idealize.ShloMosaic Idealize.ShloMosaic.ValueIdx Cert.KernelIdeal Cert.KernelIdeal.Gen

theorem k0_pay1_eq : k0_pay1 (F := Ideal) = fun _ => (0 : EReal) := by
  funext j
  unfold k0_pay1
  simp only [shapeCast_self]
  exact Ideal.ofBits_zero_f32

theorem k0_pay2_eq (x y : Vec Ideal S2344x128 .f32) (s : Vec Ideal S1x1 .f32) :
    k0_pay2 (F := Ideal) x y s
      = fun j => s j + ∑ r : Fin 2344, ∑ l : Fin 128, absd (x (ix2 r l)) (y (ix2 r l)) := by
  funext j
  unfold k0_pay2
  simp only [shapeCast_self]
  show s j + extractAt ![0, 0, 0] (shapeCast S1x1x1 _ shapeCasts_S1_S1x1x1) inpos_S1x1x1_p0_0_0 = _
  refine congrArg (s j + ·) ?_
  unfold extractAt
  refine (shapeCast_apply _ shapeCasts_S1_S1x1x1 _ (ix1 (0 : Fin 1)) ?_).trans ?_
  · rw [Shape.rowMajor_val_one, Shape.rowMajor_val_three]; rfl
  refine (Ideal.multiReduction_add_total _ _ reduces_S1x2344x128_S1 (by decide) _ _ (ix1 (0 : Fin 1))).trans ?_
  refine (sum_idx3_unit _).trans ?_
  refine Finset.sum_congr rfl fun r _ => Finset.sum_congr rfl fun l _ => ?_
  refine (shapeCast_ab_1ab_apply _ shapeCasts_S2344x128_S1x2344x128 (0 : Fin 1) r l).trans ?_
  rfl

theorem k1_pay1_eq : k1_pay1 (F := Ideal) = fun _ => (0 : EReal) := by
  funext j
  unfold k1_pay1
  simp only [shapeCast_self]
  exact Ideal.ofBits_zero_f32

theorem k1_pay2_eq (x y : Vec Ideal S1304x128 .f32) (s : Vec Ideal S1x1 .f32) :
    k1_pay2 (F := Ideal) x y s
      = fun j => s j + ∑ r : Fin 1304, ∑ l : Fin 128, absd (x (ix2 r l)) (y (ix2 r l)) := by
  funext j
  unfold k1_pay2
  simp only [shapeCast_self]
  show s j + extractAt ![0, 0, 0] (shapeCast S1x1x1 _ shapeCasts_S1_S1x1x1) inpos_S1x1x1_p0_0_0 = _
  refine congrArg (s j + ·) ?_
  unfold extractAt
  refine (shapeCast_apply _ shapeCasts_S1_S1x1x1 _ (ix1 (0 : Fin 1)) ?_).trans ?_
  · rw [Shape.rowMajor_val_one, Shape.rowMajor_val_three]; rfl
  refine (Ideal.multiReduction_add_total _ _ reduces_S1x1304x128_S1 (by decide) _ _ (ix1 (0 : Fin 1))).trans ?_
  refine (sum_idx3_unit _).trans ?_
  refine Finset.sum_congr rfl fun r _ => Finset.sum_congr rfl fun l _ => ?_
  refine (shapeCast_ab_1ab_apply _ shapeCasts_S1304x128_S1x1304x128 (0 : Fin 1) r l).trans ?_
  rfl

end Cert.KernelIdeal.Val

end
-- ==== Proof.PayValue2.lean ====
/-
  The arithmetic of one grid point of the smoothness kernel read as numbers: over the extended reals the
  stored word is the loaded word plus the sum, over the block's rows and their six entries, of the
  absolute deviation of the entry from the row's mean (the row's sum divided by the constant six).
-/
import proofs.«145632_j87290915324054_1_alg».proof.Proof.Gen.KernelIdeal.Skeleton
import proofs.«145632_j87290915324054_1_alg».proof.Proof.SumLemmas
import Idealize.ShloMosaic.Lib.ValueLayout
import Idealize.ShloMosaic.PureOps.Ideal.Laws

noncomputable section

open scoped BigOperators

namespace Cert.KernelIdeal.Val

open Idealize.ShloMosaic Idealize.ShloMosaic.ValueIdx Cert.KernelIdeal Cert.KernelIdeal.Gen

theorem k2_pay1_eq : k2_pay1 (F := Ideal) = fun _ => (0 : EReal) := by
  funext j
  unfold k2_pay1
  simp only [shapeCast_self]
  exact Ideal.ofBits_zero_f32

theorem k2_pay2_eq (x : Vec Ideal S50000x6 .f32) (s : Vec Ideal S1x1 .f32) :
    k2_pay2 (F := Ideal) x s
      = fun j => s j + ∑ r : Fin 50000, ∑ k : Fin 6,
          absd (x (ix2 r k)) (Ideal.div (∑ k' : Fin 6, x (ix2 r k')) (Ideal.ofBits .f32 0x40C00000#32)) := by
  funext j
  unfold k2_pay2
  simp only [shapeCast_self]
  show s j + extractAt ![0, 0, 0] (shapeCast S1x1x1 _ shapeCasts_S1_S1x1x1) inpos_S1x1x1_p0_0_0 = _
  refine congrArg (s j + ·) ?_
  unfold extractAt
  refine (shapeCast_apply _ shapeCasts_S1_S1x1x1 _ (ix1 (0 : Fin 1)) ?_).trans ?_
  · rw [Shape.rowMajor_val_one, Shape.rowMajor_val_three]; rfl
  refine (Ideal.multiReduction_add_total _ _ reduces_S1x50000x6_S1 (by decide) _ _ (ix1 (0 : Fin 1))).trans ?_
  refine (sum_idx3_unit _).trans ?_
  refine Finset.sum_congr rfl fun r _ => Finset.sum_congr rfl fun k _ => ?_
  refine (shapeCast_ab_1ab_apply _ shapeCasts_S50000x6_S1x50000x6 (0 : Fin 1) r k).trans ?_
  show absd (x (ix2 r k)) (broadcastTo S50000x6 _ broadcasts_S50000x1_S50000x6 (ix2 r k)) = _
  refine congrArg (absd (x (ix2 r k))) ?_
  refine (broadcastTo_apply _ broadcasts_S50000x1_S50000x6 (ix2 r k) (ix2 r (0 : Fin 1)) fun a => ?_).trans ?_
  · match a with
    | ⟨0, _⟩ => show r.val = if (50000 : Nat) = 1 then 0 else r.val; rw [if_neg (by decide)]
    | ⟨1, _⟩ => show 0 = if (1 : Nat) = 1 then 0 else k.val; rw [if_pos rfl]
  show Ideal.div (shapeCast S50000x1 _ shapeCasts_S50000_S50000x1 (ix2 r (0 : Fin 1))) (Ideal.ofBits .f32 0x40C00000#32) = _
  refine congrArg (Ideal.div · (Ideal.ofBits .f32 0x40C00000#32)) ?_
  refine (shapeCast_apply _ shapeCasts_S50000_S50000x1 (ix2 r (0 : Fin 1)) (ix1 r) ?_).trans ?_
  · rw [Shape.rowMajor_val_one, Shape.rowMajor_val_two]
    show r.val = r.val * 1 + 0
    omega
  refine (Ideal.multiReduction_add_single x _ reduces_S50000x6_S50000 _ _ (ix1 r)).trans ?_
  refine Finset.sum_congr rfl fun k' _ => ?_
  exact congrArg x (funext fun a => Fin.ext (by match a with | ⟨0, _⟩ => rfl | ⟨1, _⟩ => rfl))

end Cert.KernelIdeal.Val

end
-- ==== Proof.AccValue.lean ====
/-
  The three running sums closed: after the last grid point the scratch word holds the sum over all the
  blocks, and with each block given pointwise as rows of one array, the sum over all that array's rows.
-/
import proofs.«145632_j87290915324054_1_alg».proof.Proof.ValueDefs
import proofs.«145632_j87290915324054_1_alg».proof.Proof.PayValue0
import proofs.«145632_j87290915324054_1_alg».proof.Proof.PayValue2

noncomputable section

open scoped BigOperators

namespace Cert.KernelIdeal.Val

open Idealize.ShloMosaic Idealize.ShloMosaic.ValueIdx Cert.KernelIdeal Cert.KernelIdeal.Gen

/-- A word that starts as zero plus the first addend and gains one addend per step holds, after step
    `n`, the sum of the addends of steps `0 … n`. -/
theorem acc_closed {ι : Type} {N : Nat} (bs : Nat → EReal) (f : (n : Nat) → n < N → ι → EReal)
    (h0 : ∀ (h : 0 < N) (j : ι), f 0 h j = 0 + bs 0)
    (hs : ∀ (n : Nat) (h : n + 1 < N) (j : ι), f (n + 1) h j = f n (Nat.lt_of_succ_lt h) j + bs (n + 1)) :
    ∀ (n : Nat) (h : n < N) (j : ι), f n h j = ∑ t ∈ Finset.range (n + 1), bs t
  | 0, h, j => by rw [h0, zero_add, Finset.sum_range_one]
  | n + 1, h, j => by rw [hs, acc_closed bs f h0 hs n (Nat.lt_of_succ_lt h) j, Finset.sum_range_succ _ (n + 1)]

/-- The addends of steps below `N` given over `Fin N`, read at a natural step (zero past the end). -/
def stepAt {N : Nat} (b : Fin N → EReal) (t : Nat) : EReal := if h : t < N then b ⟨t, h⟩ else 0

theorem sum_stepAt {N : Nat} (b : Fin N → EReal) : ∑ t ∈ Finset.range N, stepAt b t = ∑ t : Fin N, b t := by
  rw [← Fin.sum_univ_eq_sum_range (stepAt b) N]
  refine Finset.sum_congr rfl fun t _ => ?_
  unfold stepAt
  rw [dif_pos t.isLt]

theorem acc0_total (A B : S23440x128.Idx → EReal) (xa xb : Fin 10 → Vec Ideal S2344x128 .f32)
    (hxa : ∀ (t : Fin 10) (r : Fin 2344) (l : Fin 128), xa t (ix2 r l) = A (ix2 ⟨t.val * 2344 + r.val, by omega⟩ l))
    (hxb : ∀ (t : Fin 10) (r : Fin 2344) (l : Fin 128), xb t (ix2 r l) = B (ix2 ⟨t.val * 2344 + r.val, by omega⟩ l)) :
    acc0 xa xb 9 (by decide) = fun _ => ∑ i : Fin 23440, ∑ l : Fin 128, absd (A (ix2 i l)) (B (ix2 i l)) := by
  funext j
  refine (acc_closed (stepAt fun t : Fin 10 => ∑ r : Fin 2344, ∑ l : Fin 128, absd (xa t (ix2 r l)) (xb t (ix2 r l)))
    (acc0 xa xb) (fun h j => ?_) (fun n h j => ?_) 9 (by decide) j).trans ?_
  · show k0_pay2 (xa ⟨0, h⟩) (xb ⟨0, h⟩) (k0_pay1 (F := Ideal)) j = _
    rw [k0_pay2_eq, k0_pay1_eq]
    unfold stepAt
    rw [dif_pos h]
  · show k0_pay2 (xa ⟨n + 1, h⟩) (xb ⟨n + 1, h⟩) (acc0 xa xb n (Nat.lt_of_succ_lt h)) j = _
    rw [k0_pay2_eq]
    unfold stepAt
    rw [dif_pos h]
  rw [sum_stepAt]
  refine (Finset.sum_congr rfl fun t _ => Finset.sum_congr rfl fun r _ => Finset.sum_congr rfl fun l _ => ?_).trans
    (sum_blocks (T := 10) (R := 2344) (N := 23440) (by norm_num)
      (fun i : Fin 23440 => ∑ l : Fin 128, absd (A (ix2 i l)) (B (ix2 i l)))
      (fun t r => ⟨t.val * 2344 + r.val, by omega⟩) (fun _ _ => rfl))
  rw [hxa, hxb]

theorem acc1_total (A B : S3912x128.Idx → EReal) (xa xb : Fin 3 → Vec Ideal S1304x128 .f32)
    (hxa : ∀ (t : Fin 3) (r : Fin 1304) (l : Fin 128), xa t (ix2 r l) = A (ix2 ⟨t.val * 1304 + r.val, by omega⟩ l))
    (hxb : ∀ (t : Fin 3) (r : Fin 1304) (l : Fin 128), xb t (ix2 r l) = B (ix2 ⟨t.val * 1304 + r.val, by omega⟩ l)) :
    acc1 xa xb 2 (by decide) = fun _ => ∑ i : Fin 3912, ∑ l : Fin 128, absd (A (ix2 i l)) (B (ix2 i l)) := by
  funext j
  refine (acc_closed (stepAt fun t : Fin 3 => ∑ r : Fin 1304, ∑ l : Fin 128, absd (xa t (ix2 r l)) (xb t (ix2 r l)))
    (acc1 xa xb) (fun h j => ?_) (fun n h j => ?_) 2 (by decide) j).trans ?_
  · show k1_pay2 (xa ⟨0, h⟩) (xb ⟨0, h⟩) (k1_pay1 (F := Ideal)) j = _
    rw [k1_pay2_eq, k1_pay1_eq]
    unfold stepAt
    rw [dif_pos h]
  · show k1_pay2 (xa ⟨n + 1, h⟩) (xb ⟨n + 1, h⟩) (acc1 xa xb n (Nat.lt_of_succ_lt h)) j = _
    rw [k1_pay2_eq]
    unfold stepAt
    rw [dif_pos h]
  rw [sum_stepAt]
  refine (Finset.sum_congr rfl fun t _ => Finset.sum_congr rfl fun r _ => Finset.sum_congr rfl fun l _ => ?_).trans
    (sum_blocks (T := 3) (R := 1304) (N := 3912) (by norm_num)
      (fun i : Fin 3912 => ∑ l : Fin 128, absd (A (ix2 i l)) (B (ix2 i l)))
      (fun t r => ⟨t.val * 1304 + r.val, by omega⟩) (fun _ _ => rfl))
  rw [hxa, hxb]

theorem acc2_total (X : S500000x6.Idx → EReal) (x : Fin 10 → Vec Ideal S50000x6 .f32)
    (hx : ∀ (t : Fin 10) (r : Fin 50000) (k : Fin 6), x t (ix2 r k) = X (ix2 ⟨t.val * 50000 + r.val, by omega⟩ k)) :
    acc2 x 9 (by decide) = fun _ => ∑ i : Fin 500000, ∑ k : Fin 6,
      absd (X (ix2 i k)) (Ideal.div (∑ k' : Fin 6, X (ix2 i k')) (Ideal.ofBits .f32 0x40C00000#32)) := by
  funext j
  refine (acc_closed (stepAt fun t : Fin 10 => ∑ r : Fin 50000, ∑ k : Fin 6,
      absd (x t (ix2 r k)) (Ideal.div (∑ k' : Fin 6, x t (ix2 r k')) (Ideal.ofBits .f32 0x40C00000#32)))
    (acc2 x) (fun h j => ?_) (fun n h j => ?_) 9 (by decide) j).trans ?_
  · show k2_pay2 (x ⟨0, h⟩) (k2_pay1 (F := Ideal)) j = _
    rw [k2_pay2_eq, k2_pay1_eq]
    unfold stepAt
    rw [dif_pos h]
  · show k2_pay2 (x ⟨n + 1, h⟩) (acc2 x n (Nat.lt_of_succ_lt h)) j = _
    rw [k2_pay2_eq]
    unfold stepAt
    rw [dif_pos h]
  rw [sum_stepAt]
  refine (Finset.sum_congr rfl fun t _ => Finset.sum_congr rfl fun r _ => Finset.sum_congr rfl fun k _ => ?_).trans
    (sum_blocks (T := 10) (R := 50000) (N := 500000) (by norm_num)
      (fun i : Fin 500000 => ∑ k : Fin 6,
        absd (X (ix2 i k)) (Ideal.div (∑ k' : Fin 6, X (ix2 i k')) (Ideal.ofBits .f32 0x40C00000#32)))
      (fun t r => ⟨t.val * 50000 + r.val, by omega⟩) (fun _ _ => rfl))
  rw [hx, Finset.sum_congr rfl fun k' _ => hx t r k']

end Cert.KernelIdeal.Val

end
-- ==== Proof.PadSum.lean ====
/-
  The host's zero padding and row-major views as plain sums: the sum of the absolute differences over the
  rows and lanes of two zero-padded arrays is the sum over the unpadded entries, and the sum over the rows
  and entries of the six-column view of a flat array is the sum over its consecutive groups of six.
-/
import proofs.«145632_j87290915324054_1_alg».proof.Proof.SumLemmas

noncomputable section

open scoped BigOperators

namespace Cert.KernelIdeal.Val

open Idealize.ShloMosaic Idealize.ShloMosaic.ValueIdx

/-- 3000000 entries padded to 3000320 = 23440 rows of 128 lanes. -/
theorem pad_sum0 (a b : (⟨1, ![3000000]⟩ : Shape).Idx → EReal) (A B : (⟨2, ![23440, 128]⟩ : Shape).Idx → EReal)
    (hA : ∀ (i : Fin 23440) (l : Fin 128), A (ix2 i l)
      = if h : i.val * 128 + l.val < 3000000 then a (ix1 ⟨i.val * 128 + l.val, h⟩) else 0)
    (hB : ∀ (i : Fin 23440) (l : Fin 128), B (ix2 i l)
      = if h : i.val * 128 + l.val < 3000000 then b (ix1 ⟨i.val * 128 + l.val, h⟩) else 0) :
    ∑ i : Fin 23440, ∑ l : Fin 128, absd (A (ix2 i l)) (B (ix2 i l))
      = ∑ j : Fin 3000000, absd (a (ix1 j)) (b (ix1 j)) :=
  sum_padded (n := 3000000) (p := 320) (R := 23440) (C := 128) (by norm_num) a b A B (fun i l => hA i l) (fun i l => hB i l)

/-- 500000 entries padded to 500736 = 3912 rows of 128 lanes. -/
theorem pad_sum1 (a b : (⟨1, ![500000]⟩ : Shape).Idx → EReal) (A B : (⟨2, ![3912, 128]⟩ : Shape).Idx → EReal)
    (hA : ∀ (i : Fin 3912) (l : Fin 128), A (ix2 i l)
      = if h : i.val * 128 + l.val < 500000 then a (ix1 ⟨i.val * 128 + l.val, h⟩) else 0)
    (hB : ∀ (i : Fin 3912) (l : Fin 128), B (ix2 i l)
      = if h : i.val * 128 + l.val < 500000 then b (ix1 ⟨i.val * 128 + l.val, h⟩) else 0) :
    ∑ i : Fin 3912, ∑ l : Fin 128, absd (A (ix2 i l)) (B (ix2 i l))
      = ∑ j : Fin 500000, absd (a (ix1 j)) (b (ix1 j)) :=
  sum_padded (n := 500000) (p := 736) (R := 3912) (C := 128) (by norm_num) a b A B (fun i l => hA i l) (fun i l => hB i l)

/-- The [500000,6] view of a flat array of 3000000: entry (r, k) is entry r * 6 + k. -/
theorem view_sum2 (g : (⟨1, ![3000000]⟩ : Shape).Idx → EReal) (X : (⟨2, ![500000, 6]⟩ : Shape).Idx → EReal) (d : EReal)
    (hX : ∀ (r : Fin 500000) (k : Fin 6), X (ix2 r k) = g (ix1 ⟨r.val * 6 + k.val, by omega⟩)) :
    ∑ r : Fin 500000, ∑ k : Fin 6, absd (X (ix2 r k)) (Ideal.div (∑ k' : Fin 6, X (ix2 r k')) d)
      = ∑ r : Fin 500000, ∑ k : Fin 6,
          absd (g (ix1 ⟨r.val * 6 + k.val, by omega⟩)) (Ideal.div (∑ k' : Fin 6, g (ix1 ⟨r.val * 6 + k'.val, by omega⟩)) d) := by
  refine Finset.sum_congr rfl fun r _ => Finset.sum_congr rfl fun k _ => ?_
  rw [hX, Finset.sum_congr rfl fun k' _ => hX r k']

end Cert.KernelIdeal.Val

end
-- ==== Proof.RefValue.lean ====
/-
  The reference's three results read as closed sums of the argument arrays over the extended reals.
-/
import proofs.«145632_j87290915324054_1_alg».proof.Proof.Gen.ReferenceIdeal.Read
import proofs.«145632_j87290915324054_1_alg».proof.Proof.SumLemmas
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read Cert.KernelIdeal.Val

/-- The mean of the absolute differences of two arrays of `n` entries, the divisor given as a number. -/
def meanAbsd {n : Nat} (a b : (⟨1, ![n]⟩ : Shape).Idx → EReal) (d : EReal) : EReal :=
  Ideal.div (∑ j : Fin n, absd (a (ix1 j)) (b (ix1 j))) d

/-- The sum, over the 500000 rows of six consecutive entries of an array of 3000000, of the absolute
    deviations of the entries from the row's sum divided by `d`. -/
def devSum (g : (⟨1, ![3000000]⟩ : Shape).Idx → EReal) (d : EReal) : EReal :=
  ∑ r : Fin 500000, ∑ k : Fin 6,
    absd (g (ix1 ⟨r.val * 6 + k.val, by omega⟩)) (Ideal.div (∑ k' : Fin 6, g (ix1 ⟨r.val * 6 + k'.val, by omega⟩)) d)

theorem mean1_eq (x0 x3 : (⟨S3000000, .f32⟩ : BufTy).Contents (Elt Ideal)) :
    val_main_v3 (F := Ideal) x0 x3 = fun _ => meanAbsd x0 x3 (Ideal.ofBits .f32 0x4A371B00#32) := by
  funext i
  rw [val_main_v3_apply, val_main_v2_apply, val_main_cst_0_apply, val_main_cst_apply]
  simp only [val_main_v1_apply, val_main_v0_apply, Ideal.hostDivf_def, Ideal.ofBits_def, Ideal.ofBits_zero_f32,
    zero_add, Ideal.hostAbsf_def, Ideal.absf_def, Ideal.subf_def]
  unfold meanAbsd
  rw [sum_idx1]
  rfl

theorem mean2_eq (x2 x4 : (⟨S500000, .f32⟩ : BufTy).Contents (Elt Ideal)) :
    val_main_v7 (F := Ideal) x2 x4 = fun _ => meanAbsd x2 x4 (Ideal.ofBits .f32 0x48F42400#32) := by
  funext i
  rw [val_main_v7_apply, val_main_v6_apply, val_main_cst_2_apply, val_main_cst_1_apply]
  simp only [val_main_v5_apply, val_main_v4_apply, Ideal.hostDivf_def, Ideal.ofBits_def, Ideal.ofBits_zero_f32,
    zero_add, Ideal.hostAbsf_def, Ideal.absf_def, Ideal.subf_def]
  unfold meanAbsd
  rw [sum_idx1]
  rfl

/-- The [500000,6] view's entry (r, k) is entry r * 6 + k of the flat array. -/
theorem idx_entry (r : Fin 500000) (k : Fin 6) :
    idx_main_v9 (ix2 r k) = ix1 ⟨r.val * 6 + k.val, by omega⟩ := by
  funext a
  match a with
  | ⟨0, _⟩ => rfl

/-- Row r's k'-th entry, reached from entry (r, k) through the row sum kept as a column. -/
theorem idx_row (r : Fin 500000) (k k' : Fin 6) :
    idx_main_v9 (idx_main_v10 (idx_main_v11 (idx_main_v14 (ix2 r k))) k') = ix1 ⟨r.val * 6 + k'.val, by omega⟩ := by
  funext a
  match a with
  | ⟨0, _⟩ => rfl

theorem smooth_eq (x1 : (⟨S3000000, .f32⟩ : BufTy).Contents (Elt Ideal)) :
    val_main_v18 (F := Ideal) x1
      = fun _ => Ideal.div (devSum x1 (Ideal.ofBits .f32 0x40C00000#32)) (Ideal.ofBits .f32 0x40C00000#32) := by
  funext i
  rw [val_main_v18_apply, val_main_v17_apply, val_main_cst_6_apply, val_main_cst_5_apply, sum_idx2]
  simp only [Ideal.hostDivf_def, Ideal.ofBits_def, Ideal.ofBits_zero_f32, zero_add]
  unfold devSum
  refine congrArg (Ideal.div · (Ideal.ofBits .f32 0x40C00000#32)) (Finset.sum_congr rfl fun r _ => Finset.sum_congr rfl fun k _ => ?_)
  rw [val_main_v16_apply, val_main_v15_apply, val_main_v9_apply, val_main_v14_apply, val_main_v13_apply,
    val_main_v11_apply, val_main_v12_apply, val_main_v10_apply, val_main_cst_4_apply, val_main_cst_3_apply,
    idx_entry]
  simp only [val_main_v9_apply, idx_row, Ideal.hostDivf_def, Ideal.ofBits_def, Ideal.ofBits_zero_f32,
    zero_add, Ideal.hostAbsf_def, Ideal.absf_def, Ideal.subf_def]
  rfl

theorem l1_eq (x0 : (⟨S3000000, .f32⟩ : BufTy).Contents (Elt Ideal)) (x2 : (⟨S500000, .f32⟩ : BufTy).Contents (Elt Ideal))
    (x3 : (⟨S3000000, .f32⟩ : BufTy).Contents (Elt Ideal)) (x4 : (⟨S500000, .f32⟩ : BufTy).Contents (Elt Ideal)) :
    val_main_v8 (F := Ideal) x0 x2 x3 x4
      = fun _ => meanAbsd x0 x3 (Ideal.ofBits .f32 0x4A371B00#32) + meanAbsd x2 x4 (Ideal.ofBits .f32 0x48F42400#32) := by
  funext i
  rw [val_main_v8_apply, mean1_eq, mean2_eq]
  rfl

theorem total_eq (x0 x1 : (⟨S3000000, .f32⟩ : BufTy).Contents (Elt Ideal)) (x2 : (⟨S500000, .f32⟩ : BufTy).Contents (Elt Ideal))
    (x3 : (⟨S3000000, .f32⟩ : BufTy).Contents (Elt Ideal)) (x4 : (⟨S500000, .f32⟩ : BufTy).Contents (Elt Ideal)) :
    val_main_v20 (F := Ideal) x0 x1 x2 x3 x4
      = fun _ => (meanAbsd x0 x3 (Ideal.ofBits .f32 0x4A371B00#32) + meanAbsd x2 x4 (Ideal.ofBits .f32 0x48F42400#32))
          + Ideal.ofBits .f32 0x42C80000#32
            * Ideal.div (devSum x1 (Ideal.ofBits .f32 0x40C00000#32)) (Ideal.ofBits .f32 0x40C00000#32) := by
  funext i
  rw [val_main_v20_apply, val_main_v19_apply, val_main_cst_7_apply, l1_eq, smooth_eq]
  rfl

end Cert.ReferenceIdeal.RefValue

end
-- ==== Proof.Results.lean ====
/-
  The join: the host's closing arithmetic applied to the three accumulated words is the reference's three
  results. Each accumulated word is the sum over all the rows of its padded (or six-column) array; the
  padding adds zeros; the reference's results are the same sums divided by the same constants.
-/
import proofs.«145632_j87290915324054_1_alg».proof.Proof.AccValue
import proofs.«145632_j87290915324054_1_alg».proof.Proof.PadSum
import proofs.«145632_j87290915324054_1_alg».proof.Proof.RefValue

noncomputable section

open scoped BigOperators

namespace Cert.KernelIdeal.Val

open Idealize.ShloMosaic Idealize.ShloMosaic.ValueIdx Cert.KernelIdeal Cert.KernelIdeal.Gen

/-- A [1,1] word viewed as a scalar and divided by the constant of bit pattern `c`. -/
def tailMean (w : FVec Ideal S1x1 .f32) (c : BitVec 32) : FVec Ideal S_ .f32 :=
  Host.divf (F := Ideal) (shapeCast S_ w shapeCasts_S1x1_S_) (constant (F := Ideal) S_ .f32 c)

/-- The sum of the two means. -/
def tailL1 (w0 w1 : FVec Ideal S1x1 .f32) : FVec Ideal S_ .f32 :=
  addf (tailMean w0 0x4A371B00#32) (tailMean w1 0x48F42400#32)

/-- The smoothness term. -/
def tailSmooth (w2 : FVec Ideal S1x1 .f32) : FVec Ideal S_ .f32 := tailMean w2 0x40C00000#32

/-- The total: the two means plus the weighted smoothness term. -/
def tailTotal (w0 w1 w2 : FVec Ideal S1x1 .f32) : FVec Ideal S_ .f32 :=
  addf (tailL1 w0 w1) (mulf (constant (F := Ideal) S_ .f32 0x42C80000#32) (tailSmooth w2))

/-- The three closing terms spelt out over the host's operations. -/
theorem tailL1_eq (w0 w1 : FVec Ideal S1x1 .f32) :
    tailL1 w0 w1 = addf (Host.divf (F := Ideal) (shapeCast S_ w0 shapeCasts_S1x1_S_) (constant (F := Ideal) S_ .f32 0x4A371B00#32))
      (Host.divf (F := Ideal) (shapeCast S_ w1 shapeCasts_S1x1_S_) (constant (F := Ideal) S_ .f32 0x48F42400#32)) := rfl

theorem tailSmooth_eq (w2 : FVec Ideal S1x1 .f32) :
    tailSmooth w2 = Host.divf (F := Ideal) (shapeCast S_ w2 shapeCasts_S1x1_S_) (constant (F := Ideal) S_ .f32 0x40C00000#32) := rfl

theorem tailTotal_eq (w0 w1 w2 : FVec Ideal S1x1 .f32) :
    tailTotal w0 w1 w2
      = addf (addf (Host.divf (F := Ideal) (shapeCast S_ w0 shapeCasts_S1x1_S_) (constant (F := Ideal) S_ .f32 0x4A371B00#32))
          (Host.divf (F := Ideal) (shapeCast S_ w1 shapeCasts_S1x1_S_) (constant (F := Ideal) S_ .f32 0x48F42400#32)))
        (mulf (constant (F := Ideal) S_ .f32 0x42C80000#32)
          (Host.divf (F := Ideal) (shapeCast S_ w2 shapeCasts_S1x1_S_) (constant (F := Ideal) S_ .f32 0x40C00000#32))) := rfl

theorem tailMean_apply (w : FVec Ideal S1x1 .f32) (c : BitVec 32) (i : S_.Idx) :
    tailMean w c i = Ideal.div (w (ix2 (0 : Fin 1) (0 : Fin 1))) (Ideal.ofBits .f32 c) := by
  show Ideal.div (shapeCast S_ w shapeCasts_S1x1_S_ i) (Ideal.ofBits .f32 c) = _
  refine congrArg (Ideal.div · (Ideal.ofBits .f32 c)) ?_
  refine shapeCast_apply w shapeCasts_S1x1_S_ i (ix2 (0 : Fin 1) (0 : Fin 1)) ?_
  rw [Shape.rowMajor_val_two]
  show (0 : Nat) * 1 + 0 = (Shape.rowMajorPi S_.size i).val
  rw [Shape.rowMajorPi_zero]

open Cert.ReferenceIdeal.RefValue in
/-- The second result, through the padded arrays: `A0 B0` the two [23440,128] arrays the first kernel reads
    (the padded first and fourth arguments), `A1 B1` the two [3912,128] arrays the second reads (the padded
    third and fifth). -/
theorem result_l1
    (a y : (⟨1, ![3000000]⟩ : Shape).Idx → EReal) (p hr : (⟨1, ![500000]⟩ : Shape).Idx → EReal)
    (A0 B0 : S23440x128.Idx → EReal) (A1 B1 : S3912x128.Idx → EReal)
    (xa0 xb0 : Fin 10 → Vec Ideal S2344x128 .f32) (xa1 xb1 : Fin 3 → Vec Ideal S1304x128 .f32)
    (hxa0 : ∀ (t : Fin 10) (r : Fin 2344) (l : Fin 128), xa0 t (ix2 r l) = A0 (ix2 ⟨t.val * 2344 + r.val, by omega⟩ l))
    (hxb0 : ∀ (t : Fin 10) (r : Fin 2344) (l : Fin 128), xb0 t (ix2 r l) = B0 (ix2 ⟨t.val * 2344 + r.val, by omega⟩ l))
    (hA0 : ∀ (i : Fin 23440) (l : Fin 128), A0 (ix2 i l)
      = if h : i.val * 128 + l.val < 3000000 then a (ix1 ⟨i.val * 128 + l.val, h⟩) else 0)
    (hB0 : ∀ (i : Fin 23440) (l : Fin 128), B0 (ix2 i l)
      = if h : i.val * 128 + l.val < 3000000 then y (ix1 ⟨i.val * 128 + l.val, h⟩) else 0)
    (hxa1 : ∀ (t : Fin 3) (r : Fin 1304) (l : Fin 128), xa1 t (ix2 r l) = A1 (ix2 ⟨t.val * 1304 + r.val, by omega⟩ l))
    (hxb1 : ∀ (t : Fin 3) (r : Fin 1304) (l : Fin 128), xb1 t (ix2 r l) = B1 (ix2 ⟨t.val * 1304 + r.val, by omega⟩ l))
    (hA1 : ∀ (i : Fin 3912) (l : Fin 128), A1 (ix2 i l)
      = if h : i.val * 128 + l.val < 500000 then p (ix1 ⟨i.val * 128 + l.val, h⟩) else 0)
    (hB1 : ∀ (i : Fin 3912) (l : Fin 128), B1 (ix2 i l)
      = if h : i.val * 128 + l.val < 500000 then hr (ix1 ⟨i.val * 128 + l.val, h⟩) else 0) :
    tailL1 (acc0 xa0 xb0 9 (by decide)) (acc1 xa1 xb1 2 (by decide))
      = Cert.ReferenceIdeal.Read.val_main_v8 (F := Ideal) a p y hr := by
  funext i
  rw [l1_eq]
  show tailMean _ _ i + tailMean _ _ i = _
  rw [tailMean_apply, tailMean_apply, acc0_total A0 B0 xa0 xb0 hxa0 hxb0, acc1_total A1 B1 xa1 xb1 hxa1 hxb1,
    pad_sum0 a y A0 B0 hA0 hB0, pad_sum1 p hr A1 B1 hA1 hB1]
  rfl

open Cert.ReferenceIdeal.RefValue in
/-- The third result, through the six-column view `X` of the second argument. -/
theorem result_smooth
    (g : (⟨1, ![3000000]⟩ : Shape).Idx → EReal) (X : S500000x6.Idx → EReal) (x : Fin 10 → Vec Ideal S50000x6 .f32)
    (hx : ∀ (t : Fin 10) (r : Fin 50000) (k : Fin 6), x t (ix2 r k) = X (ix2 ⟨t.val * 50000 + r.val, by omega⟩ k))
    (hX : ∀ (r : Fin 500000) (k : Fin 6), X (ix2 r k) = g (ix1 ⟨r.val * 6 + k.val, by omega⟩)) :
    tailSmooth (acc2 x 9 (by decide)) = Cert.ReferenceIdeal.Read.val_main_v18 (F := Ideal) g := by
  funext i
  rw [smooth_eq]
  show tailMean _ _ i = _
  rw [tailMean_apply, acc2_total X x hx, view_sum2 g X _ hX]
  rfl

/-- The first result: the sum of the second and the weighted third. -/
theorem result_total
    (a g y : (⟨1, ![3000000]⟩ : Shape).Idx → EReal) (p hr : (⟨1, ![500000]⟩ : Shape).Idx → EReal)
    (A0 B0 : S23440x128.Idx → EReal) (A1 B1 : S3912x128.Idx → EReal) (X : S500000x6.Idx → EReal)
    (xa0 xb0 : Fin 10 → Vec Ideal S2344x128 .f32) (xa1 xb1 : Fin 3 → Vec Ideal S1304x128 .f32)
    (x : Fin 10 → Vec Ideal S50000x6 .f32)
    (hxa0 : ∀ (t : Fin 10) (r : Fin 2344) (l : Fin 128), xa0 t (ix2 r l) = A0 (ix2 ⟨t.val * 2344 + r.val, by omega⟩ l))
    (hxb0 : ∀ (t : Fin 10) (r : Fin 2344) (l : Fin 128), xb0 t (ix2 r l) = B0 (ix2 ⟨t.val * 2344 + r.val, by omega⟩ l))
    (hA0 : ∀ (i : Fin 23440) (l : Fin 128), A0 (ix2 i l)
      = if h : i.val * 128 + l.val < 3000000 then a (ix1 ⟨i.val * 128 + l.val, h⟩) else 0)
    (hB0 : ∀ (i : Fin 23440) (l : Fin 128), B0 (ix2 i l)
      = if h : i.val * 128 + l.val < 3000000 then y (ix1 ⟨i.val * 128 + l.val, h⟩) else 0)
    (hxa1 : ∀ (t : Fin 3) (r : Fin 1304) (l : Fin 128), xa1 t (ix2 r l) = A1 (ix2 ⟨t.val * 1304 + r.val, by omega⟩ l))
    (hxb1 : ∀ (t : Fin 3) (r : Fin 1304) (l : Fin 128), xb1 t (ix2 r l) = B1 (ix2 ⟨t.val * 1304 + r.val, by omega⟩ l))
    (hA1 : ∀ (i : Fin 3912) (l : Fin 128), A1 (ix2 i l)
      = if h : i.val * 128 + l.val < 500000 then p (ix1 ⟨i.val * 128 + l.val, h⟩) else 0)
    (hB1 : ∀ (i : Fin 3912) (l : Fin 128), B1 (ix2 i l)
      = if h : i.val * 128 + l.val < 500000 then hr (ix1 ⟨i.val * 128 + l.val, h⟩) else 0)
    (hx : ∀ (t : Fin 10) (r : Fin 50000) (k : Fin 6), x t (ix2 r k) = X (ix2 ⟨t.val * 50000 + r.val, by omega⟩ k))
    (hX : ∀ (r : Fin 500000) (k : Fin 6), X (ix2 r k) = g (ix1 ⟨r.val * 6 + k.val, by omega⟩)) :
    tailTotal (acc0 xa0 xb0 9 (by decide)) (acc1 xa1 xb1 2 (by decide)) (acc2 x 9 (by decide))
      = Cert.ReferenceIdeal.Read.val_main_v20 (F := Ideal) a g p y hr := by
  unfold tailTotal
  rw [result_l1 a y p hr A0 B0 A1 B1 xa0 xb0 xa1 xb1 hxa0 hxb0 hA0 hB0 hxa1 hxb1 hA1 hB1,
    result_smooth g X x hx hX]
  rfl

/-! The same three statements with the blocks given directly from the five arguments: block `t`'s row `r`
    and lane `l` is entry `(t * rows + r) * 128 + l` of the flat argument, zero past its end; the smoothness
    kernel's block `t`, row `r`, entry `k` is entry `(t * 50000 + r) * 6 + k`. -/

theorem result_l1_args
    (a y : (⟨1, ![3000000]⟩ : Shape).Idx → EReal) (p hr : (⟨1, ![500000]⟩ : Shape).Idx → EReal)
    (xa0 xb0 : Fin 10 → Vec Ideal S2344x128 .f32) (xa1 xb1 : Fin 3 → Vec Ideal S1304x128 .f32)
    (hxa0 : ∀ (t : Fin 10) (r : Fin 2344) (l : Fin 128), xa0 t (ix2 r l)
      = if h : (t.val * 2344 + r.val) * 128 + l.val < 3000000 then a (ix1 ⟨(t.val * 2344 + r.val) * 128 + l.val, h⟩) else 0)
    (hxb0 : ∀ (t : Fin 10) (r : Fin 2344) (l : Fin 128), xb0 t (ix2 r l)
      = if h : (t.val * 2344 + r.val) * 128 + l.val < 3000000 then y (ix1 ⟨(t.val * 2344 + r.val) * 128 + l.val, h⟩) else 0)
    (hxa1 : ∀ (t : Fin 3) (r : Fin 1304) (l : Fin 128), xa1 t (ix2 r l)
      = if h : (t.val * 1304 + r.val) * 128 + l.val < 500000 then p (ix1 ⟨(t.val * 1304 + r.val) * 128 + l.val, h⟩) else 0)
    (hxb1 : ∀ (t : Fin 3) (r : Fin 1304) (l : Fin 128), xb1 t (ix2 r l)
      = if h : (t.val * 1304 + r.val) * 128 + l.val < 500000 then hr (ix1 ⟨(t.val * 1304 + r.val) * 128 + l.val, h⟩) else 0) :
    tailL1 (acc0 xa0 xb0 9 (by decide)) (acc1 xa1 xb1 2 (by decide))
      = Cert.ReferenceIdeal.Read.val_main_v8 (F := Ideal) a p y hr :=
  result_l1 a y p hr
    (fun i => ext0 a ((i 0).val * 128 + (i 1).val)) (fun i => ext0 y ((i 0).val * 128 + (i 1).val))
    (fun i => ext0 p ((i 0).val * 128 + (i 1).val)) (fun i => ext0 hr ((i 0).val * 128 + (i 1).val))
    xa0 xb0 xa1 xb1 (fun t r l => hxa0 t r l) (fun t r l => hxb0 t r l) (fun _ _ => rfl) (fun _ _ => rfl)
    (fun t r l => hxa1 t r l) (fun t r l => hxb1 t r l) (fun _ _ => rfl) (fun _ _ => rfl)

theorem result_smooth_args
    (g : (⟨1, ![3000000]⟩ : Shape).Idx → EReal) (x : Fin 10 → Vec Ideal S50000x6 .f32)
    (hx : ∀ (t : Fin 10) (r : Fin 50000) (k : Fin 6), x t (ix2 r k)
      = g (ix1 ⟨(t.val * 50000 + r.val) * 6 + k.val, by omega⟩)) :
    tailSmooth (acc2 x 9 (by decide)) = Cert.ReferenceIdeal.Read.val_main_v18 (F := Ideal) g :=
  result_smooth g (fun i => g (ix1 ⟨(i 0).val * 6 + (i 1).val, by
      have h0 : (i 0).val < 500000 := (i 0).isLt
      have h1 : (i 1).val < 6 := (i 1).isLt
      omega⟩)) x (fun t r k => hx t r k) (fun _ _ => rfl)

theorem result_total_args
    (a g y : (⟨1, ![3000000]⟩ : Shape).Idx → EReal) (p hr : (⟨1, ![500000]⟩ : Shape).Idx → EReal)
    (xa0 xb0 : Fin 10 → Vec Ideal S2344x128 .f32) (xa1 xb1 : Fin 3 → Vec Ideal S1304x128 .f32)
    (x : Fin 10 → Vec Ideal S50000x6 .f32)
    (hxa0 : ∀ (t : Fin 10) (r : Fin 2344) (l : Fin 128), xa0 t (ix2 r l)
      = if h : (t.val * 2344 + r.val) * 128 + l.val < 3000000 then a (ix1 ⟨(t.val * 2344 + r.val) * 128 + l.val, h⟩) else 0)
    (hxb0 : ∀ (t : Fin 10) (r : Fin 2344) (l : Fin 128), xb0 t (ix2 r l)
      = if h : (t.val * 2344 + r.val) * 128 + l.val < 3000000 then y (ix1 ⟨(t.val * 2344 + r.val) * 128 + l.val, h⟩) else 0)
    (hxa1 : ∀ (t : Fin 3) (r : Fin 1304) (l : Fin 128), xa1 t (ix2 r l)
      = if h : (t.val * 1304 + r.val) * 128 + l.val < 500000 then p (ix1 ⟨(t.val * 1304 + r.val) * 128 + l.val, h⟩) else 0)
    (hxb1 : ∀ (t : Fin 3) (r : Fin 1304) (l : Fin 128), xb1 t (ix2 r l)
      = if h : (t.val * 1304 + r.val) * 128 + l.val < 500000 then hr (ix1 ⟨(t.val * 1304 + r.val) * 128 + l.val, h⟩) else 0)
    (hx : ∀ (t : Fin 10) (r : Fin 50000) (k : Fin 6), x t (ix2 r k)
      = g (ix1 ⟨(t.val * 50000 + r.val) * 6 + k.val, by omega⟩)) :
    tailTotal (acc0 xa0 xb0 9 (by decide)) (acc1 xa1 xb1 2 (by decide)) (acc2 x 9 (by decide))
      = Cert.ReferenceIdeal.Read.val_main_v20 (F := Ideal) a g p y hr := by
  unfold tailTotal
  rw [result_l1_args a y p hr xa0 xb0 xa1 xb1 hxa0 hxb0 hxa1 hxb1, result_smooth_args g x hx]
  rfl

end Cert.KernelIdeal.Val

end
-- ==== Proof.Bridge.lean ====
/-
  The join of the two sides at the ideal instance. The kernel program's three results are the host's arithmetic
  over the words the three regions leave; each word is the region's running sum over its whole grid; the grid's
  blocks are bands of rows of the region's input arrays, which are the arguments padded with zeros and reshaped to
  rows (or reshaped to rows of six). So each result is the reference's stage of the same five arguments.
-/
import proofs.«145632_j87290915324054_1_alg».proof.Proof.FrHostRead
import proofs.«145632_j87290915324054_1_alg».proof.Proof.R0Value
import proofs.«145632_j87290915324054_1_alg».proof.Proof.R1Value
import proofs.«145632_j87290915324054_1_alg».proof.Proof.R2Value
import proofs.«145632_j87290915324054_1_alg».proof.Proof.Results

set_option maxRecDepth 16384

noncomputable section

namespace Cert.KernelIdeal.Fr

open Idealize.ShloMosaic Idealize.ShloMosaic.TcCoe Idealize.SL.Sem
open Idealize.ShloMosaic.ValueIdx
open Cert.KernelIdeal Cert.KernelIdeal.Gen Cert.KernelIdeal.Val

variable (m : (ℓ : Loc nD τ sig) → Buf (Elt Ideal) ℓ) (ρ : Dev nD → PrngReg)

/-! ## The regions' input arrays: the arguments padded with zeros and reshaped -/

theorem hA0 (c : Dev nD) (i : Fin 23440) (l : Fin 128) : (V5 m ρ c main_v2 : S23440x128.Idx → EReal) (ix2 i l)
    = if h : i.val * 128 + l.val < 3000000 then (m ((c : Thread nD τ).loc main_arg0) : (⟨1, ![3000000]⟩ : Shape).Idx → EReal) (ix1 ⟨i.val * 128 + l.val, h⟩) else (0 : EReal) := by
  rw [V5_main_v2_apply (F := Ideal) m ρ c i l, padWord_ideal]

theorem hB0 (c : Dev nD) (i : Fin 23440) (l : Fin 128) : (V5 m ρ c main_v3 : S23440x128.Idx → EReal) (ix2 i l)
    = if h : i.val * 128 + l.val < 3000000 then (m ((c : Thread nD τ).loc main_arg3) : (⟨1, ![3000000]⟩ : Shape).Idx → EReal) (ix1 ⟨i.val * 128 + l.val, h⟩) else (0 : EReal) := by
  rw [V5_main_v3_apply (F := Ideal) m ρ c i l, padWord_ideal]

theorem hA1 (c : Dev nD) (i : Fin 3912) (l : Fin 128) : (V11 m ρ c main_v9 : S3912x128.Idx → EReal) (ix2 i l)
    = if h : i.val * 128 + l.val < 500000 then (m ((c : Thread nD τ).loc main_arg2) : (⟨1, ![500000]⟩ : Shape).Idx → EReal) (ix1 ⟨i.val * 128 + l.val, h⟩) else (0 : EReal) := by
  rw [V11_main_v9_apply (F := Ideal) m ρ c i l, padWord_ideal]

theorem hB1 (c : Dev nD) (i : Fin 3912) (l : Fin 128) : (V11 m ρ c main_v10 : S3912x128.Idx → EReal) (ix2 i l)
    = if h : i.val * 128 + l.val < 500000 then (m ((c : Thread nD τ).loc main_arg4) : (⟨1, ![500000]⟩ : Shape).Idx → EReal) (ix1 ⟨i.val * 128 + l.val, h⟩) else (0 : EReal) := by
  rw [V11_main_v10_apply (F := Ideal) m ρ c i l, padWord_ideal]

/-! ## The three results -/

/-- The second result (the sum of the two means) is the reference's. -/
theorem v14_eq (c : Dev nD) : W15 m ρ c (Proc.devRef .tc main_v14)
    = Cert.ReferenceIdeal.Read.val_main_v8 (F := Ideal) (m ((c : Thread nD τ).loc main_arg0)) (m ((c : Thread nD τ).loc main_arg2))
        (m ((c : Thread nD τ).loc main_arg3)) (m ((c : Thread nD τ).loc main_arg4)) := by
  rw [W15_main_v14_arr, final0, final1]
  exact (tailL1_eq _ _).symm.trans (result_l1 _ _ _ _
    (V5 m ρ c main_v2) (V5 m ρ c main_v3) (V11 m ρ c main_v9) (V11 m ρ c main_v10) _ _ _ _
    (iblk0_0_ix (V5 m ρ) c) (iblk0_1_ix (V5 m ρ) c) (hA0 m ρ c) (hB0 m ρ c)
    (iblk1_0_ix (V11 m ρ) c) (iblk1_1_ix (V11 m ρ) c) (hA1 m ρ c) (hB1 m ρ c))

/-- The third result (the smoothness term) is the reference's. -/
theorem v18_eq (c : Dev nD) : W15 m ρ c (Proc.devRef .tc main_v18)
    = Cert.ReferenceIdeal.Read.val_main_v18 (F := Ideal) (m ((c : Thread nD τ).loc main_arg1)) := by
  rw [W15_main_v18_arr, final2]
  exact (tailSmooth_eq _).symm.trans (result_smooth _ (V13 m ρ c main_v15) _
    (iblk2_0_ix (V13 m ρ) c) (V13_main_v15_apply (F := Ideal) m ρ c))

/-- The first result (the total) is the reference's. -/
theorem v20_eq (c : Dev nD) : W15 m ρ c (Proc.devRef .tc main_v20)
    = Cert.ReferenceIdeal.Read.val_main_v20 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  rw [W15_main_v20_arr, final0, final1, final2]
  exact (tailTotal_eq _ _ _).symm.trans (result_total _ _ _ _ _
    (V5 m ρ c main_v2) (V5 m ρ c main_v3) (V11 m ρ c main_v9) (V11 m ρ c main_v10) (V13 m ρ c main_v15) _ _ _ _ _
    (iblk0_0_ix (V5 m ρ) c) (iblk0_1_ix (V5 m ρ) c) (hA0 m ρ c) (hB0 m ρ c)
    (iblk1_0_ix (V11 m ρ) c) (iblk1_1_ix (V11 m ρ) c) (hA1 m ρ c) (hB1 m ρ c)
    (iblk2_0_ix (V13 m ρ) c) (V13_main_v15_apply (F := Ideal) m ρ c))

/-- The idealized kernel program's run with its three results and five arguments named. -/
theorem run_results : θ_run defs (onTc (τ := τ) (main (F := Ideal))) ⟨m, fun _ => 0, ρ⟩ (fun r => ∀ c : Dev nD,
      r.2.mem ((c.tc : Thread nD τ).loc main_v20) = W15 m ρ c (Proc.devRef .tc main_v20)
      ∧ r.2.mem ((c.tc : Thread nD τ).loc main_v14) = W15 m ρ c (Proc.devRef .tc main_v14)
      ∧ r.2.mem ((c.tc : Thread nD τ).loc main_v18) = W15 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v20 (by decide)), h c _ (mem_uc main_v14 (by decide)), h c _ (mem_uc main_v18 (by decide)),
     (h c _ (mem_uc main_arg0 (by decide))).trans (W15_main_arg0 m ρ c),
     (h c _ (mem_uc main_arg1 (by decide))).trans (W15_main_arg1 m ρ c),
     (h c _ (mem_uc main_arg2 (by decide))).trans (W15_main_arg2 m ρ c),
     (h c _ (mem_uc main_arg3 (by decide))).trans (W15_main_arg3 m ρ c),
     (h c _ (mem_uc main_arg4 (by decide))).trans (W15_main_arg4 m ρ c)⟩) (run_all m ρ)

end Cert.KernelIdeal.Fr

end
-- ==== Proof.lean ====
/-
  The certificate of the three-reduction loss kernel against its jnp reference.

  The kernel program computes mean(|resnet − y|) + mean(|average_pred − average_hr|) and the smoothness term
  sum(|x − rowmean(x)|)/6 over the [500000,6] view of gru_pred with three grid reductions, each keeping a running sum
  in a one-word scratch: reset at the first grid point, the point's block sum added at every point, the word copied
  to the [1,1] output at the last point. The first two reductions read their arrays zero-padded to a whole number of
  [8,128] tiles; a padded entry contributes |0 − 0| = 0.

  Frames. Each region's body is run in its three cases (first, middle, last point); the region's invariant tracks the
  scratch at the running sum of the blocks so far; @main is the list of its twelve host stretches and three regions
  over valuations of every unscoped buffer, folded from the launch memory. The arguments are read back through that
  fold unchanged. The word-level program has the same text and the same proof at the bit-exact instance.

  Values. At the ideal instance the scratch after the last point is the sum over all blocks, the blocks are bands of
  rows of the padded array, so the output word is the sum over the whole padded array, which is the sum over the
  argument; the reference's reduce is the same sum. Both sides then divide by the same words (3000000, 500000, 6) and
  scale by the same word (100): equal as extended reals by re-association of finite sums alone.
-/
import proofs.«145632_j87290915324054_1_alg».proof.Defs
import proofs.«145632_j87290915324054_1_alg».proof.Proof.Gen.Kernel
import proofs.«145632_j87290915324054_1_alg».proof.Proof.Gen.KernelIdeal
import proofs.«145632_j87290915324054_1_alg».proof.Proof.Gen.ReferenceIdeal
import proofs.«145632_j87290915324054_1_alg».proof.Proof.Gen.Pre_finite_inputs
import proofs.«145632_j87290915324054_1_alg».proof.Proof.Gen.ReferenceIdeal.Run
import proofs.«145632_j87290915324054_1_alg».proof.Proof.BitsFrRun
import proofs.«145632_j87290915324054_1_alg».proof.Proof.FrRun
import proofs.«145632_j87290915324054_1_alg».proof.Proof.Gen.ReferenceIdeal.Read
import proofs.«145632_j87290915324054_1_alg».proof.Proof.Bridge
import Idealize.ShloMosaic.Adequacy
import Idealize.ShloMosaic.Init

noncomputable section

namespace Cert.Proof

open Idealize.ShloMosaic Idealize.SL.Sem

/-- The word-level program runs and leaves its arguments unchanged. -/
theorem frame_k : Cert.frame_Kernel := fun m ρ _ => Cert.Kernel.Fr.frame (F := Bits) m ρ

/-- So does the idealized program. -/
theorem frame_ki : Cert.frame_KernelIdeal := fun m ρ _ => Cert.KernelIdeal.Fr.frame (F := Ideal) m ρ

/-- The reference has no kernel: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- From memories agreeing on the five arguments both idealized programs run, and end with equal results: the kernel
    program's three results are the reference's stages of the same arguments (the region sums regrouped, the padding
    zero), and the reference's run ends at those stages. -/
theorem algebraic : Cert.algebraic_KernelIdeal_ReferenceIdeal := by
  intro m ρ m' ρ' _ hagree
  refine ⟨fun c => Cert.KernelIdeal.Fr.W15 m ρ c (Proc.devRef .tc Cert.KernelIdeal.main_v20),
    fun c => Cert.KernelIdeal.Fr.W15 m ρ c (Proc.devRef .tc Cert.KernelIdeal.main_v14),
    fun c => Cert.KernelIdeal.Fr.W15 m ρ c (Proc.devRef .tc Cert.KernelIdeal.main_v18),
    Cert.KernelIdeal.Fr.run_results m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [(hagree c).1, (hagree c).2.1, (hagree c).2.2.1, (hagree c).2.2.2.1, (hagree c).2.2.2.2]
    exact (Cert.ReferenceIdeal.Read.val_main_v20_eq _ _ _ _ _).trans (Cert.KernelIdeal.Fr.v20_eq m ρ c).symm
  · rw [(hagree c).1, (hagree c).2.2.1, (hagree c).2.2.2.1, (hagree c).2.2.2.2]
    exact (Cert.ReferenceIdeal.Read.val_main_v8_eq _ _ _ _).trans (Cert.KernelIdeal.Fr.v14_eq m ρ c).symm
  · rw [(hagree c).2.1]
    exact (Cert.ReferenceIdeal.Read.val_main_v18_eq _).trans (Cert.KernelIdeal.Fr.v18_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
